-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v36_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v36_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg13 : FVec F S128 .f32) (main_arg14 : FVec F S128 .f32) (main_arg15 : FVec F S128 .f32) (main_arg16 : FVec F S128 .f32) (main_arg17 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S50000x128 .f32) (main_arg1 : FVec F S600000x128 .f32) (main_arg2 : IVec S600000 32) (main_arg3 : IVec S600000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩
abbrev S800x128 : Shape := ⟨2, ![800, 128]⟩
abbrev S6000x128 : Shape := ⟨2, ![6000, 128]⟩
abbrev S8x128 : Shape := ⟨2, ![8, 128]⟩
abbrev S3000x128 : Shape := ⟨2, ![3000, 128]⟩
abbrev S80x128 : Shape := ⟨2, ![80, 128]⟩
abbrev S5000x128 : Shape := ⟨2, ![5000, 128]⟩

abbrev nBuf : Space → Nat
  | .hbm => 106
  | .vmem => 62
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S600000, .i32⟩
  | .hbm, ⟨3, _⟩ => ⟨S600000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S_, .i32⟩
  | .hbm, ⟨19, _⟩ => ⟨S600000, .i32⟩
  | .hbm, ⟨20, _⟩ => ⟨S600000, .i1⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S600000, .i32⟩
  | .hbm, ⟨25, _⟩ => ⟨S600000x1, .i32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S800x128, .f32⟩
  | .hbm, ⟨46, _⟩ => ⟨S800x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S1x128, .f32⟩
  | .hbm, ⟨64, _⟩ => ⟨S600000x128, .f32⟩
  | .hbm, ⟨65, _⟩ => ⟨S600000x128, .f32⟩
  | .hbm, ⟨66, _⟩ => ⟨S600000x128, .f32⟩
  | .hbm, ⟨67, _⟩ => ⟨S600000x128, .f32⟩
  | .hbm, ⟨68, _⟩ => ⟨S_, .f32⟩
  | .hbm, ⟨69, _⟩ => ⟨S600000x128, .f32⟩
  | .hbm, ⟨70, _⟩ => ⟨S600000x128, .f32⟩
  | .hbm, ⟨71, _⟩ => ⟨S_, .f32⟩
  | .hbm, ⟨72, _⟩ => ⟨S600000x128, .f32⟩
  | .hbm, ⟨73, _⟩ => ⟨S600000x128, .f32⟩
  | .hbm, ⟨74, _⟩ => ⟨S_, .f32⟩
  | .hbm, ⟨75, _⟩ => ⟨S50000x128, .f32⟩
  | .hbm, ⟨76, _⟩ => ⟨S600000x1, .i32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S600000x1, .i32⟩
  | .hbm, ⟨84, _⟩ => ⟨S50000x128, .f32⟩
  | .hbm, ⟨85, _⟩ => ⟨S50000x128, .f32⟩
  | .hbm, ⟨86, _⟩ => ⟨S80x128, .f32⟩
  | .hbm, ⟨87, _⟩ => ⟨S80x128, .f32⟩
  | .hbm, ⟨88, _⟩ => ⟨S_, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S50000x128, .f32⟩
  | .local _ .vmem, ⟨0, _⟩ => ⟨S6000x128, .f32⟩
  | .local _ .vmem, ⟨1, _⟩ => ⟨S6000x128, .f32⟩
  | .local _ .vmem, ⟨2, _⟩ => ⟨S6000x128, .f32⟩
  | .local _ .vmem, ⟨3, _⟩ => ⟨S6000x128, .f32⟩
  | .local _ .vmem, ⟨4, _⟩ => ⟨S6000x128, .f32⟩
  | .local _ .vmem, ⟨5, _⟩ => ⟨S6000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S3000x128, .f32⟩
  | .local _ .vmem, ⟨17, _⟩ => ⟨S3000x128, .f32⟩
  | .local _ .vmem, ⟨18, _⟩ => ⟨S3000x128, .f32⟩
  | .local _ .vmem, ⟨19, _⟩ => ⟨S3000x128, .f32⟩
  | .local _ .vmem, ⟨20, _⟩ => ⟨S3000x128, .f32⟩
  | .local _ .vmem, ⟨21, _⟩ => ⟨S3000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S3000x128, .f32⟩
  | .local _ .vmem, ⟨35, _⟩ => ⟨S3000x128, .f32⟩
  | .local _ .vmem, ⟨36, _⟩ => ⟨S3000x128, .f32⟩
  | .local _ .vmem, ⟨37, _⟩ => ⟨S3000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S8x128, .f32⟩
  | .local _ .vmem, ⟨49, _⟩ => ⟨S8x128, .f32⟩
  | .local _ .vmem, ⟨50, _⟩ => ⟨S8x128, .f32⟩
  | .local _ .vmem, ⟨51, _⟩ => ⟨S8x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23_0 : Ref sig .tc := ⟨.hbm, 45, rfl⟩
abbrev main_v23_1 : Ref sig .tc := ⟨.hbm, 46, rfl⟩
abbrev main_cst : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_cst_4 : Ref sig .tc := ⟨.hbm, 51, rfl⟩
abbrev main_v26 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_6 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36_0 : Ref sig .tc := ⟨.hbm, 64, rfl⟩
abbrev main_v36_1 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_10 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51_0 : Ref sig .tc := ⟨.hbm, 85, rfl⟩
abbrev main_v51_1 : Ref sig .tc := ⟨.hbm, 86, rfl⟩
abbrev main_v51_2 : Ref sig .tc := ⟨.hbm, 87, rfl⟩
abbrev main_cst_12 : Ref sig .tc := ⟨.hbm, 88, rfl⟩
abbrev main_v52 : Ref sig .tc := ⟨.hbm, 89, rfl⟩
abbrev main_cst_13 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_v55 : Ref sig .tc := ⟨.hbm, 94, rfl⟩
abbrev main_cst_15 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_16 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg12_0 : Ref sig .tc := ⟨.vmem, 31, rfl⟩
abbrev cc1_stg13_0 : Ref sig .tc := ⟨.vmem, 32, rfl⟩
abbrev cc1_stg14_0 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_stg16_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg2_1 : Ref sig .tc := ⟨.vmem, 43, rfl⟩
abbrev cc2_stg3_0 : Ref sig .tc := ⟨.vmem, 44, rfl⟩
abbrev cc2_stg4_0 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc3_stg0_0 : Ref sig .tc := ⟨.vmem, 52, rfl⟩
abbrev cc3_stg0_1 : Ref sig .tc := ⟨.vmem, 53, rfl⟩
abbrev cc3_stg1_0 : Ref sig .tc := ⟨.vmem, 54, rfl⟩
abbrev cc3_stg1_1 : Ref sig .tc := ⟨.vmem, 55, rfl⟩
abbrev cc3_stg2_0 : Ref sig .tc := ⟨.vmem, 56, rfl⟩
abbrev cc3_stg3_0 : Ref sig .tc := ⟨.vmem, 57, rfl⟩
abbrev cc3_stg4_0 : Ref sig .tc := ⟨.vmem, 58, rfl⟩
abbrev cc3_stg5_0 : Ref sig .tc := ⟨.vmem, 59, rfl⟩
abbrev cc3_stg6_0 : Ref sig .tc := ⟨.vmem, 60, rfl⟩
abbrev cc3_stg6_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem12_0 : DmaSem sig := 31
abbrev cc1_sem13_0 : DmaSem sig := 32
abbrev cc1_sem14_0 : DmaSem sig := 33
abbrev cc1_sem15_0 : DmaSem sig := 34
abbrev cc1_sem15_1 : DmaSem sig := 35
abbrev cc1_sem16_0 : DmaSem sig := 36
abbrev cc1_sem16_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem2_1 : DmaSem sig := 43
abbrev cc2_sem3_0 : DmaSem sig := 44
abbrev cc2_sem4_0 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc3_sem0_0 : DmaSem sig := 52
abbrev cc3_sem0_1 : DmaSem sig := 53
abbrev cc3_sem1_0 : DmaSem sig := 54
abbrev cc3_sem1_1 : DmaSem sig := 55
abbrev cc3_sem2_0 : DmaSem sig := 56
abbrev cc3_sem3_0 : DmaSem sig := 57
abbrev cc3_sem4_0 : DmaSem sig := 58
abbrev cc3_sem5_0 : DmaSem sig := 59
abbrev cc3_sem6_0 : DmaSem sig := 60
abbrev cc3_sem6_1 : DmaSem sig := 61

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S3000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S3000x128 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  shapeCasts_S128_S1x128 : S128.ShapeCasts S1x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  reduces_S6000x128_S128 : S6000x128.Reduces [0] S128
  iota_S8x128_d0_w32 : S8x128.Iotas .tc 32 [0]
  broadcasts_S1x128_S8x128 : S1x128.Broadcasts S8x128
  inb_S8x128_S8x128_0_0 : ∀ a, (![0, 0] : Fin 2 → Nat) a + S8x128.size a ≤ S8x128.size a
  h_S8x128 : 0 < S8x128.numel
  reducesTo_S800x128_S128_d0 : S800x128.ReducesTo [0] S128
  h_S_ : 0 < S_.numel
  bcast_S_S128 : S_.BroadcastsInDim S128 (![] : Fin 0 → Fin S128.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  broadcasts_S1x128_S3000x128 : S1x128.Broadcasts S3000x128
  bcast_S_S600000x128 : S_.BroadcastsInDim S600000x128 (![] : Fin 0 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S5000x128_S5000x128 : S5000x128.ShapeCasts S5000x128
  reduces_S5000x128_S128 : S5000x128.Reduces [0] S128
  reducesTo_S80x128_S128_d0 : S80x128.ReducesTo [0] S128
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  dot_S3000x128_S128x128_S3000x128_1_0_0_1_n_n_wf : DotDims.WF S3000x128 S128x128 S3000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x128.size a ≤ S600000x128.size a
  hwx0_0 : ∀ i : grid0.Coords, EltTy.bits .f32 = 32 ∨ (Rect.block (s := S600000x128) S6000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6000x128.size a ≤ S600000x128.size a
  hwx0_1 : ∀ i : grid0.Coords, EltTy.bits .f32 = 32 ∨ (Rect.block (s := S600000x128) S6000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6000x128.size a ≤ S600000x128.size a
  hwx0_2 : ∀ i : grid0.Coords, EltTy.bits .f32 = 32 ∨ (Rect.block (s := S600000x128) S6000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S800x128.size a
  hwx0_9 : ∀ i : grid0.Coords, EltTy.bits .f32 = 32 ∨ (Rect.block (s := S800x128) S8x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S800x128.size a
  hwx0_10 : ∀ i : grid0.Coords, EltTy.bits .f32 = 32 ∨ (Rect.block (s := S800x128) S8x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S600000x128.size a
  hwx1_0 : ∀ i : grid1.Coords, EltTy.bits .f32 = 32 ∨ (Rect.block (s := S600000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x128.size a ≤ S600000x128.size a
  hwx1_1 : ∀ i : grid1.Coords, EltTy.bits .f32 = 32 ∨ (Rect.block (s := S600000x128) S3000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x128.size a ≤ S600000x128.size a
  hwx1_2 : ∀ i : grid1.Coords, EltTy.bits .f32 = 32 ∨ (Rect.block (s := S600000x128) S3000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x128.size a ≤ S128x128.size a
  hwx1_9 : ∀ i : grid1.Coords, EltTy.bits .f32 = 32 ∨ (Rect.block (s := S128x128) S128x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x128.size a ≤ S1x128.size a
  hwx1_11 : ∀ i : grid1.Coords, EltTy.bits .f32 = 32 ∨ (Rect.block (s := S1x128) S1x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x128.size a ≤ S1x128.size a
  hwx1_12 : ∀ i : grid1.Coords, EltTy.bits .f32 = 32 ∨ (Rect.block (s := S1x128) S1x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x128.size a ≤ S1x128.size a
  hwx1_13 : ∀ i : grid1.Coords, EltTy.bits .f32 = 32 ∨ (Rect.block (s := S1x128) S1x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S3000x128.size a ≤ S600000x128.size a
  hwx1_15 : ∀ i : grid1.Coords, EltTy.bits .f32 = 32 ∨ (Rect.block (s := S600000x128) S3000x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S3000x128.size a ≤ S600000x128.size a
  hwx1_16 : ∀ i : grid1.Coords, EltTy.bits .f32 = 32 ∨ (Rect.block (s := S600000x128) S3000x128.size (cc1_transform_16 i) (hinb1_16 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S80x128.size a
  hwx2_6 : ∀ i : grid2.Coords, EltTy.bits .f32 = 32 ∨ (Rect.block (s := S80x128) S8x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x128.size a ≤ S80x128.size a
  hwx2_7 : ∀ i : grid2.Coords, EltTy.bits .f32 = 32 ∨ (Rect.block (s := S80x128) S8x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v6) S6000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23_0) S8x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v23_1) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v6) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S3000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S3000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg12) S128x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v18) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v34) S1x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v35) S1x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v19) S1x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v20) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v36_0) S3000x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v36_1) S3000x128.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v51_1) S8x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v51_2) S8x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v51_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v21) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v22) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S600000 : Shape := ⟨1, ![600000]⟩
abbrev S128x128 : Shape := ⟨2, ![128, 128]⟩
abbrev S128 : Shape := ⟨1, ![128]⟩
abbrev S_ : Shape := ⟨0, ![]⟩
abbrev S600000x1 : Shape := ⟨2, ![600000, 1]⟩
abbrev S1x128 : Shape := ⟨2, ![1, 128]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S600000x128, .f32⟩
  | 2 => ⟨S600000, .i32⟩
  | 3 => ⟨S600000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S_, .i32⟩
  | 19 => ⟨S600000, .i32⟩
  | 20 => ⟨S600000, .i1⟩
  | 21 => ⟨S_, .i32⟩
  | 22 => ⟨S600000, .i32⟩
  | 23 => ⟨S600000, .i32⟩
  | 24 => ⟨S600000, .i32⟩
  | 25 => ⟨S600000x1, .i32⟩
  | 26 => ⟨S600000x128, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x128, .f32⟩
  | 36 => ⟨S600000x128, .f32⟩
  | 37 => ⟨S1x128, .f32⟩
  | 38 => ⟨S600000x128, .f32⟩
  | 39 => ⟨S600000x128, .f32⟩
  | 40 => ⟨S600000x128, .f32⟩
  | 41 => ⟨S1x128, .f32⟩
  | 42 => ⟨S600000x128, .f32⟩
  | 43 => ⟨S600000x128, .f32⟩
  | 44 => ⟨S600000x128, .f32⟩
  | 45 => ⟨S600000x128, .f32⟩
  | 46 => ⟨S1x128, .f32⟩
  | 47 => ⟨S600000x128, .f32⟩
  | 48 => ⟨S600000x128, .f32⟩
  | 49 => ⟨S600000x128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S600000x128, .f32⟩
  | 63 => ⟨S600000x128, .f32⟩
  | 64 => ⟨S600000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S600000x128, .f32⟩
  | 80 => ⟨S600000x128, .f32⟩
  | 81 => ⟨S_, .f32⟩
  | 82 => ⟨S128, .f32⟩
  | 83 => ⟨S128, .f32⟩
  | 84 => ⟨S128, .f32⟩
  | 85 => ⟨S1x128, .f32⟩
  | 86 => ⟨S600000x128, .f32⟩
  | 87 => ⟨S600000x128, .f32⟩
  | 88 => ⟨S1x128, .f32⟩
  | 89 => ⟨S600000x128, .f32⟩
  | 90 => ⟨S600000x128, .f32⟩
  | 91 => ⟨S1x128, .f32⟩
  | 92 => ⟨S600000x128, .f32⟩
  | 93 => ⟨S600000x128, .f32⟩
  | 94 => ⟨S_, .f32⟩
  | 95 => ⟨S600000x128, .f32⟩
  | 96 => ⟨S600000x128, .f32⟩
  | 97 => ⟨S600000x128, .f32⟩
  | 98 => ⟨S600000x128, .f32⟩
  | 99 => ⟨S600000x128, .f32⟩
  | 100 => ⟨S_, .f32⟩
  | 101 => ⟨S600000x128, .f32⟩
  | 102 => ⟨S600000x128, .f32⟩
  | 103 => ⟨S_, .f32⟩
  | 104 => ⟨S600000x128, .f32⟩
  | 105 => ⟨S600000x128, .f32⟩
  | 106 => ⟨S_, .f32⟩
  | 107 => ⟨S50000x128, .f32⟩
  | 108 => ⟨S600000x1, .i32⟩
  | 109 => ⟨S50000x128, .f32⟩
  | 110 => ⟨S_, .f32⟩
  | 111 => ⟨S50000x128, .f32⟩
  | 112 => ⟨S50000x128, .f32⟩
  | 113 => ⟨S600000x128, .f32⟩
  | 114 => ⟨S1x128, .f32⟩
  | 115 => ⟨S600000x128, .f32⟩
  | 116 => ⟨S600000x128, .f32⟩
  | 117 => ⟨S600000x128, .f32⟩
  | 118 => ⟨S_, .f32⟩
  | 119 => ⟨S50000x128, .f32⟩
  | 120 => ⟨S600000x1, .i32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S_, .i32⟩
  | 6 => ⟨S_, .f32⟩
  | 7 => ⟨S128, .f32⟩
  | 8 => ⟨S1x128, .f32⟩
  | 9 => ⟨S_, .f32⟩
  | 10 => ⟨S1x128, .f32⟩
  | 11 => ⟨S1x128, .f32⟩
  | 12 => ⟨S50000x128, .f32⟩
  | 13 => ⟨S50000x128, .f32⟩
  | 14 => ⟨S50000x128, .f32⟩
  | 15 => ⟨S_, .f32⟩
  | 16 => ⟨S_, .f32⟩
  | 17 => ⟨S_, .f32⟩
  | 18 => ⟨S_, .f32⟩
  | 19 => ⟨S128, .f32⟩
  | 20 => ⟨S128, .f32⟩
  | 21 => ⟨S128, .f32⟩
  | 22 => ⟨S_, .f32⟩
  | 23 => ⟨S_, .i1⟩
  | 24 => ⟨S_, .f32⟩
  | 25 => ⟨S_, .f32⟩
  | 26 => ⟨S128, .f32⟩
  | 27 => ⟨S128, .f32⟩
  | 28 => ⟨S1x128, .f32⟩
  | 29 => ⟨S50000x128, .f32⟩
  | 30 => ⟨S50000x128, .f32⟩
  | 31 => ⟨S_, .f32⟩
  | 32 => ⟨S128, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_c : Ref sig .tc := ⟨.hbm, 18, rfl⟩
abbrev main_v0 : Ref sig .tc := ⟨.hbm, 19, rfl⟩
abbrev main_v1 : Ref sig .tc := ⟨.hbm, 20, rfl⟩
abbrev main_c_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst : Ref sig .tc := ⟨.hbm, 50, rfl⟩
abbrev main_v28 : Ref sig .tc := ⟨.hbm, 51, rfl⟩
abbrev main_cst_3 : Ref sig .tc := ⟨.hbm, 52, rfl⟩
abbrev main_v29 : Ref sig .tc := ⟨.hbm, 53, rfl⟩
abbrev main_v30 : Ref sig .tc := ⟨.hbm, 54, rfl⟩
abbrev main_c_4 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_5 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_call1_cst : Ref sig .tc := ⟨.hbm, 94, rfl⟩
abbrev main_call1_v0 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_6 : Ref sig .tc := ⟨.hbm, 100, rfl⟩
abbrev main_v51 : Ref sig .tc := ⟨.hbm, 101, rfl⟩
abbrev main_v52 : Ref sig .tc := ⟨.hbm, 102, rfl⟩
abbrev main_cst_7 : Ref sig .tc := ⟨.hbm, 103, rfl⟩
abbrev main_v53 : Ref sig .tc := ⟨.hbm, 104, rfl⟩
abbrev main_v54 : Ref sig .tc := ⟨.hbm, 105, rfl⟩
abbrev main_cst_8 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_9 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_10 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_cst_11 : Ref sig .tc := ⟨.hbm, 128, rfl⟩
abbrev main_v74 : Ref sig .tc := ⟨.hbm, 129, rfl⟩
abbrev main_cst_12 : Ref sig .tc := ⟨.hbm, 130, rfl⟩
abbrev main_v75 : Ref sig .tc := ⟨.hbm, 131, rfl⟩
abbrev main_v76 : Ref sig .tc := ⟨.hbm, 132, rfl⟩
abbrev main_c_13 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_cst_14 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_call3_cst : Ref sig .tc := ⟨.hbm, 172, rfl⟩
abbrev main_call3_v0 : Ref sig .tc := ⟨.hbm, 173, rfl⟩
abbrev main_v93 : Ref sig .tc := ⟨.hbm, 174, rfl⟩
abbrev main_v94 : Ref sig .tc := ⟨.hbm, 175, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  reducesTo_S600000x128_S128_d0 : S600000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  reducesTo_S50000x128_S128_d0 : S50000x128.ReducesTo [0] S128
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Walk.lean ====
/-
  Which buffers a segment of the kernel program leaves alone.  A region rewrites only its output windows' arrays (an
  input window's array is read, every other buffer is not touched); a host stretch rewrites only the buffers its
  operations name as results.  So a buffer's contents at a later boundary are its contents at an earlier one whenever
  nothing in between writes it.
-/
import proofs.«145784_j42537356100034_2_alg».proof.Proof.Gen.KernelIdeal.Frame
import Idealize.ShloMosaic.Lib.StableHlo.Run
import Idealize.ShloMosaic.PureOps.Ideal

noncomputable section

namespace Cert.KernelIdeal.Walk

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- A host stretch leaves a buffer none of its operations writes. -/
macro "host_keep" : tactic =>
  `(tactic| (refine StableHlo.after_of_forall_not_mem _ _ (List.forall_iff_forall_mem.mp ?_)
             simp only [hostOps0, hostOps1, hostOps2, hostOps3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- The first region leaves every buffer but its two statistics arrays. -/
theorem keep0 (c : Dev nD) (b : Ref sig .tc) (h1 : b ≠ main_v23_0) (h2 : b ≠ main_v23_1) :
    W2 m ρ c (Proc.devRef .tc b) = W1 m ρ c (Proc.devRef .tc b) := by
  by_cases h : ∃ w, Pipeline.arrRef spec0 w = b
  · obtain ⟨w, rfl⟩ := h
    fin_cases w
    · exact (W2_arr m ρ c 0).trans (((dat0 (V1 m ρ) c).arrAt_in 0 rfl _).trans (A_eq0 (V1 m ρ) c 0))
    · exact (W2_arr m ρ c 1).trans (((dat0 (V1 m ρ) c).arrAt_in 1 rfl _).trans (A_eq0 (V1 m ρ) c 1))
    · exact (W2_arr m ρ c 2).trans (((dat0 (V1 m ρ) c).arrAt_in 2 rfl _).trans (A_eq0 (V1 m ρ) c 2))
    · exact (W2_arr m ρ c 3).trans (((dat0 (V1 m ρ) c).arrAt_in 3 rfl _).trans (A_eq0 (V1 m ρ) c 3))
    · exact (W2_arr m ρ c 4).trans (((dat0 (V1 m ρ) c).arrAt_in 4 rfl _).trans (A_eq0 (V1 m ρ) c 4))
    · exact (W2_arr m ρ c 5).trans (((dat0 (V1 m ρ) c).arrAt_in 5 rfl _).trans (A_eq0 (V1 m ρ) c 5))
    · exact (W2_arr m ρ c 6).trans (((dat0 (V1 m ρ) c).arrAt_in 6 rfl _).trans (A_eq0 (V1 m ρ) c 6))
    · exact (W2_arr m ρ c 7).trans (((dat0 (V1 m ρ) c).arrAt_in 7 rfl _).trans (A_eq0 (V1 m ρ) c 7))
    · exact (W2_arr m ρ c 8).trans (((dat0 (V1 m ρ) c).arrAt_in 8 rfl _).trans (A_eq0 (V1 m ρ) c 8))
    · exact absurd rfl h1
    · exact absurd rfl h2
  · exact W2_of_ne m ρ c b (fun w e => h ⟨w, e⟩)

/-- The second region leaves every buffer but its two result arrays. -/
theorem keep1 (c : Dev nD) (b : Ref sig .tc) (h1 : b ≠ main_v36_0) (h2 : b ≠ main_v36_1) :
    W4 m ρ c (Proc.devRef .tc b) = W3 m ρ c (Proc.devRef .tc b) := by
  by_cases h : ∃ w, Pipeline.arrRef spec1 w = b
  · obtain ⟨w, rfl⟩ := h
    fin_cases w
    · exact (W4_arr m ρ c 0).trans (((dat1 (V3 m ρ) c).arrAt_in 0 rfl _).trans (A_eq1 (V3 m ρ) c 0))
    · exact (W4_arr m ρ c 1).trans (((dat1 (V3 m ρ) c).arrAt_in 1 rfl _).trans (A_eq1 (V3 m ρ) c 1))
    · exact (W4_arr m ρ c 2).trans (((dat1 (V3 m ρ) c).arrAt_in 2 rfl _).trans (A_eq1 (V3 m ρ) c 2))
    · exact (W4_arr m ρ c 3).trans (((dat1 (V3 m ρ) c).arrAt_in 3 rfl _).trans (A_eq1 (V3 m ρ) c 3))
    · exact (W4_arr m ρ c 4).trans (((dat1 (V3 m ρ) c).arrAt_in 4 rfl _).trans (A_eq1 (V3 m ρ) c 4))
    · exact (W4_arr m ρ c 5).trans (((dat1 (V3 m ρ) c).arrAt_in 5 rfl _).trans (A_eq1 (V3 m ρ) c 5))
    · exact (W4_arr m ρ c 6).trans (((dat1 (V3 m ρ) c).arrAt_in 6 rfl _).trans (A_eq1 (V3 m ρ) c 6))
    · exact (W4_arr m ρ c 7).trans (((dat1 (V3 m ρ) c).arrAt_in 7 rfl _).trans (A_eq1 (V3 m ρ) c 7))
    · exact (W4_arr m ρ c 8).trans (((dat1 (V3 m ρ) c).arrAt_in 8 rfl _).trans (A_eq1 (V3 m ρ) c 8))
    · exact (W4_arr m ρ c 9).trans (((dat1 (V3 m ρ) c).arrAt_in 9 rfl _).trans (A_eq1 (V3 m ρ) c 9))
    · exact (W4_arr m ρ c 10).trans (((dat1 (V3 m ρ) c).arrAt_in 10 rfl _).trans (A_eq1 (V3 m ρ) c 10))
    · exact (W4_arr m ρ c 11).trans (((dat1 (V3 m ρ) c).arrAt_in 11 rfl _).trans (A_eq1 (V3 m ρ) c 11))
    · exact (W4_arr m ρ c 12).trans (((dat1 (V3 m ρ) c).arrAt_in 12 rfl _).trans (A_eq1 (V3 m ρ) c 12))
    · exact (W4_arr m ρ c 13).trans (((dat1 (V3 m ρ) c).arrAt_in 13 rfl _).trans (A_eq1 (V3 m ρ) c 13))
    · exact (W4_arr m ρ c 14).trans (((dat1 (V3 m ρ) c).arrAt_in 14 rfl _).trans (A_eq1 (V3 m ρ) c 14))
    · exact absurd rfl h1
    · exact absurd rfl h2
  · exact W4_of_ne m ρ c b (fun w e => h ⟨w, e⟩)

/-- The third region leaves every buffer but its three result arrays. -/
theorem keep2 (c : Dev nD) (b : Ref sig .tc) (h1 : b ≠ main_v51_0) (h2 : b ≠ main_v51_1) (h3 : b ≠ main_v51_2) :
    W6 m ρ c (Proc.devRef .tc b) = W5 m ρ c (Proc.devRef .tc b) := by
  by_cases h : ∃ w, Pipeline.arrRef spec2 w = b
  · obtain ⟨w, rfl⟩ := h
    fin_cases w
    · exact (W6_arr m ρ c 0).trans (((dat2 (V5 m ρ) c).arrAt_in 0 rfl _).trans (A_eq2 (V5 m ρ) c 0))
    · exact (W6_arr m ρ c 1).trans (((dat2 (V5 m ρ) c).arrAt_in 1 rfl _).trans (A_eq2 (V5 m ρ) c 1))
    · exact (W6_arr m ρ c 2).trans (((dat2 (V5 m ρ) c).arrAt_in 2 rfl _).trans (A_eq2 (V5 m ρ) c 2))
    · exact (W6_arr m ρ c 3).trans (((dat2 (V5 m ρ) c).arrAt_in 3 rfl _).trans (A_eq2 (V5 m ρ) c 3))
    · exact (W6_arr m ρ c 4).trans (((dat2 (V5 m ρ) c).arrAt_in 4 rfl _).trans (A_eq2 (V5 m ρ) c 4))
    · exact absurd rfl h1
    · exact absurd rfl h2
    · exact absurd rfl h3
  · exact W6_of_ne m ρ c b (fun w e => h ⟨w, e⟩)

/-- The fourth region leaves every buffer but its result array. -/
theorem keep3 (c : Dev nD) (b : Ref sig .tc) (h1 : b ≠ main_v64) :
    W8 m ρ c (Proc.devRef .tc b) = W7 m ρ c (Proc.devRef .tc b) := by
  by_cases h : ∃ w, Pipeline.arrRef spec3 w = b
  · obtain ⟨w, rfl⟩ := h
    fin_cases w
    · exact (W8_arr m ρ c 0).trans (((dat3 (V7 m ρ) c).arrAt_in 0 rfl _).trans (A_eq3 (V7 m ρ) c 0))
    · exact (W8_arr m ρ c 1).trans (((dat3 (V7 m ρ) c).arrAt_in 1 rfl _).trans (A_eq3 (V7 m ρ) c 1))
    · exact (W8_arr m ρ c 2).trans (((dat3 (V7 m ρ) c).arrAt_in 2 rfl _).trans (A_eq3 (V7 m ρ) c 2))
    · exact (W8_arr m ρ c 3).trans (((dat3 (V7 m ρ) c).arrAt_in 3 rfl _).trans (A_eq3 (V7 m ρ) c 3))
    · exact (W8_arr m ρ c 4).trans (((dat3 (V7 m ρ) c).arrAt_in 4 rfl _).trans (A_eq3 (V7 m ρ) c 4))
    · exact (W8_arr m ρ c 5).trans (((dat3 (V7 m ρ) c).arrAt_in 5 rfl _).trans (A_eq3 (V7 m ρ) c 5))
    · exact absurd rfl h1
  · exact W8_of_ne m ρ c b (fun w e => h ⟨w, e⟩)

end Cert.KernelIdeal.Walk

end
-- ==== Proof.HostK.lean ====
/-
  The kernel program's host stretches, read: what each buffer a later region needs holds after a stretch, as the
  stretch's operations applied to the contents before it.  Before the first region: the two gathers of node features
  along the edges' endpoints and the bias and normalisation vectors reshaped to rows.  Between the first two regions: the
  column mean and the one-pass variance from the summed statistics tiles.  Between the second and third: the gate
  recomputed from the updated edge features and the two segment sums.  Between the last two: the node statistics.
-/
import proofs.«145784_j42537356100034_2_alg».proof.Proof.Gen.KernelIdeal.Launch
import Idealize.ShloMosaic.Lib.StableHlo.Run
import Idealize.ShloMosaic.PureOps.Ideal

noncomputable section

namespace Cert.KernelIdeal.HostK

open Idealize.ShloMosaic Idealize.ShloMosaic.TcCoe Idealize.SL.Sem Idealize.ShloMosaic.StableHlo
open Cert.KernelIdeal Cert.KernelIdeal.Facts₀

/-- A float array of shape `S` at the ideal instance. -/
abbrev Cf (S : Shape) : Type := FVec Ideal S .f32
/-- A 32-bit integer array of shape `S`. -/
abbrev Ci (S : Shape) : Type := IVec S 32

/-- An index array made non-negative and given a unit column axis. -/
def normIdx (s : Ci S600000) : Ci S600000x1 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The node features gathered along the edges' endpoint indices. -/
def gath (h : Cf S50000x128) (s : Ci S600000) : Cf S600000x128 :=
  Host.gather gather_S50000x128_S600000x1_S600000x128_1_0_n_n_0_1_1128 h (normIdx s)

/-- A feature vector as a one-row matrix. -/
def row (b : Cf S128) : Cf S1x128 := shapeCast S1x128 b shapeCasts_S128_S1x128

/-- The column mean from the edge statistics tiles: their column sums over 600000. -/
def meanE (S : Cf S800x128) : Cf S128 :=
  Host.divf (Host.reduceAdd S (constant S_ .f32 0x00000000#32) reducesTo_S800x128_S128_d0 h_S_)
    (broadcastInDim S128 ![] bcast_S_S128 (constant S_ .f32 0x49127C00#32))
/-- The one-pass column variance from the two edge statistics arrays, cut off at zero. -/
def varE (S Q : Cf S800x128) : Cf S128 :=
  maximumf (subf (meanE Q) (mulf (meanE S) (meanE S))) (broadcastInDim S128 ![] bcast_S_S128 (constant S_ .f32 0x00000000#32))

/-- The column mean from the node statistics tiles: their column sums over 50000. -/
def meanN (S : Cf S80x128) : Cf S128 :=
  Host.divf (Host.reduceAdd S (constant S_ .f32 0x00000000#32) reducesTo_S80x128_S128_d0 h_S_)
    (broadcastInDim S128 ![] bcast_S_S128 (constant S_ .f32 0x47435000#32))
/-- The one-pass column variance from the two node statistics arrays, cut off at zero. -/
def varN (S Q : Cf S80x128) : Cf S128 :=
  maximumf (subf (meanN Q) (mulf (meanN S) (meanN S))) (broadcastInDim S128 ![] bcast_S_S128 (constant S_ .f32 0x00000000#32))

/-- The gate `1 / (1 + e⁻ˣ)`. -/
def gate (x : Cf S600000x128) : Cf S600000x128 :=
  Host.divf (broadcastInDim S600000x128 ![] bcast_S_S600000x128 (constant S_ .f32 0x3F800000#32))
    (addf (broadcastInDim S600000x128 ![] bcast_S_S600000x128 (constant S_ .f32 0x3F800000#32)) (Host.exp (Host.negf x)))

/-- The sum of edge rows into their sender nodes. -/
def seg (s : Ci S600000) (u : Cf S600000x128) : Cf S50000x128 :=
  Host.scatterAdd scatter_S50000x128_S600000x1_S600000x128_1_0_0_1
    (broadcastInDim S50000x128 ![] bcast_S_S50000x128 (constant S_ .f32 0x00000000#32))
    (broadcastInDim S600000x1 ![0] bcast_S600000_S600000x1_0 s) u

/-- The gates summed per node, plus the small constant. -/
def wsum (s : Ci S600000) (σ : Cf S600000x128) : Cf S50000x128 :=
  addf (seg s σ) (broadcastInDim S50000x128 ![] bcast_S_S50000x128 (constant S_ .f32 0x358637BD#32))

variable (W : Valuation τ sig (Elt Ideal))

set_option maxHeartbeats 4000000
set_option maxRecDepth 16384
attribute [local irreducible] Host.gather Host.scatterAdd Host.reduceAdd Host.divf Host.exp Host.negf

/-! ## Before the first region -/

theorem v6_eq : after (Gen.hostOps0 (F := Ideal)) W (Proc.devRef .tc main_v6)
    = gath (W (Proc.devRef .tc main_arg0)) (W (Proc.devRef .tc main_arg2)) := by
  after_results_simp; rfl
theorem v13_eq : after (Gen.hostOps0 (F := Ideal)) W (Proc.devRef .tc main_v13)
    = gath (W (Proc.devRef .tc main_arg0)) (W (Proc.devRef .tc main_arg3)) := by
  after_results_simp; rfl
theorem v14_eq : after (Gen.hostOps0 (F := Ideal)) W (Proc.devRef .tc main_v14) = row (W (Proc.devRef .tc main_arg5)) := by
  after_results_simp; rfl
theorem v15_eq : after (Gen.hostOps0 (F := Ideal)) W (Proc.devRef .tc main_v15) = row (W (Proc.devRef .tc main_arg7)) := by
  after_results_simp; rfl
theorem v16_eq : after (Gen.hostOps0 (F := Ideal)) W (Proc.devRef .tc main_v16) = row (W (Proc.devRef .tc main_arg9)) := by
  after_results_simp; rfl
theorem v17_eq : after (Gen.hostOps0 (F := Ideal)) W (Proc.devRef .tc main_v17) = row (W (Proc.devRef .tc main_arg11)) := by
  after_results_simp; rfl
theorem v18_eq : after (Gen.hostOps0 (F := Ideal)) W (Proc.devRef .tc main_v18) = row (W (Proc.devRef .tc main_arg13)) := by
  after_results_simp; rfl
theorem v19_eq : after (Gen.hostOps0 (F := Ideal)) W (Proc.devRef .tc main_v19) = row (W (Proc.devRef .tc main_arg14)) := by
  after_results_simp; rfl
theorem v20_eq : after (Gen.hostOps0 (F := Ideal)) W (Proc.devRef .tc main_v20) = row (W (Proc.devRef .tc main_arg15)) := by
  after_results_simp; rfl
theorem v21_eq : after (Gen.hostOps0 (F := Ideal)) W (Proc.devRef .tc main_v21) = row (W (Proc.devRef .tc main_arg16)) := by
  after_results_simp; rfl
theorem v22_eq : after (Gen.hostOps0 (F := Ideal)) W (Proc.devRef .tc main_v22) = row (W (Proc.devRef .tc main_arg17)) := by
  after_results_simp; rfl

/-! ## Between the first and the second region -/

theorem v34_eq : after (Gen.hostOps1 (F := Ideal)) W (Proc.devRef .tc main_v34) = row (meanE (W (Proc.devRef .tc main_v23_0))) := by
  after_results_simp; rfl
theorem v35_eq : after (Gen.hostOps1 (F := Ideal)) W (Proc.devRef .tc main_v35)
    = row (varE (W (Proc.devRef .tc main_v23_0)) (W (Proc.devRef .tc main_v23_1))) := by
  after_results_simp; rfl

/-! ## Between the second and the third region -/

theorem v47_eq : after (Gen.hostOps2 (F := Ideal)) W (Proc.devRef .tc main_v47)
    = wsum (W (Proc.devRef .tc main_arg2)) (gate (W (Proc.devRef .tc main_v36_0))) := by
  after_results_simp; rfl
theorem v50_eq : after (Gen.hostOps2 (F := Ideal)) W (Proc.devRef .tc main_v50)
    = seg (W (Proc.devRef .tc main_arg2)) (W (Proc.devRef .tc main_v36_1)) := by
  after_results_simp; rfl

/-! ## Between the third and the fourth region -/

theorem v62_eq : after (Gen.hostOps3 (F := Ideal)) W (Proc.devRef .tc main_v62) = row (meanN (W (Proc.devRef .tc main_v51_1))) := by
  after_results_simp; rfl
theorem v63_eq : after (Gen.hostOps3 (F := Ideal)) W (Proc.devRef .tc main_v63)
    = row (varN (W (Proc.devRef .tc main_v51_1)) (W (Proc.devRef .tc main_v51_2))) := by
  after_results_simp; rfl

end Cert.KernelIdeal.HostK

end
-- ==== Proof.Spec.lean ====
/-
  The mathematics of one gated graph-convolution layer, entry by entry, on the extended reals.  Arrays are plain
  functions of a row and a column; nothing here mentions a program.
-/
import Idealize.ShloMosaic.PureOps.Ideal

noncomputable section

open scoped BigOperators

namespace Cert.Spec

open Idealize.ShloMosaic

/-- An extended real that is an ordinary real number. -/
def IsReal (x : EReal) : Prop := ∃ r : ℝ, x = (r : EReal)

/-- Row `i`, column `q` of `x · W + b`. -/
def lin {n : ℕ} (x : Fin n → Fin 128 → EReal) (W : Fin 128 → Fin 128 → EReal) (b : Fin 128 → EReal)
    (i : Fin n) (q : Fin 128) : EReal :=
  (∑ k : Fin 128, x i k * W k q) + b q

/-- The sum of column `q`. -/
def colSum {n : ℕ} (x : Fin n → Fin 128 → EReal) (q : Fin 128) : EReal := ∑ i : Fin n, x i q

/-- The mean of column `q`, the count given as `N`. -/
def mean {n : ℕ} (N : EReal) (x : Fin n → Fin 128 → EReal) (q : Fin 128) : EReal := Ideal.div (colSum x q) N

/-- The variance of column `q` in two passes: the mean of the squared deviations from the mean. -/
def var2 {n : ℕ} (N : EReal) (x : Fin n → Fin 128 → EReal) (q : Fin 128) : EReal :=
  Ideal.div (∑ i : Fin n, (x i q - mean N x q) * (x i q - mean N x q)) N

/-- The variance of column `q` in one pass: the mean of the squares less the square of the mean, cut off at zero. -/
def var1 {n : ℕ} (N : EReal) (x : Fin n → Fin 128 → EReal) (q : Fin 128) : EReal :=
  max (Ideal.div (∑ i : Fin n, x i q * x i q) N - mean N x q * mean N x q) 0

/-- Batch normalisation of one entry `t` of column `q`: `(t − μ) · (v + ε)^(−1/2) · s + o`. -/
def bn (ε : EReal) (μ v s o : Fin 128 → EReal) (t : EReal) (q : Fin 128) : EReal :=
  (t - μ q) * Ideal.rsqrt (v q + ε) * s q + o q

/-- The rectified normalised entry. -/
def bnRelu (ε : EReal) (μ v s o : Fin 128 → EReal) (t : EReal) (q : Fin 128) : EReal :=
  max (bn ε μ v s o t q) 0

end Cert.Spec

end
-- ==== Proof.SpecK.lean ====
/-
  The edge logits in the order the kernel adds them, and that this is the reference's grouping: addition of extended
  reals is commutative and associative, so no finiteness is needed.
-/
import proofs.«145784_j42537356100034_2_alg».proof.Proof.Spec

noncomputable section

open scoped BigOperators

namespace Cert.Spec

/-- `A h_i + B h_j + C e` at row `i`, column `q`, added left to right: product, bias, product, bias, product, bias. -/
def etaK {n : ℕ} (hi hj e : Fin n → Fin 128 → EReal) (Aw Bw Cw : Fin 128 → Fin 128 → EReal) (Ab Bb Cb : Fin 128 → EReal)
    (i : Fin n) (q : Fin 128) : EReal :=
  (((((∑ k : Fin 128, hi i k * Aw k q) + Ab q) + ∑ k : Fin 128, hj i k * Bw k q) + Bb q) + ∑ k : Fin 128, e i k * Cw k q) + Cb q

/-- The same sum grouped as three affine maps. -/
theorem etaK_eq {n : ℕ} (hi hj e : Fin n → Fin 128 → EReal) (Aw Bw Cw : Fin 128 → Fin 128 → EReal) (Ab Bb Cb : Fin 128 → EReal)
    (i : Fin n) (q : Fin 128) :
    etaK hi hj e Aw Bw Cw Ab Bb Cb i q = (lin hi Aw Ab i q + lin hj Bw Bb i q) + lin e Cw Cb i q := by
  unfold etaK lin
  ac_rfl

/-- Row `j` of an array of `n` rows, the row index a natural number (zero past the end): sums over ranges of rows
    are then sums over `Finset.range`. -/
def rowN {n : ℕ} (x : Fin n → Fin 128 → EReal) (j : ℕ) (q : Fin 128) : EReal := if h : j < n then x ⟨j, h⟩ q else 0

theorem rowN_of_lt {n : ℕ} (x : Fin n → Fin 128 → EReal) (j : ℕ) (h : j < n) (q : Fin 128) : rowN x j q = x ⟨j, h⟩ q := dif_pos h

end Cert.Spec

end
-- ==== Proof.Consts.lean ====
/- The float constants the two programs spell, as the extended reals their bit patterns denote. -/
import Idealize.ShloMosaic.PureOps.Ideal

noncomputable section

namespace Cert.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `600000.0` (the edge count, a batch-norm divisor) denotes the real `600000`. -/
theorem ofBits_600000 : Ideal.ofBits .f32 0x49127C00#32 = ((600000 : ℝ) : EReal) := by
  simp [Ideal.ofBits, Ideal.ieee, -EReal.coe_mul]; norm_num

/-- The pattern of `50000.0` (the node count, a batch-norm divisor) denotes the real `50000`. -/
theorem ofBits_50000 : Ideal.ofBits .f32 0x47435000#32 = ((50000 : ℝ) : EReal) := by
  simp [Ideal.ofBits, Ideal.ieee, -EReal.coe_mul]; norm_num

/-- The batch-norm epsilon (the float nearest `1e-5`) denotes a positive real:
    `(2^23 + 2606508) · 2^(110 - 127 - 23)`. -/
theorem ofBits_eps : ∃ ε : ℝ, 0 < ε ∧ Ideal.ofBits .f32 0x3727C5AC#32 = (ε : EReal) := by
  refine ⟨(10995116 : ℝ) * (2 : ℝ) ^ (-40 : Int), by positivity, ?_⟩
  simp [Ideal.ofBits, Ideal.ieee, -EReal.coe_mul]

/-- The small constant added to the gate denominator (the float nearest `1e-6`) denotes a positive real:
    `(2^23 + 407485) · 2^(107 - 127 - 23)`. -/
theorem ofBits_tiny : ∃ δ : ℝ, 0 < δ ∧ Ideal.ofBits .f32 0x358637BD#32 = (δ : EReal) := by
  refine ⟨(8796093 : ℝ) * (2 : ℝ) ^ (-43 : Int), by positivity, ?_⟩
  simp [Ideal.ofBits, Ideal.ieee, -EReal.coe_mul]

end Cert.Consts

end
-- ==== Proof.Pay0.lean ====
/-
  The edge-statistics body's arithmetic, read entry by entry on the extended reals: the edge logits of a block of 6000
  rows, and the two 8 × 128 tiles whose first row holds the column sums of the logits and of their squares.
-/
import proofs.«145784_j42537356100034_2_alg».proof.Proof.Gen.KernelIdeal.Skeleton
import proofs.«145784_j42537356100034_2_alg».proof.Proof.Spec
import proofs.«145784_j42537356100034_2_alg».proof.Proof.SpecK
import proofs.«145784_j42537356100034_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay0

open Cert.KernelIdeal Cert.KernelIdeal.Gen Cert.Spec Idealize.ShloMosaic Idealize.ShloMosaic.ValueIdx

local notation "M[" x "]" => (fun (i : Fin _) (k : Fin 128) => x (ix2 i k))
local notation "R[" v "]" => (fun (c : Fin 128) => v (ix2 (0 : Fin 1) c))

/-- The matrix product's dimension numbers for a 6000 × 128 block against a 128 × 128 matrix. -/
abbrev D6 : DotDims S6000x128 S128x128 S6000x128 := dot_S6000x128_S128x128_S6000x128_1_0_0_1_n_n

/-- The left operand's row is the result's row. -/
theorem lhs_row (i : S6000x128.Idx) (c : D6.contr.Idx) : (D6.lhsIdx i c 0).val = (i 0).val := by
  unfold DotDims.lhsIdx
  rw [dif_neg (show ¬(0 : Fin S6000x128.rank) ∈ D6.lhsBatch by decide),
    dif_pos (show (0 : Fin S6000x128.rank) ∈ D6.lhsNonContracting by decide)]
  rfl

/-- The left operand's column is the contraction position. -/
theorem lhs_col (i : S6000x128.Idx) (c : D6.contr.Idx) : (D6.lhsIdx i c 1).val = (c ⟨0, by decide⟩).val :=
  D6.lhsIdx_val_of_single rfl i c

/-- The right operand's row is the contraction position. -/
theorem rhs_row (i : S6000x128.Idx) (c : D6.contr.Idx) : (D6.rhsIdx i c 0).val = (c ⟨0, by decide⟩).val :=
  D6.rhsIdx_val_of_single rfl i c

/-- The right operand's column is the result's column. -/
theorem rhs_col (i : S6000x128.Idx) (c : D6.contr.Idx) : (D6.rhsIdx i c 1).val = (i 1).val := by
  unfold DotDims.rhsIdx
  rw [dif_neg (show ¬(1 : Fin S128x128.rank) ∈ D6.rhsBatch by decide),
    dif_pos (show (1 : Fin S128x128.rank) ∈ D6.rhsNonContracting by decide)]
  rfl

/-- The matrix product into the zero accumulator, at row p and column q: the sum over k of x[p, k] · w[k, q]. -/
theorem matmul_apply (x : FVec Ideal S6000x128 .bf16) (w : FVec Ideal S128x128 .bf16) (p : Fin 6000) (q : Fin 128) :
    matmul D6 none x w (constant (F := Ideal) S6000x128 .f32 0x00000000#32) (ix2 p q)
      = ∑ k : Fin 128, x (ix2 p k) * w (ix2 k q) := by
  refine (Ideal.matmul_constant_zero_apply D6 none x w (ix2 p q)).trans ?_
  rw [← Equiv.sum_comp (contrEquiv1 D6 128 rfl rfl).symm]
  refine Finset.sum_congr rfl fun k _ => ?_
  have hk := contrEquiv1_symm_val D6 128 rfl rfl k
  have el : D6.lhsIdx (ix2 p q) ((contrEquiv1 D6 128 rfl rfl).symm k) = ix2 p k := funext fun a => Fin.ext (by
    match a with
    | ⟨0, _⟩ => exact lhs_row _ _
    | ⟨1, _⟩ => exact (lhs_col _ _).trans hk)
  have er : D6.rhsIdx (ix2 p q) ((contrEquiv1 D6 128 rfl rfl).symm k) = ix2 k q := funext fun a => Fin.ext (by
    match a with
    | ⟨0, _⟩ => exact (rhs_row _ _).trans hk
    | ⟨1, _⟩ => exact rhs_col _ _)
  rw [el, er]

/-- The edge logits of the block at row p, column q: the three products and the three biases, added left to right. -/
theorem k0_pay3_apply (v0 v3 v6 : FVec Ideal S6000x128 .f32) (v8 v10 v12 : FVec Ideal S128x128 .f32)
    (v15 v21 v27 : FVec Ideal S1x128 .f32) (p : Fin 6000) (q : Fin 128) :
    k0_pay3 (F := Ideal) v0 v3 v6 v8 v10 v12 v15 v21 v27 (ix2 p q)
      = etaK M[v0] M[v3] M[v6] M[v8] M[v10] M[v12] R[v15] R[v21] R[v27] p q := by
  unfold k0_pay3 etaK
  simp only [addf_apply, shapeCast_self, broadcastTo_1b_ab_apply]
  simp only [matmul_apply, truncf_apply]

/-- The sum of a block's rows: the lane reduction over the row axis, at column q. -/
theorem colsum_apply {n : ℕ} (src : FVec Ideal ⟨2, ![n, 128]⟩ .f32) (h : (⟨2, ![n, 128]⟩ : Shape).Reduces [0] S128)
    (hφ : FKind.Formats .f32) (hacc : (0x00000000#32 : BitVec 32) = 0x00000000#32) (q : Fin 128) :
    multiReduction (F := Ideal) .add [0] S128 src 0x00000000#32 h hφ hacc (ix1 q) = ∑ p : Fin n, src (ix2 p q) := by
  refine (Ideal.multiReduction_add_single src 0x00000000#32 h hφ hacc (ix1 q)).trans ?_
  refine Finset.sum_congr rfl fun p _ => congrArg src (funext fun a => Fin.ext ?_)
  match a with
  | ⟨0, _⟩ => rfl
  | ⟨1, _⟩ => rfl

/-- A word below 8 compared with zero selects on whether it is zero. -/
theorem select_row (h : ℕ) (hh : h < 8) (A B : EReal) :
    Scalar.select (IntOp.cmpi .eq (BitVec.ofNat 32 h) 0#32) A B = if h = 0 then A else B := by
  interval_cases h <;> rfl

/-- The 8 × 128 tile built from a row: the row in its first row, zero in the other seven. -/
theorem tile_apply (hio : S8x128.Iotas .tc 32 [0]) (hb : S1x128.Broadcasts S8x128) (v : FVec Ideal S1x128 .f32)
    (r : Fin 8) (q : Fin 128) :
    select (cmpi .eq (iota .tc S8x128 32 [0] hio) (broadcast S8x128 0#32)) (broadcastTo S8x128 v hb)
        (broadcast S8x128 (Scalar.ofBits (F := Ideal) .f32 0x00000000#32)) (ix2 r q)
      = if r.val = 0 then v (ix2 (0 : Fin 1) q) else 0 := by
  rw [select_apply, broadcast_apply, broadcastTo_1b_ab_apply]
  show Scalar.select (IntOp.cmpi .eq (iota .tc S8x128 32 [0] hio (ix2 r q)) 0#32) _ _ = _
  rw [iota_single_apply]
  refine (select_row r.val r.isLt _ _).trans ?_
  rw [show Scalar.ofBits (F := Ideal) .f32 0x00000000#32 = (0 : EReal) from Cert.Consts.ofBits_zero]

/-- The column sums of the logits, as the body carries them: a 1 × 128 row. -/
theorem k0_pay4_apply (v0 v3 v6 : FVec Ideal S6000x128 .f32) (v8 v10 v12 : FVec Ideal S128x128 .f32)
    (v15 v21 v27 : FVec Ideal S1x128 .f32) (q : Fin 128) :
    k0_pay4 (F := Ideal) v0 v3 v6 v8 v10 v12 v15 v21 v27 (ix2 (0 : Fin 1) q)
      = ∑ p : Fin 6000, etaK M[v0] M[v3] M[v6] M[v8] M[v10] M[v12] R[v15] R[v21] R[v27] p q := by
  unfold k0_pay4
  refine (shapeCast_a_1a_apply _ _ 0 q).trans ?_
  refine (colsum_apply _ _ _ _ q).trans ?_
  exact Finset.sum_congr rfl fun p _ => k0_pay3_apply v0 v3 v6 v8 v10 v12 v15 v21 v27 p q

/-- The column sums of the squared logits, as the body carries them: a 1 × 128 row. -/
theorem k0_pay5_apply (v0 v3 v6 : FVec Ideal S6000x128 .f32) (v8 v10 v12 : FVec Ideal S128x128 .f32)
    (v15 v21 v27 : FVec Ideal S1x128 .f32) (q : Fin 128) :
    k0_pay5 (F := Ideal) v0 v3 v6 v8 v10 v12 v15 v21 v27 (ix2 (0 : Fin 1) q)
      = ∑ p : Fin 6000, etaK M[v0] M[v3] M[v6] M[v8] M[v10] M[v12] R[v15] R[v21] R[v27] p q
          * etaK M[v0] M[v3] M[v6] M[v8] M[v10] M[v12] R[v15] R[v21] R[v27] p q := by
  unfold k0_pay5
  refine (shapeCast_a_1a_apply _ _ 0 q).trans ?_
  refine (colsum_apply _ _ _ _ q).trans ?_
  refine Finset.sum_congr rfl fun p _ => ?_
  rw [mulf_apply, k0_pay3_apply]

/-- The stored sum tile: row 0 holds the block's column sums of the logits, the other seven rows are zero. -/
theorem k0_sum_apply (v0 v3 v6 : FVec Ideal S6000x128 .f32) (v8 v10 v12 : FVec Ideal S128x128 .f32)
    (v15 v21 v27 : FVec Ideal S1x128 .f32) (r : Fin 8) (q : Fin 128) :
    k0_pay1 (F := Ideal) (k0_pay4 v0 v3 v6 v8 v10 v12 v15 v21 v27) (ix2 r q)
      = if r.val = 0 then ∑ p : Fin 6000, etaK M[v0] M[v3] M[v6] M[v8] M[v10] M[v12] R[v15] R[v21] R[v27] p q else 0 := by
  unfold k0_pay1
  rw [shapeCast_self]
  refine (tile_apply _ _ _ r q).trans ?_
  rw [k0_pay4_apply]

/-- The stored sum-of-squares tile: row 0 holds the block's column sums of the squared logits, the other rows are zero. -/
theorem k0_sumsq_apply (v0 v3 v6 : FVec Ideal S6000x128 .f32) (v8 v10 v12 : FVec Ideal S128x128 .f32)
    (v15 v21 v27 : FVec Ideal S1x128 .f32) (r : Fin 8) (q : Fin 128) :
    k0_pay2 (F := Ideal) (k0_pay5 v0 v3 v6 v8 v10 v12 v15 v21 v27) (ix2 r q)
      = if r.val = 0 then ∑ p : Fin 6000, etaK M[v0] M[v3] M[v6] M[v8] M[v10] M[v12] R[v15] R[v21] R[v27] p q
          * etaK M[v0] M[v3] M[v6] M[v8] M[v10] M[v12] R[v15] R[v21] R[v27] p q else 0 := by
  unfold k0_pay2
  rw [shapeCast_self]
  refine (tile_apply _ _ _ r q).trans ?_
  rw [k0_pay5_apply]

end Cert.KernelIdeal.Pay0

end
-- ==== Proof.KDefs.lean ====
/-
  The first and third regions' results as functions of the whole arrays the regions are entered with.  The first
  region leaves, per block of 6000 edges, one 8 × 128 tile whose first row holds the column sums of the block's logits
  (resp. of their squares) and whose other rows are zero; the third leaves the node pre-activation
  `U h + agg / wsum` and the same two kinds of tiles per block of 5000 nodes.
-/
import proofs.«145784_j42537356100034_2_alg».proof.KernelIdeal
import proofs.«145784_j42537356100034_2_alg».proof.Proof.SpecK
import Idealize.ShloMosaic.Lib.ValueIdx
import Idealize.ShloMosaic.PureOps.Ideal

noncomputable section

open scoped BigOperators

namespace Cert.KernelIdeal.K0

open Idealize.ShloMosaic Idealize.ShloMosaic.ValueIdx Cert.KernelIdeal Cert.Spec

/-- The edge logits, entry by entry, from the gathered features, the edge features, the three weight matrices and the
    three bias rows. -/
def E0 (HI HJ E : FVec Ideal S600000x128 .f32) (Aw Bw Cw : FVec Ideal S128x128 .f32) (Ab Bb Cb : FVec Ideal S1x128 .f32) :
    Fin 600000 → Fin 128 → EReal :=
  etaK (fun (i : Fin 600000) (k : Fin 128) => HI (ix2 i k)) (fun (i : Fin 600000) (k : Fin 128) => HJ (ix2 i k))
    (fun (i : Fin 600000) (k : Fin 128) => E (ix2 i k)) (fun (i : Fin 128) (k : Fin 128) => Aw (ix2 i k))
    (fun (i : Fin 128) (k : Fin 128) => Bw (ix2 i k)) (fun (i : Fin 128) (k : Fin 128) => Cw (ix2 i k))
    (fun q : Fin 128 => Ab (ix2 (0 : Fin 1) q)) (fun q : Fin 128 => Bb (ix2 (0 : Fin 1) q)) (fun q : Fin 128 => Cb (ix2 (0 : Fin 1) q))

/-- The tiles of the logits' column sums. -/
def G9 (HI HJ E : FVec Ideal S600000x128 .f32) (Aw Bw Cw : FVec Ideal S128x128 .f32) (Ab Bb Cb : FVec Ideal S1x128 .f32) :
    FVec Ideal S800x128 .f32 :=
  fun i => if (i 0).val % 8 = 0 then
      ∑ p ∈ Finset.range 6000, rowN (E0 HI HJ E Aw Bw Cw Ab Bb Cb) (6000 * ((i 0).val / 8) + p) ⟨(i 1).val, idx2_lt1 i⟩
    else 0

/-- The tiles of the squared logits' column sums. -/
def G10 (HI HJ E : FVec Ideal S600000x128 .f32) (Aw Bw Cw : FVec Ideal S128x128 .f32) (Ab Bb Cb : FVec Ideal S1x128 .f32) :
    FVec Ideal S800x128 .f32 :=
  fun i => if (i 0).val % 8 = 0 then
      ∑ p ∈ Finset.range 6000, rowN (fun n q => E0 HI HJ E Aw Bw Cw Ab Bb Cb n q * E0 HI HJ E Aw Bw Cw Ab Bb Cb n q)
        (6000 * ((i 0).val / 8) + p) ⟨(i 1).val, idx2_lt1 i⟩
    else 0

end Cert.KernelIdeal.K0

namespace Cert.KernelIdeal.K2

open Idealize.ShloMosaic Idealize.ShloMosaic.ValueIdx Cert.KernelIdeal Cert.Spec

/-- The node pre-activation `U h + agg / wsum`. -/
def G5 (H AGG WS : FVec Ideal S50000x128 .f32) (Uw : FVec Ideal S128x128 .f32) (Ub : FVec Ideal S1x128 .f32) :
    FVec Ideal S50000x128 .f32 :=
  fun i => lin (fun (i : Fin 50000) (k : Fin 128) => H (ix2 i k)) (fun (i : Fin 128) (k : Fin 128) => Uw (ix2 i k))
      (fun q : Fin 128 => Ub (ix2 (0 : Fin 1) q)) ⟨(i 0).val, idx2_lt0 i⟩ ⟨(i 1).val, idx2_lt1 i⟩
    + Ideal.div (AGG i) (WS i)

/-- The pre-activation, entry by entry. -/
def P2 (H AGG WS : FVec Ideal S50000x128 .f32) (Uw : FVec Ideal S128x128 .f32) (Ub : FVec Ideal S1x128 .f32) :
    Fin 50000 → Fin 128 → EReal := fun n q => G5 H AGG WS Uw Ub (ix2 n q)

/-- The tiles of the pre-activation's column sums. -/
def G6 (H AGG WS : FVec Ideal S50000x128 .f32) (Uw : FVec Ideal S128x128 .f32) (Ub : FVec Ideal S1x128 .f32) :
    FVec Ideal S80x128 .f32 :=
  fun i => if (i 0).val % 8 = 0 then
      ∑ p ∈ Finset.range 5000, rowN (P2 H AGG WS Uw Ub) (5000 * ((i 0).val / 8) + p) ⟨(i 1).val, idx2_lt1 i⟩
    else 0

/-- The tiles of the squared pre-activation's column sums. -/
def G7 (H AGG WS : FVec Ideal S50000x128 .f32) (Uw : FVec Ideal S128x128 .f32) (Ub : FVec Ideal S1x128 .f32) :
    FVec Ideal S80x128 .f32 :=
  fun i => if (i 0).val % 8 = 0 then
      ∑ p ∈ Finset.range 5000, rowN (fun n q => P2 H AGG WS Uw Ub n q * P2 H AGG WS Uw Ub n q)
        (5000 * ((i 0).val / 8) + p) ⟨(i 1).val, idx2_lt1 i⟩
    else 0

end Cert.KernelIdeal.K2

end
-- ==== Proof.K0.lean ====
/-
  The first region (the edge statistics), read as functions of the arrays it is entered with.  Grid point t handles the
  6000 rows 6000·t … 6000·t + 5999 of the three edge-sized arrays and writes tile t (rows 8·t … 8·t + 7) of each of the two
  800 × 128 results: the tile's first row holds the column sums, over the block's rows, of the edge logits and of their
  squares, its other seven rows are zero.  The hundred tiles cover the results, so each result is that function everywhere.
-/
import proofs.«145784_j42537356100034_2_alg».proof.Proof.Gen.KernelIdeal.Frame
import proofs.«145784_j42537356100034_2_alg».proof.Proof.Spec
import proofs.«145784_j42537356100034_2_alg».proof.Proof.SpecK
import proofs.«145784_j42537356100034_2_alg».proof.Proof.Consts
import proofs.«145784_j42537356100034_2_alg».proof.Proof.Pay0
import proofs.«145784_j42537356100034_2_alg».proof.Proof.KDefs
import Idealize.ShloMosaic.Lib.Pipeline.Value
import Idealize.ShloMosaic.Lib.ValueIdx
import Idealize.ShloMosaic.Lib.ValueLayout

noncomputable section
open scoped BigOperators
namespace Cert.KernelIdeal.K0
open Idealize.ShloMosaic Idealize.ShloMosaic.TcCoe Idealize.SL.Sem Idealize.ShloMosaic.ValueIdx
open Idealize.ShloMosaic.Pipeline (Dat)
open Cert.KernelIdeal Cert.KernelIdeal.Gen Cert.Spec

local notation "M[" x "]" => (fun (i : Fin _) (k : Fin 128) => x (ix2 i k))
local notation "R[" v "]" => (fun (c : Fin 128) => v (ix2 (0 : Fin 1) c))

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The logit at a row depends on that row of the three edge-sized arrays only. -/
theorem etaK_congr {n m : ℕ} (hi hj e : Fin n → Fin 128 → EReal) (hi' hj' e' : Fin m → Fin 128 → EReal)
    (Aw Bw Cw : Fin 128 → Fin 128 → EReal) (Ab Bb Cb : Fin 128 → EReal) (i : Fin n) (i' : Fin m)
    (h0 : ∀ k, hi i k = hi' i' k) (h1 : ∀ k, hj i k = hj' i' k) (h2 : ∀ k, e i k = e' i' k) (q : Fin 128) :
    etaK hi hj e Aw Bw Cw Ab Bb Cb i q = etaK hi' hj' e' Aw Bw Cw Ab Bb Cb i' q := by
  unfold etaK
  simp only [h0, h1, h2]

/-- A block's logit at local row p is the whole arrays' logit at row 6000·t + p. -/
theorem block_logit (x0 x1 x2 : FVec Ideal S6000x128 .f32) (HI HJ E : FVec Ideal S600000x128 .f32)
    (Aw Bw Cw : FVec Ideal S128x128 .f32) (Ab Bb Cb : FVec Ideal S1x128 .f32) (t : ℕ) (ht : t < 100)
    (h0 : ∀ (p : Fin 6000) (k' : Fin 128), x0 (ix2 p k') = HI (ix2 (⟨6000 * t + p.val, by omega⟩ : Fin 600000) k'))
    (h1 : ∀ (p : Fin 6000) (k' : Fin 128), x1 (ix2 p k') = HJ (ix2 (⟨6000 * t + p.val, by omega⟩ : Fin 600000) k'))
    (h2 : ∀ (p : Fin 6000) (k' : Fin 128), x2 (ix2 p k') = E (ix2 (⟨6000 * t + p.val, by omega⟩ : Fin 600000) k'))
    (p : Fin 6000) (q : Fin 128) :
    etaK M[x0] M[x1] M[x2] M[Aw] M[Bw] M[Cw] R[Ab] R[Bb] R[Cb] p q
      = rowN (E0 HI HJ E Aw Bw Cw Ab Bb Cb) (6000 * t + p.val) q := by
  rw [rowN_of_lt _ _ (by omega)]
  unfold E0
  exact etaK_congr _ _ _ _ _ _ _ _ _ _ _ _ p _ (fun k' => h0 p k') (fun k' => h1 p k') (fun k' => h2 p k') q

/-- One entry of the first result: the body's tile at y is the function at the array index k the tile puts y at. -/
theorem point9 (x0 x1 x2 : FVec Ideal S6000x128 .f32) (x3 x5 x7 : FVec Ideal S128x128 .f32) (x4 x6 x8 : FVec Ideal S1x128 .f32)
    (HI HJ E : FVec Ideal S600000x128 .f32) (Aw Bw Cw : FVec Ideal S128x128 .f32) (Ab Bb Cb : FVec Ideal S1x128 .f32)
    (t : ℕ) (ht : t < 100) (y : S8x128.Idx) (k : S800x128.Idx)
    (h0 : ∀ (p : Fin 6000) (k' : Fin 128), x0 (ix2 p k') = HI (ix2 (⟨6000 * t + p.val, by omega⟩ : Fin 600000) k'))
    (h1 : ∀ (p : Fin 6000) (k' : Fin 128), x1 (ix2 p k') = HJ (ix2 (⟨6000 * t + p.val, by omega⟩ : Fin 600000) k'))
    (h2 : ∀ (p : Fin 6000) (k' : Fin 128), x2 (ix2 p k') = E (ix2 (⟨6000 * t + p.val, by omega⟩ : Fin 600000) k'))
    (h3 : x3 = Aw) (h4 : x4 = Ab) (h5 : x5 = Bw) (h6 : x6 = Bb) (h7 : x7 = Cw) (h8 : x8 = Cb)
    (hk0 : (k 0).val = 8 * t + (y 0).val) (hk1 : (k 1).val = (y 1).val) :
    k0_pay1 (F := Ideal) (k0_pay4 x0 x1 x2 x3 x5 x7 x4 x6 x8) y = G9 HI HJ E Aw Bw Cw Ab Bb Cb k := by
  obtain ⟨r, q, rfl⟩ : ∃ (r : Fin 8) (q : Fin 128), y = ix2 r q := ⟨y 0, y 1, eq_ix2 y⟩
  subst h3 h4 h5 h6 h7 h8
  rw [Pay0.k0_sum_apply]
  unfold G9
  have hr : (k 0).val % 8 = r.val := by rw [hk0]; show (8 * t + r.val) % 8 = r.val; omega
  have hd : (k 0).val / 8 = t := by rw [hk0]; show (8 * t + r.val) / 8 = t; omega
  have hq : (⟨(k 1).val, idx2_lt1 k⟩ : Fin 128) = q := Fin.ext hk1
  rw [hr, hd, hq]
  by_cases h : r.val = 0
  · rw [if_pos h, if_pos h,
      ← Fin.sum_univ_eq_sum_range (fun j => rowN (E0 HI HJ E x3 x5 x7 x4 x6 x8) (6000 * t + j) q) 6000]
    exact Finset.sum_congr rfl fun p _ => block_logit x0 x1 x2 HI HJ E x3 x5 x7 x4 x6 x8 t ht h0 h1 h2 p q
  · rw [if_neg h, if_neg h]

/-- One entry of the second result, likewise. -/
theorem point10 (x0 x1 x2 : FVec Ideal S6000x128 .f32) (x3 x5 x7 : FVec Ideal S128x128 .f32) (x4 x6 x8 : FVec Ideal S1x128 .f32)
    (HI HJ E : FVec Ideal S600000x128 .f32) (Aw Bw Cw : FVec Ideal S128x128 .f32) (Ab Bb Cb : FVec Ideal S1x128 .f32)
    (t : ℕ) (ht : t < 100) (y : S8x128.Idx) (k : S800x128.Idx)
    (h0 : ∀ (p : Fin 6000) (k' : Fin 128), x0 (ix2 p k') = HI (ix2 (⟨6000 * t + p.val, by omega⟩ : Fin 600000) k'))
    (h1 : ∀ (p : Fin 6000) (k' : Fin 128), x1 (ix2 p k') = HJ (ix2 (⟨6000 * t + p.val, by omega⟩ : Fin 600000) k'))
    (h2 : ∀ (p : Fin 6000) (k' : Fin 128), x2 (ix2 p k') = E (ix2 (⟨6000 * t + p.val, by omega⟩ : Fin 600000) k'))
    (h3 : x3 = Aw) (h4 : x4 = Ab) (h5 : x5 = Bw) (h6 : x6 = Bb) (h7 : x7 = Cw) (h8 : x8 = Cb)
    (hk0 : (k 0).val = 8 * t + (y 0).val) (hk1 : (k 1).val = (y 1).val) :
    k0_pay2 (F := Ideal) (k0_pay5 x0 x1 x2 x3 x5 x7 x4 x6 x8) y = G10 HI HJ E Aw Bw Cw Ab Bb Cb k := by
  obtain ⟨r, q, rfl⟩ : ∃ (r : Fin 8) (q : Fin 128), y = ix2 r q := ⟨y 0, y 1, eq_ix2 y⟩
  subst h3 h4 h5 h6 h7 h8
  rw [Pay0.k0_sumsq_apply]
  unfold G10
  have hr : (k 0).val % 8 = r.val := by rw [hk0]; show (8 * t + r.val) % 8 = r.val; omega
  have hd : (k 0).val / 8 = t := by rw [hk0]; show (8 * t + r.val) / 8 = t; omega
  have hq : (⟨(k 1).val, idx2_lt1 k⟩ : Fin 128) = q := Fin.ext hk1
  rw [hr, hd, hq]
  by_cases h : r.val = 0
  · rw [if_pos h, if_pos h,
      ← Fin.sum_univ_eq_sum_range (fun j => rowN (fun n q => E0 HI HJ E x3 x5 x7 x4 x6 x8 n q * E0 HI HJ E x3 x5 x7 x4 x6 x8 n q)
          (6000 * t + j) q) 6000]
    refine Finset.sum_congr rfl fun p _ => ?_
    rw [rowN_of_lt _ _ (by omega), block_logit x0 x1 x2 HI HJ E x3 x5 x7 x4 x6 x8 t ht h0 h1 h2 p q, rowN_of_lt _ _ (by omega)]
  · rw [if_neg h, if_neg h]

/-- The printed index maps over the hundred grid points: the three tiled inputs and the two results are at block t of the
    rows and the one block of columns; the six whole inputs stay at their only block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- What point t writes back to result one is tile t of the function. -/
theorem flushed9_eq (c : Dev nD) (t : Fin cfg0.N) :
    (dat0 V c).flushed 9 t = ((cfg0.win 9).blk t).view.read (Elt Ideal)
      (G9 (V c main_v6) (V c main_v13) (V c main_arg1) (V c main_arg4) (V c main_arg6) (V c main_arg8)
        (V c main_v14) (V c main_v15) (V c main_v16)) := by
  show (cfg0.win 9).cut (grid0.coords t) ((dat0 V c).after 9 t) = _
  rw [after0_9]
  unfold out0_9
  rw [View.canon_unit_zero hz]
  simp only [View.ld_unit_zero (S := S6000x128) hz, View.ld_unit_zero (S := S128x128) hz, View.ld_unit_zero (S := S1x128) hz]
  obtain ⟨e00, e01, e10, e11, e20, e21, e30, e31, e40, e41, e50, e51, e60, e61, e70, e71, e80, e81, e90, e91, eA0, eA1⟩ :=
    idx_facts t
  have ht : t.val < 100 := by have := t.isLt; have hN : cfg0.N = 100 := N_0; omega
  funext y
  refine point9 _ _ _ _ _ _ _ _ _ _ _ _ _ _ _ _ _ _ t.val ht y (((cfg0.win 9).blk t).view.emb y) ?_ ?_ ?_ ?_ ?_ ?_ ?_ ?_ ?_ ?_ ?_
  · intro p k'
    show V c main_v6 (((cfg0.win 0).blk t).view.emb (ix2 p k')) = V c main_v6 (ix2 ⟨6000 * t.val + p.val, _⟩ k')
    refine congrArg _ (funext fun a => Fin.ext ?_)
    match a with
    | ⟨0, _⟩ => show win0_0.index t (0 : Fin 2) * 6000 + 1 * p.val = 6000 * t.val + p.val; rw [e00]; omega
    | ⟨1, _⟩ => show win0_0.index t (1 : Fin 2) * 128 + 1 * k'.val = k'.val; rw [e01]; omega
  · intro p k'
    show V c main_v13 (((cfg0.win 1).blk t).view.emb (ix2 p k')) = V c main_v13 (ix2 ⟨6000 * t.val + p.val, _⟩ k')
    refine congrArg _ (funext fun a => Fin.ext ?_)
    match a with
    | ⟨0, _⟩ => show win0_1.index t (0 : Fin 2) * 6000 + 1 * p.val = 6000 * t.val + p.val; rw [e10]; omega
    | ⟨1, _⟩ => show win0_1.index t (1 : Fin 2) * 128 + 1 * k'.val = k'.val; rw [e11]; omega
  · intro p k'
    show V c main_arg1 (((cfg0.win 2).blk t).view.emb (ix2 p k')) = V c main_arg1 (ix2 ⟨6000 * t.val + p.val, _⟩ k')
    refine congrArg _ (funext fun a => Fin.ext ?_)
    match a with
    | ⟨0, _⟩ => show win0_2.index t (0 : Fin 2) * 6000 + 1 * p.val = 6000 * t.val + p.val; rw [e20]; omega
    | ⟨1, _⟩ => show win0_2.index t (1 : Fin 2) * 128 + 1 * k'.val = k'.val; rw [e21]; omega
  · funext z
    show V c main_arg4 (((cfg0.win 3).blk t).view.emb z) = V c main_arg4 z
    refine congrArg _ (funext fun a => Fin.ext ?_)
    match a with
    | ⟨0, _⟩ => show win0_3.index t (0 : Fin 2) * 128 + 1 * (z 0).val = (z 0).val; rw [e30]; omega
    | ⟨1, _⟩ => show win0_3.index t (1 : Fin 2) * 128 + 1 * (z 1).val = (z 1).val; rw [e31]; omega
  · funext z
    show V c main_v14 (((cfg0.win 4).blk t).view.emb z) = V c main_v14 z
    refine congrArg _ (funext fun a => Fin.ext ?_)
    match a with
    | ⟨0, _⟩ => show win0_4.index t (0 : Fin 2) * 1 + 1 * (z 0).val = (z 0).val; rw [e40]; omega
    | ⟨1, _⟩ => show win0_4.index t (1 : Fin 2) * 128 + 1 * (z 1).val = (z 1).val; rw [e41]; omega
  · funext z
    show V c main_arg6 (((cfg0.win 5).blk t).view.emb z) = V c main_arg6 z
    refine congrArg _ (funext fun a => Fin.ext ?_)
    match a with
    | ⟨0, _⟩ => show win0_5.index t (0 : Fin 2) * 128 + 1 * (z 0).val = (z 0).val; rw [e50]; omega
    | ⟨1, _⟩ => show win0_5.index t (1 : Fin 2) * 128 + 1 * (z 1).val = (z 1).val; rw [e51]; omega
  · funext z
    show V c main_v15 (((cfg0.win 6).blk t).view.emb z) = V c main_v15 z
    refine congrArg _ (funext fun a => Fin.ext ?_)
    match a with
    | ⟨0, _⟩ => show win0_6.index t (0 : Fin 2) * 1 + 1 * (z 0).val = (z 0).val; rw [e60]; omega
    | ⟨1, _⟩ => show win0_6.index t (1 : Fin 2) * 128 + 1 * (z 1).val = (z 1).val; rw [e61]; omega
  · funext z
    show V c main_arg8 (((cfg0.win 7).blk t).view.emb z) = V c main_arg8 z
    refine congrArg _ (funext fun a => Fin.ext ?_)
    match a with
    | ⟨0, _⟩ => show win0_7.index t (0 : Fin 2) * 128 + 1 * (z 0).val = (z 0).val; rw [e70]; omega
    | ⟨1, _⟩ => show win0_7.index t (1 : Fin 2) * 128 + 1 * (z 1).val = (z 1).val; rw [e71]; omega
  · funext z
    show V c main_v16 (((cfg0.win 8).blk t).view.emb z) = V c main_v16 z
    refine congrArg _ (funext fun a => Fin.ext ?_)
    match a with
    | ⟨0, _⟩ => show win0_8.index t (0 : Fin 2) * 1 + 1 * (z 0).val = (z 0).val; rw [e80]; omega
    | ⟨1, _⟩ => show win0_8.index t (1 : Fin 2) * 128 + 1 * (z 1).val = (z 1).val; rw [e81]; omega
  · show win0_9.index t (0 : Fin 2) * 8 + 1 * (y 0).val = 8 * t.val + (y 0).val
    rw [e90]; omega
  · show win0_9.index t (1 : Fin 2) * 128 + 1 * (y 1).val = (y 1).val
    rw [e91]; omega

/-- An index is in point t's tile of result one iff each coordinate is in the tile's range. -/
theorem mem_blk9 (t : Fin cfg0.N) (i : S800x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v23_0).slice (win0_9.rect t)).set ↔ _
  rw [View.set_slice_whole, Rect.mem_set_unit]
  exact Iff.rfl

/-- Result one after the region: row r is covered by point r / 8. -/
theorem final9 (c : Dev nD) : (dat0 V c).arrAt 9 cfg0.N
    = G9 (V c main_v6) (V c main_v13) (V c main_arg1) (V c main_arg4) (V c main_arg6) (V c main_arg8)
        (V c main_v14) (V c main_v15) (V c main_v16) :=
  (dat0 V c).arrAt_eq_of_cover 9 _ (fun t _ => flushed9_eq V c t) fun i => by
    have hi0 : (i 0).val < 800 := (i 0).isLt
    have hi1 : (i 1).val < 128 := (i 1).isLt
    have hN : cfg0.N = 100 := N_0
    refine ⟨⟨(i 0).val / 8, by rw [hN]; omega⟩, flush0_9 _, ?_⟩
    rw [mem_blk9]
    obtain ⟨e00, e01, e10, e11, e20, e21, e30, e31, e40, e41, e50, e51, e60, e61, e70, e71, e80, e81, e90, e91, eA0, eA1⟩ :=
      idx_facts ⟨(i 0).val / 8, by rw [hN]; omega⟩
    intro a
    match a with
    | ⟨0, _⟩ => show win0_9.index _ (0 : Fin 2) * 8 ≤ (i 0).val ∧ (i 0).val < win0_9.index _ (0 : Fin 2) * 8 + 8; rw [e90]; show (i 0).val / 8 * 8 ≤ _ ∧ _ < (i 0).val / 8 * 8 + 8; omega
    | ⟨1, _⟩ => show win0_9.index _ (1 : Fin 2) * 128 ≤ (i 1).val ∧ (i 1).val < win0_9.index _ (1 : Fin 2) * 128 + 128; rw [e91]; omega

/-- What point t writes back to result two is tile t of the function. -/
theorem flushed10_eq (c : Dev nD) (t : Fin cfg0.N) :
    (dat0 V c).flushed 10 t = ((cfg0.win 10).blk t).view.read (Elt Ideal)
      (G10 (V c main_v6) (V c main_v13) (V c main_arg1) (V c main_arg4) (V c main_arg6) (V c main_arg8)
        (V c main_v14) (V c main_v15) (V c main_v16)) := by
  show (cfg0.win 10).cut (grid0.coords t) ((dat0 V c).after 10 t) = _
  rw [after0_10]
  unfold out0_10
  rw [View.canon_unit_zero hz]
  simp only [View.ld_unit_zero (S := S6000x128) hz, View.ld_unit_zero (S := S128x128) hz, View.ld_unit_zero (S := S1x128) hz]
  obtain ⟨e00, e01, e10, e11, e20, e21, e30, e31, e40, e41, e50, e51, e60, e61, e70, e71, e80, e81, e90, e91, eA0, eA1⟩ :=
    idx_facts t
  have ht : t.val < 100 := by have := t.isLt; have hN : cfg0.N = 100 := N_0; omega
  funext y
  refine point10 _ _ _ _ _ _ _ _ _ _ _ _ _ _ _ _ _ _ t.val ht y (((cfg0.win 10).blk t).view.emb y) ?_ ?_ ?_ ?_ ?_ ?_ ?_ ?_ ?_ ?_ ?_
  · intro p k'
    show V c main_v6 (((cfg0.win 0).blk t).view.emb (ix2 p k')) = V c main_v6 (ix2 ⟨6000 * t.val + p.val, _⟩ k')
    refine congrArg _ (funext fun a => Fin.ext ?_)
    match a with
    | ⟨0, _⟩ => show win0_0.index t (0 : Fin 2) * 6000 + 1 * p.val = 6000 * t.val + p.val; rw [e00]; omega
    | ⟨1, _⟩ => show win0_0.index t (1 : Fin 2) * 128 + 1 * k'.val = k'.val; rw [e01]; omega
  · intro p k'
    show V c main_v13 (((cfg0.win 1).blk t).view.emb (ix2 p k')) = V c main_v13 (ix2 ⟨6000 * t.val + p.val, _⟩ k')
    refine congrArg _ (funext fun a => Fin.ext ?_)
    match a with
    | ⟨0, _⟩ => show win0_1.index t (0 : Fin 2) * 6000 + 1 * p.val = 6000 * t.val + p.val; rw [e10]; omega
    | ⟨1, _⟩ => show win0_1.index t (1 : Fin 2) * 128 + 1 * k'.val = k'.val; rw [e11]; omega
  · intro p k'
    show V c main_arg1 (((cfg0.win 2).blk t).view.emb (ix2 p k')) = V c main_arg1 (ix2 ⟨6000 * t.val + p.val, _⟩ k')
    refine congrArg _ (funext fun a => Fin.ext ?_)
    match a with
    | ⟨0, _⟩ => show win0_2.index t (0 : Fin 2) * 6000 + 1 * p.val = 6000 * t.val + p.val; rw [e20]; omega
    | ⟨1, _⟩ => show win0_2.index t (1 : Fin 2) * 128 + 1 * k'.val = k'.val; rw [e21]; omega
  · funext z
    show V c main_arg4 (((cfg0.win 3).blk t).view.emb z) = V c main_arg4 z
    refine congrArg _ (funext fun a => Fin.ext ?_)
    match a with
    | ⟨0, _⟩ => show win0_3.index t (0 : Fin 2) * 128 + 1 * (z 0).val = (z 0).val; rw [e30]; omega
    | ⟨1, _⟩ => show win0_3.index t (1 : Fin 2) * 128 + 1 * (z 1).val = (z 1).val; rw [e31]; omega
  · funext z
    show V c main_v14 (((cfg0.win 4).blk t).view.emb z) = V c main_v14 z
    refine congrArg _ (funext fun a => Fin.ext ?_)
    match a with
    | ⟨0, _⟩ => show win0_4.index t (0 : Fin 2) * 1 + 1 * (z 0).val = (z 0).val; rw [e40]; omega
    | ⟨1, _⟩ => show win0_4.index t (1 : Fin 2) * 128 + 1 * (z 1).val = (z 1).val; rw [e41]; omega
  · funext z
    show V c main_arg6 (((cfg0.win 5).blk t).view.emb z) = V c main_arg6 z
    refine congrArg _ (funext fun a => Fin.ext ?_)
    match a with
    | ⟨0, _⟩ => show win0_5.index t (0 : Fin 2) * 128 + 1 * (z 0).val = (z 0).val; rw [e50]; omega
    | ⟨1, _⟩ => show win0_5.index t (1 : Fin 2) * 128 + 1 * (z 1).val = (z 1).val; rw [e51]; omega
  · funext z
    show V c main_v15 (((cfg0.win 6).blk t).view.emb z) = V c main_v15 z
    refine congrArg _ (funext fun a => Fin.ext ?_)
    match a with
    | ⟨0, _⟩ => show win0_6.index t (0 : Fin 2) * 1 + 1 * (z 0).val = (z 0).val; rw [e60]; omega
    | ⟨1, _⟩ => show win0_6.index t (1 : Fin 2) * 128 + 1 * (z 1).val = (z 1).val; rw [e61]; omega
  · funext z
    show V c main_arg8 (((cfg0.win 7).blk t).view.emb z) = V c main_arg8 z
    refine congrArg _ (funext fun a => Fin.ext ?_)
    match a with
    | ⟨0, _⟩ => show win0_7.index t (0 : Fin 2) * 128 + 1 * (z 0).val = (z 0).val; rw [e70]; omega
    | ⟨1, _⟩ => show win0_7.index t (1 : Fin 2) * 128 + 1 * (z 1).val = (z 1).val; rw [e71]; omega
  · funext z
    show V c main_v16 (((cfg0.win 8).blk t).view.emb z) = V c main_v16 z
    refine congrArg _ (funext fun a => Fin.ext ?_)
    match a with
    | ⟨0, _⟩ => show win0_8.index t (0 : Fin 2) * 1 + 1 * (z 0).val = (z 0).val; rw [e80]; omega
    | ⟨1, _⟩ => show win0_8.index t (1 : Fin 2) * 128 + 1 * (z 1).val = (z 1).val; rw [e81]; omega
  · show win0_10.index t (0 : Fin 2) * 8 + 1 * (y 0).val = 8 * t.val + (y 0).val
    rw [eA0]; omega
  · show win0_10.index t (1 : Fin 2) * 128 + 1 * (y 1).val = (y 1).val
    rw [eA1]; omega

/-- An index is in point t's tile of result two iff each coordinate is in the tile's range. -/
theorem mem_blk10 (t : Fin cfg0.N) (i : S800x128.Idx) :
    i ∈ ((cfg0.win 10).blk t).view.set ↔ ∀ a : Fin 2, win0_10.index t a * S8x128.size a ≤ (i a).val ∧ (i a).val < win0_10.index t a * S8x128.size a + S8x128.size a := by
  show i ∈ ((View.whole main_v23_1).slice (win0_10.rect t)).set ↔ _
  rw [View.set_slice_whole, Rect.mem_set_unit]
  exact Iff.rfl

/-- Result two after the region: row r is covered by point r / 8. -/
theorem final10 (c : Dev nD) : (dat0 V c).arrAt 10 cfg0.N
    = G10 (V c main_v6) (V c main_v13) (V c main_arg1) (V c main_arg4) (V c main_arg6) (V c main_arg8)
        (V c main_v14) (V c main_v15) (V c main_v16) :=
  (dat0 V c).arrAt_eq_of_cover 10 _ (fun t _ => flushed10_eq V c t) fun i => by
    have hi0 : (i 0).val < 800 := (i 0).isLt
    have hi1 : (i 1).val < 128 := (i 1).isLt
    have hN : cfg0.N = 100 := N_0
    refine ⟨⟨(i 0).val / 8, by rw [hN]; omega⟩, flush0_10 _, ?_⟩
    rw [mem_blk10]
    obtain ⟨e00, e01, e10, e11, e20, e21, e30, e31, e40, e41, e50, e51, e60, e61, e70, e71, e80, e81, e90, e91, eA0, eA1⟩ :=
      idx_facts ⟨(i 0).val / 8, by rw [hN]; omega⟩
    intro a
    match a with
    | ⟨0, _⟩ => show win0_10.index _ (0 : Fin 2) * 8 ≤ (i 0).val ∧ (i 0).val < win0_10.index _ (0 : Fin 2) * 8 + 8; rw [eA0]; show (i 0).val / 8 * 8 ≤ _ ∧ _ < (i 0).val / 8 * 8 + 8; omega
    | ⟨1, _⟩ => show win0_10.index _ (1 : Fin 2) * 128 ≤ (i 1).val ∧ (i 1).val < win0_10.index _ (1 : Fin 2) * 128 + 128; rw [eA1]; omega

end Cert.KernelIdeal.K0
end
-- ==== Proof.Pay1.lean ====
/-
  The edge normalise-and-gate kernel's payloads read at one entry of a block of 3000 rows.
-/
import proofs.«145784_j42537356100034_2_alg».proof.Proof.Gen.KernelIdeal.Skeleton
import proofs.«145784_j42537356100034_2_alg».proof.Proof.Spec
import proofs.«145784_j42537356100034_2_alg».proof.Proof.SpecK
import proofs.«145784_j42537356100034_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Cert.KernelIdeal Cert.KernelIdeal.Gen Cert.Spec Idealize.ShloMosaic Idealize.ShloMosaic.ValueIdx

/-- A block product into the zero accumulator, read at row `p`, column `q`: the sum over the contracted coordinate of
    the products of the entries. -/
theorem mm_apply {φ₁ φ₂ : FTy} (A : FVec Ideal S3000x128 φ₁) (B : FVec Ideal S128x128 φ₂) (p : Fin 3000) (q : Fin 128) :
    matmul dot_S3000x128_S128x128_S3000x128_1_0_0_1_n_n none A B (constant (F := Ideal) S3000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S3000x128_S128x128_S3000x128_1_0_0_1_n_n 128 rfl rfl).symm]
  refine Finset.sum_congr rfl fun c _ => ?_
  have c2 := contrEquiv1_symm_val dot_S3000x128_S128x128_S3000x128_1_0_0_1_n_n 128 rfl rfl c
  have l2 : (dot_S3000x128_S128x128_S3000x128_1_0_0_1_n_n).lhsIdx (ix2 p q) ((contrEquiv1 _ 128 rfl rfl).symm c) = ix2 p c := by
    funext ax; apply Fin.ext
    match ax with
    | ⟨0, _⟩ => simp [DotDims.lhsIdx, dot_S3000x128_S128x128_S3000x128_1_0_0_1_n_n]; rfl
    | ⟨1, _⟩ => simp [DotDims.lhsIdx, dot_S3000x128_S128x128_S3000x128_1_0_0_1_n_n]; exact c2
  have r2 : (dot_S3000x128_S128x128_S3000x128_1_0_0_1_n_n).rhsIdx (ix2 p q) ((contrEquiv1 _ 128 rfl rfl).symm c) = ix2 c q := by
    funext ax; apply Fin.ext
    match ax with
    | ⟨0, _⟩ => simp [DotDims.rhsIdx, dot_S3000x128_S128x128_S3000x128_1_0_0_1_n_n]; exact c2
    | ⟨1, _⟩ => simp [DotDims.rhsIdx, dot_S3000x128_S128x128_S3000x128_1_0_0_1_n_n]; rfl
  rw [l2, r2]

/-- The edge logits of a block at row `p`, column `q`: the three products and the three biases, added left to right.
    The change of float format on the way into a product is the identity on extended reals. -/
theorem k1_pay5_apply (v0 v3 v6 : FVec Ideal S3000x128 .f32) (v8 v10 v12 : FVec Ideal S128x128 .f32)
    (v17 v23 v29 : FVec Ideal S1x128 .f32) (p : Fin 3000) (q : Fin 128) :
    k1_pay5 (F := Ideal) v0 v3 v6 v8 v10 v12 v17 v23 v29 (ix2 p q)
      = etaK (fun (i : Fin 3000) (k : Fin 128) => v0 (ix2 i k)) (fun (i : Fin 3000) (k : Fin 128) => v3 (ix2 i k))
          (fun (i : Fin 3000) (k : Fin 128) => v6 (ix2 i k)) (fun (i : Fin 128) (k : Fin 128) => v8 (ix2 i k))
          (fun (i : Fin 128) (k : Fin 128) => v10 (ix2 i k)) (fun (i : Fin 128) (k : Fin 128) => v12 (ix2 i k))
          (fun q : Fin 128 => v17 (ix2 (0 : Fin 1) q)) (fun q : Fin 128 => v23 (ix2 (0 : Fin 1) q))
          (fun q : Fin 128 => v29 (ix2 (0 : Fin 1) q)) p q := by
  unfold k1_pay5 k1_pay3 etaK
  simp only [addf_apply, shapeCast_self, broadcastTo_1b_ab_apply, mm_apply, truncf_apply]

/-- The updated edge feature of a block at row `p`, column `q`: the old feature plus the rectified batch-normalised
    logit, the mean `v38`, variance `v33`, scale `v44` and offset `v48` being one-row arrays read at column `q`. -/
theorem k1_pay1_apply (v6 v32 : FVec Ideal S3000x128 .f32) (v33 v38 v44 v48 : FVec Ideal S1x128 .f32)
    (p : Fin 3000) (q : Fin 128) :
    k1_pay1 (F := Ideal) v6 v32 v33 v38 v44 v48 (ix2 p q)
      = v6 (ix2 p q) + bnRelu (Ideal.ofBits .f32 0x3727C5AC#32) (fun q : Fin 128 => v38 (ix2 (0 : Fin 1) q))
          (fun q : Fin 128 => v33 (ix2 (0 : Fin 1) q)) (fun q : Fin 128 => v44 (ix2 (0 : Fin 1) q))
          (fun q : Fin 128 => v48 (ix2 (0 : Fin 1) q)) (v32 (ix2 p q)) q := by
  unfold k1_pay1 bnRelu bn
  simp only [addf_apply, maximumf_apply, mulf_apply, subf_apply, broadcast_apply, shapeCast_self, broadcastTo_1b_ab_apply]
  have hz : (FloatOps.ofBits (F := Ideal) .f32 0#32) = 0 := Cert.Consts.ofBits_zero
  rw [hz]
  rfl

/-- The gated message of a block at row `p`, column `q`: the affine map of the source feature times the logistic
    function of the updated edge feature. -/
theorem k1_pay2_apply (v5 : FVec Ideal S3000x128 .bf16) (v6 v32 : FVec Ideal S3000x128 .f32)
    (v15 : FVec Ideal S128x128 .bf16) (v33 v38 v44 v48 v57 : FVec Ideal S1x128 .f32) (p : Fin 3000) (q : Fin 128) :
    k1_pay2 (F := Ideal) v5 v6 v15 v32 v33 v38 v44 v48 v57 (ix2 p q)
      = lin (fun (i : Fin 3000) (k : Fin 128) => v5 (ix2 i k)) (fun (i : Fin 128) (k : Fin 128) => v15 (ix2 i k))
          (fun q : Fin 128 => v57 (ix2 (0 : Fin 1) q)) p q
        * Ideal.logistic (k1_pay1 (F := Ideal) v6 v32 v33 v38 v44 v48 (ix2 p q)) := by
  unfold k1_pay2 lin
  simp only [mulf_apply, addf_apply, shapeCast_self, broadcastTo_1b_ab_apply, mm_apply]
  rfl

end Cert.KernelIdeal.Pay1

end
-- ==== Proof.K1.lean ====
/-
  The second region (the edge normalisation and gate), read as two functions of the arrays it is entered with.  Entry
  (r, q) of the first result is the edge feature e[r, q] plus the positive part of the normalised edge logit
  η[r, q] = (A h_i + B h_j + C e)[r, q]; entry (r, q) of the second is the affine map (V h_j)[r, q] times the logistic
  function of the first.  Each grid point handles 3000 consecutive rows; the weights and the row vectors are whole at
  every point; the 200 blocks tile the 600000 rows, so each array after the region is its function everywhere.
-/
import proofs.«145784_j42537356100034_2_alg».proof.Proof.Gen.KernelIdeal.Frame
import proofs.«145784_j42537356100034_2_alg».proof.Proof.Spec
import proofs.«145784_j42537356100034_2_alg».proof.Proof.SpecK
import proofs.«145784_j42537356100034_2_alg».proof.Proof.Consts
import proofs.«145784_j42537356100034_2_alg».proof.Proof.Pay1
import Idealize.ShloMosaic.Lib.Pipeline.Value
import Idealize.ShloMosaic.Lib.ValueIdx
import Idealize.ShloMosaic.Lib.ValueLayout

noncomputable section
open scoped BigOperators
namespace Cert.KernelIdeal.K1
open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The first result as a function of the whole arrays: the gathered endpoint features `HI`, `HJ`, the edge features
    `E`, the three weight matrices and bias rows of the logit, and the mean, variance, scale and offset rows. -/
def G15 (HI HJ E : FVec Ideal S600000x128 .f32) (Aw Bw Cw : FVec Ideal S128x128 .f32)
    (Ab Bb Cb μ v s o : FVec Ideal S1x128 .f32) : FVec Ideal S600000x128 .f32 :=
  fun i => E i + bnRelu (Ideal.ofBits .f32 0x3727C5AC#32) (fun q : Fin 128 => μ (ix2 (0 : Fin 1) q)) (fun q : Fin 128 => v (ix2 (0 : Fin 1) q)) (fun q : Fin 128 => s (ix2 (0 : Fin 1) q)) (fun q : Fin 128 => o (ix2 (0 : Fin 1) q))
    (etaK (fun (i : Fin 600000) (k : Fin 128) => HI (ix2 i k)) (fun (i : Fin 600000) (k : Fin 128) => HJ (ix2 i k)) (fun (i : Fin 600000) (k : Fin 128) => E (ix2 i k))
      (fun (i : Fin 128) (k : Fin 128) => Aw (ix2 i k)) (fun (i : Fin 128) (k : Fin 128) => Bw (ix2 i k)) (fun (i : Fin 128) (k : Fin 128) => Cw (ix2 i k))
      (fun q : Fin 128 => Ab (ix2 (0 : Fin 1) q)) (fun q : Fin 128 => Bb (ix2 (0 : Fin 1) q)) (fun q : Fin 128 => Cb (ix2 (0 : Fin 1) q)) ⟨(i 0).val, idx2_lt0 i⟩ ⟨(i 1).val, idx2_lt1 i⟩)
    ⟨(i 1).val, idx2_lt1 i⟩

/-- The second result as a function of the whole arrays: the gate's affine map (`Vw`, `Vb`) of `HJ` times the logistic
    function of the first result. -/
def G16 (HI HJ E : FVec Ideal S600000x128 .f32) (Aw Bw Cw Vw : FVec Ideal S128x128 .f32)
    (Ab Bb Cb Vb μ v s o : FVec Ideal S1x128 .f32) : FVec Ideal S600000x128 .f32 :=
  fun i => lin (fun (i : Fin 600000) (k : Fin 128) => HJ (ix2 i k)) (fun (i : Fin 128) (k : Fin 128) => Vw (ix2 i k)) (fun q : Fin 128 => Vb (ix2 (0 : Fin 1) q)) ⟨(i 0).val, idx2_lt0 i⟩ ⟨(i 1).val, idx2_lt1 i⟩
    * Ideal.logistic (G15 HI HJ E Aw Bw Cw Ab Bb Cb μ v s o i)

/-- The printed index maps of the five tiled windows over the 200 grid points: block `t` of the rows, the one block of
    columns. -/
theorem idx_tiled : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_15.index t (0 : Fin 2) = t.val ∧ win1_15.index t (1 : Fin 2) = 0
    ∧ win1_16.index t (0 : Fin 2) = t.val ∧ win1_16.index t (1 : Fin 2) = 0 :=
  (by decide +kernel : ∀ t : Fin grid1.N, _)

/-- The printed index maps of the twelve whole windows over the 200 grid points: their only block. -/
theorem idx_whole : ∀ t : Fin cfg1.N, win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0
    ∧ win1_12.index t (0 : Fin 2) = 0 ∧ win1_12.index t (1 : Fin 2) = 0
    ∧ win1_13.index t (0 : Fin 2) = 0 ∧ win1_13.index t (1 : Fin 2) = 0
    ∧ win1_14.index t (0 : Fin 2) = 0 ∧ win1_14.index t (1 : Fin 2) = 0 :=
  (by decide +kernel : ∀ t : Fin grid1.N, _)

/-! ### The logits and the affine map look at one row of their first arguments -/

theorem etaK_congr {n m : ℕ} (hi hj e : Fin n → Fin 128 → EReal) (hi' hj' e' : Fin m → Fin 128 → EReal)
    (Aw Bw Cw : Fin 128 → Fin 128 → EReal) (Ab Bb Cb : Fin 128 → EReal) (i : Fin n) (i' : Fin m) (q : Fin 128)
    (h1 : ∀ k, hi i k = hi' i' k) (h2 : ∀ k, hj i k = hj' i' k) (h3 : ∀ k, e i k = e' i' k) :
    etaK hi hj e Aw Bw Cw Ab Bb Cb i q = etaK hi' hj' e' Aw Bw Cw Ab Bb Cb i' q := by
  unfold etaK
  simp only [h1, h2, h3]

theorem lin_congr {n m : ℕ} (x : Fin n → Fin 128 → EReal) (x' : Fin m → Fin 128 → EReal)
    (W : Fin 128 → Fin 128 → EReal) (b : Fin 128 → EReal) (i : Fin n) (i' : Fin m) (q : Fin 128)
    (h : ∀ k, x i k = x' i' k) : lin x W b i q = lin x' W b i' q := by
  unfold lin
  simp only [h]

/-! ### The two changes of float format are the identity on extended reals -/

theorem k1_pay3_apply (v3 : FVec Ideal S3000x128 .f32) (j : S3000x128.Idx) : k1_pay3 (F := Ideal) v3 j = v3 j := by
  unfold k1_pay3
  simp only [truncf_apply, shapeCast_self]

theorem k1_pay4_apply (v14 : FVec Ideal S128x128 .f32) (j : S128x128.Idx) : k1_pay4 (F := Ideal) v14 j = v14 j := by
  unfold k1_pay4
  simp only [truncf_apply]

/-! ### What each window's block reads -/

/-- Row `y 0` of window 0's block at point `t` is row `t · 3000 + y 0` of its array. -/
theorem rd0 (c : Dev nD) (t : Fin cfg1.N) (y : S3000x128.Idx) (k : S600000x128.Idx)
    (hk0 : (k 0).val = t.val * 3000 + (y 0).val) (k' : Fin 128) :
    iblk1 V c 0 t (ix2 ⟨(y 0).val, idx2_lt0 y⟩ k') = V c main_v6 (ix2 ⟨(k 0).val, idx2_lt0 k⟩ k') := by
  obtain ⟨e0_0, e0_1, e1_0, e1_1, e2_0, e2_1, e15_0, e15_1, e16_0, e16_1⟩ := idx_tiled t
  show V c main_v6 (((cfg1.win 0).blk t).view.emb (ix2 ⟨(y 0).val, idx2_lt0 y⟩ k')) = _
  refine congrArg _ (funext fun a => Fin.ext ?_)
  match a with
  | ⟨0, _⟩ => show win1_0.index t (0 : Fin 2) * 3000 + 1 * (y 0).val = (k 0).val; rw [e0_0, hk0]; omega
  | ⟨1, _⟩ => show win1_0.index t (1 : Fin 2) * 128 + 1 * k'.val = k'.val; rw [e0_1]; omega

/-- Row `y 0` of window 1's block at point `t` is row `t · 3000 + y 0` of its array. -/
theorem rd1 (c : Dev nD) (t : Fin cfg1.N) (y : S3000x128.Idx) (k : S600000x128.Idx)
    (hk0 : (k 0).val = t.val * 3000 + (y 0).val) (k' : Fin 128) :
    iblk1 V c 1 t (ix2 ⟨(y 0).val, idx2_lt0 y⟩ k') = V c main_v13 (ix2 ⟨(k 0).val, idx2_lt0 k⟩ k') := by
  obtain ⟨e0_0, e0_1, e1_0, e1_1, e2_0, e2_1, e15_0, e15_1, e16_0, e16_1⟩ := idx_tiled t
  show V c main_v13 (((cfg1.win 1).blk t).view.emb (ix2 ⟨(y 0).val, idx2_lt0 y⟩ k')) = _
  refine congrArg _ (funext fun a => Fin.ext ?_)
  match a with
  | ⟨0, _⟩ => show win1_1.index t (0 : Fin 2) * 3000 + 1 * (y 0).val = (k 0).val; rw [e1_0, hk0]; omega
  | ⟨1, _⟩ => show win1_1.index t (1 : Fin 2) * 128 + 1 * k'.val = k'.val; rw [e1_1]; omega

/-- Row `y 0` of window 2's block at point `t` is row `t · 3000 + y 0` of its array. -/
theorem rd2 (c : Dev nD) (t : Fin cfg1.N) (y : S3000x128.Idx) (k : S600000x128.Idx)
    (hk0 : (k 0).val = t.val * 3000 + (y 0).val) (k' : Fin 128) :
    iblk1 V c 2 t (ix2 ⟨(y 0).val, idx2_lt0 y⟩ k') = V c main_arg1 (ix2 ⟨(k 0).val, idx2_lt0 k⟩ k') := by
  obtain ⟨e0_0, e0_1, e1_0, e1_1, e2_0, e2_1, e15_0, e15_1, e16_0, e16_1⟩ := idx_tiled t
  show V c main_arg1 (((cfg1.win 2).blk t).view.emb (ix2 ⟨(y 0).val, idx2_lt0 y⟩ k')) = _
  refine congrArg _ (funext fun a => Fin.ext ?_)
  match a with
  | ⟨0, _⟩ => show win1_2.index t (0 : Fin 2) * 3000 + 1 * (y 0).val = (k 0).val; rw [e2_0, hk0]; omega
  | ⟨1, _⟩ => show win1_2.index t (1 : Fin 2) * 128 + 1 * k'.val = k'.val; rw [e2_1]; omega

/-- Window 3's block at every point is its whole array. -/
theorem rd3 (c : Dev nD) (t : Fin cfg1.N) : (iblk1 V c 3 t : FVec Ideal S128x128 .f32) = V c main_arg4 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_arg4 (((cfg1.win 3).blk t).view.emb z) = V c main_arg4 z
  refine congrArg _ (funext fun a => Fin.ext ?_)
  match a with
  | ⟨0, _⟩ => show win1_3.index t (0 : Fin 2) * 128 + 1 * (z 0).val = (z 0).val; rw [e3_0]; omega
  | ⟨1, _⟩ => show win1_3.index t (1 : Fin 2) * 128 + 1 * (z 1).val = (z 1).val; rw [e3_1]; omega

/-- Window 4's block at every point is its whole array. -/
theorem rd4 (c : Dev nD) (t : Fin cfg1.N) : (iblk1 V c 4 t : FVec Ideal S1x128 .f32) = V c main_v14 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v14 (((cfg1.win 4).blk t).view.emb z) = V c main_v14 z
  refine congrArg _ (funext fun a => Fin.ext ?_)
  match a with
  | ⟨0, _⟩ => show win1_4.index t (0 : Fin 2) * 1 + 1 * (z 0).val = (z 0).val; rw [e4_0]; omega
  | ⟨1, _⟩ => show win1_4.index t (1 : Fin 2) * 128 + 1 * (z 1).val = (z 1).val; rw [e4_1]; omega

/-- Window 5's block at every point is its whole array. -/
theorem rd5 (c : Dev nD) (t : Fin cfg1.N) : (iblk1 V c 5 t : FVec Ideal S128x128 .f32) = V c main_arg6 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_arg6 (((cfg1.win 5).blk t).view.emb z) = V c main_arg6 z
  refine congrArg _ (funext fun a => Fin.ext ?_)
  match a with
  | ⟨0, _⟩ => show win1_5.index t (0 : Fin 2) * 128 + 1 * (z 0).val = (z 0).val; rw [e5_0]; omega
  | ⟨1, _⟩ => show win1_5.index t (1 : Fin 2) * 128 + 1 * (z 1).val = (z 1).val; rw [e5_1]; omega

/-- Window 6's block at every point is its whole array. -/
theorem rd6 (c : Dev nD) (t : Fin cfg1.N) : (iblk1 V c 6 t : FVec Ideal S1x128 .f32) = V c main_v15 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v15 (((cfg1.win 6).blk t).view.emb z) = V c main_v15 z
  refine congrArg _ (funext fun a => Fin.ext ?_)
  match a with
  | ⟨0, _⟩ => show win1_6.index t (0 : Fin 2) * 1 + 1 * (z 0).val = (z 0).val; rw [e6_0]; omega
  | ⟨1, _⟩ => show win1_6.index t (1 : Fin 2) * 128 + 1 * (z 1).val = (z 1).val; rw [e6_1]; omega

/-- Window 7's block at every point is its whole array. -/
theorem rd7 (c : Dev nD) (t : Fin cfg1.N) : (iblk1 V c 7 t : FVec Ideal S128x128 .f32) = V c main_arg8 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_arg8 (((cfg1.win 7).blk t).view.emb z) = V c main_arg8 z
  refine congrArg _ (funext fun a => Fin.ext ?_)
  match a with
  | ⟨0, _⟩ => show win1_7.index t (0 : Fin 2) * 128 + 1 * (z 0).val = (z 0).val; rw [e7_0]; omega
  | ⟨1, _⟩ => show win1_7.index t (1 : Fin 2) * 128 + 1 * (z 1).val = (z 1).val; rw [e7_1]; omega

/-- Window 8's block at every point is its whole array. -/
theorem rd8 (c : Dev nD) (t : Fin cfg1.N) : (iblk1 V c 8 t : FVec Ideal S1x128 .f32) = V c main_v16 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v16 (((cfg1.win 8).blk t).view.emb z) = V c main_v16 z
  refine congrArg _ (funext fun a => Fin.ext ?_)
  match a with
  | ⟨0, _⟩ => show win1_8.index t (0 : Fin 2) * 1 + 1 * (z 0).val = (z 0).val; rw [e8_0]; omega
  | ⟨1, _⟩ => show win1_8.index t (1 : Fin 2) * 128 + 1 * (z 1).val = (z 1).val; rw [e8_1]; omega

/-- Window 9's block at every point is its whole array. -/
theorem rd9 (c : Dev nD) (t : Fin cfg1.N) : (iblk1 V c 9 t : FVec Ideal S128x128 .f32) = V c main_arg12 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_arg12 (((cfg1.win 9).blk t).view.emb z) = V c main_arg12 z
  refine congrArg _ (funext fun a => Fin.ext ?_)
  match a with
  | ⟨0, _⟩ => show win1_9.index t (0 : Fin 2) * 128 + 1 * (z 0).val = (z 0).val; rw [e9_0]; omega
  | ⟨1, _⟩ => show win1_9.index t (1 : Fin 2) * 128 + 1 * (z 1).val = (z 1).val; rw [e9_1]; omega

/-- Window 10's block at every point is its whole array. -/
theorem rd10 (c : Dev nD) (t : Fin cfg1.N) : (iblk1 V c 10 t : FVec Ideal S1x128 .f32) = V c main_v18 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v18 (((cfg1.win 10).blk t).view.emb z) = V c main_v18 z
  refine congrArg _ (funext fun a => Fin.ext ?_)
  match a with
  | ⟨0, _⟩ => show win1_10.index t (0 : Fin 2) * 1 + 1 * (z 0).val = (z 0).val; rw [e10_0]; omega
  | ⟨1, _⟩ => show win1_10.index t (1 : Fin 2) * 128 + 1 * (z 1).val = (z 1).val; rw [e10_1]; omega

/-- Window 11's block at every point is its whole array. -/
theorem rd11 (c : Dev nD) (t : Fin cfg1.N) : (iblk1 V c 11 t : FVec Ideal S1x128 .f32) = V c main_v34 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v34 (((cfg1.win 11).blk t).view.emb z) = V c main_v34 z
  refine congrArg _ (funext fun a => Fin.ext ?_)
  match a with
  | ⟨0, _⟩ => show win1_11.index t (0 : Fin 2) * 1 + 1 * (z 0).val = (z 0).val; rw [e11_0]; omega
  | ⟨1, _⟩ => show win1_11.index t (1 : Fin 2) * 128 + 1 * (z 1).val = (z 1).val; rw [e11_1]; omega

/-- Window 12's block at every point is its whole array. -/
theorem rd12 (c : Dev nD) (t : Fin cfg1.N) : (iblk1 V c 12 t : FVec Ideal S1x128 .f32) = V c main_v35 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v35 (((cfg1.win 12).blk t).view.emb z) = V c main_v35 z
  refine congrArg _ (funext fun a => Fin.ext ?_)
  match a with
  | ⟨0, _⟩ => show win1_12.index t (0 : Fin 2) * 1 + 1 * (z 0).val = (z 0).val; rw [e12_0]; omega
  | ⟨1, _⟩ => show win1_12.index t (1 : Fin 2) * 128 + 1 * (z 1).val = (z 1).val; rw [e12_1]; omega

/-- Window 13's block at every point is its whole array. -/
theorem rd13 (c : Dev nD) (t : Fin cfg1.N) : (iblk1 V c 13 t : FVec Ideal S1x128 .f32) = V c main_v19 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v19 (((cfg1.win 13).blk t).view.emb z) = V c main_v19 z
  refine congrArg _ (funext fun a => Fin.ext ?_)
  match a with
  | ⟨0, _⟩ => show win1_13.index t (0 : Fin 2) * 1 + 1 * (z 0).val = (z 0).val; rw [e13_0]; omega
  | ⟨1, _⟩ => show win1_13.index t (1 : Fin 2) * 128 + 1 * (z 1).val = (z 1).val; rw [e13_1]; omega

/-- Window 14's block at every point is its whole array. -/
theorem rd14 (c : Dev nD) (t : Fin cfg1.N) : (iblk1 V c 14 t : FVec Ideal S1x128 .f32) = V c main_v20 := by
  obtain ⟨e3_0, e3_1, e4_0, e4_1, e5_0, e5_1, e6_0, e6_1, e7_0, e7_1, e8_0, e8_1, e9_0, e9_1, e10_0, e10_1, e11_0, e11_1, e12_0, e12_1, e13_0, e13_1, e14_0, e14_1⟩ := idx_whole t
  funext z
  show V c main_v20 (((cfg1.win 14).blk t).view.emb z) = V c main_v20 z
  refine congrArg _ (funext fun a => Fin.ext ?_)
  match a with
  | ⟨0, _⟩ => show win1_14.index t (0 : Fin 2) * 1 + 1 * (z 0).val = (z 0).val; rw [e14_0]; omega
  | ⟨1, _⟩ => show win1_14.index t (1 : Fin 2) * 128 + 1 * (z 1).val = (z 1).val; rw [e14_1]; omega

/-! ### One entry of each result -/

/-- One entry of the first result: the body's value at `y` of a block is the function at the array index `k` the block
    puts `y` at, the three tiled inputs agreeing with their arrays along the row. -/
theorem point15 (x0 x1 x2 : FVec Ideal S3000x128 .f32) (x3 x5 x7 : FVec Ideal S128x128 .f32)
    (x4 x6 x8 x11 x12 x13 x14 : FVec Ideal S1x128 .f32)
    (HI HJ E : FVec Ideal S600000x128 .f32) (Aw Bw Cw : FVec Ideal S128x128 .f32) (Ab Bb Cb μ v s o : FVec Ideal S1x128 .f32)
    (y : S3000x128.Idx) (k : S600000x128.Idx)
    (h0 : ∀ k' : Fin 128, x0 (ix2 ⟨(y 0).val, idx2_lt0 y⟩ k') = HI (ix2 ⟨(k 0).val, idx2_lt0 k⟩ k'))
    (h1 : ∀ k' : Fin 128, x1 (ix2 ⟨(y 0).val, idx2_lt0 y⟩ k') = HJ (ix2 ⟨(k 0).val, idx2_lt0 k⟩ k'))
    (h2 : ∀ k' : Fin 128, x2 (ix2 ⟨(y 0).val, idx2_lt0 y⟩ k') = E (ix2 ⟨(k 0).val, idx2_lt0 k⟩ k'))
    (h3 : x3 = Aw) (h5 : x5 = Bw) (h7 : x7 = Cw) (h4 : x4 = Ab) (h6 : x6 = Bb) (h8 : x8 = Cb)
    (h11 : x11 = μ) (h12 : x12 = v) (h13 : x13 = s) (h14 : x14 = o) (hk : (k 1).val = (y 1).val) :
    k1_pay1 (F := Ideal) x2 (k1_pay5 (F := Ideal) x0 x1 x2 x3 x5 x7 x4 x6 x8) x12 x11 x13 x14 y
      = G15 HI HJ E Aw Bw Cw Ab Bb Cb μ v s o k := by
  obtain ⟨p, q, rfl⟩ : ∃ (p : Fin 3000) (q : Fin 128), y = ix2 p q := ⟨y 0, y 1, eq_ix2 y⟩
  subst h3 h5 h7 h4 h6 h8 h11 h12 h13 h14
  have h0' : ∀ k' : Fin 128, x0 (ix2 p k') = HI (ix2 ⟨(k 0).val, idx2_lt0 k⟩ k') := h0
  have h1' : ∀ k' : Fin 128, x1 (ix2 p k') = HJ (ix2 ⟨(k 0).val, idx2_lt0 k⟩ k') := h1
  have h2' : ∀ k' : Fin 128, x2 (ix2 p k') = E (ix2 ⟨(k 0).val, idx2_lt0 k⟩ k') := h2
  have hq : (⟨(k 1).val, idx2_lt1 k⟩ : Fin 128) = q := Fin.ext hk
  have hkeq : k = ix2 ⟨(k 0).val, idx2_lt0 k⟩ q := by rw [← hq]; exact eq_ix2 k
  have hE : E k = x2 (ix2 p q) := (congrArg E hkeq).trans (h2' q).symm
  have hη : etaK (fun (i : Fin 3000) (k : Fin 128) => x0 (ix2 i k)) (fun (i : Fin 3000) (k : Fin 128) => x1 (ix2 i k)) (fun (i : Fin 3000) (k : Fin 128) => x2 (ix2 i k))
        (fun (i : Fin 128) (k : Fin 128) => x3 (ix2 i k)) (fun (i : Fin 128) (k : Fin 128) => x5 (ix2 i k)) (fun (i : Fin 128) (k : Fin 128) => x7 (ix2 i k))
        (fun q : Fin 128 => x4 (ix2 (0 : Fin 1) q)) (fun q : Fin 128 => x6 (ix2 (0 : Fin 1) q)) (fun q : Fin 128 => x8 (ix2 (0 : Fin 1) q)) p q
      = etaK (fun (i : Fin 600000) (k : Fin 128) => HI (ix2 i k)) (fun (i : Fin 600000) (k : Fin 128) => HJ (ix2 i k)) (fun (i : Fin 600000) (k : Fin 128) => E (ix2 i k))
        (fun (i : Fin 128) (k : Fin 128) => x3 (ix2 i k)) (fun (i : Fin 128) (k : Fin 128) => x5 (ix2 i k)) (fun (i : Fin 128) (k : Fin 128) => x7 (ix2 i k))
        (fun q : Fin 128 => x4 (ix2 (0 : Fin 1) q)) (fun q : Fin 128 => x6 (ix2 (0 : Fin 1) q)) (fun q : Fin 128 => x8 (ix2 (0 : Fin 1) q)) ⟨(k 0).val, idx2_lt0 k⟩ q :=
    etaK_congr _ _ _ _ _ _ _ _ _ _ _ _ p ⟨(k 0).val, idx2_lt0 k⟩ q h0' h1' h2'
  rw [Pay1.k1_pay1_apply, Pay1.k1_pay5_apply]
  unfold G15
  rw [hq, hE, hη]

/-- One entry of the second result, likewise; the gate's weight `x9` and bias `x10` are whole. -/
theorem point16 (x0 x1 x2 : FVec Ideal S3000x128 .f32) (x3 x5 x7 x9 : FVec Ideal S128x128 .f32)
    (x4 x6 x8 x10 x11 x12 x13 x14 : FVec Ideal S1x128 .f32)
    (HI HJ E : FVec Ideal S600000x128 .f32) (Aw Bw Cw Vw : FVec Ideal S128x128 .f32)
    (Ab Bb Cb Vb μ v s o : FVec Ideal S1x128 .f32)
    (y : S3000x128.Idx) (k : S600000x128.Idx)
    (h0 : ∀ k' : Fin 128, x0 (ix2 ⟨(y 0).val, idx2_lt0 y⟩ k') = HI (ix2 ⟨(k 0).val, idx2_lt0 k⟩ k'))
    (h1 : ∀ k' : Fin 128, x1 (ix2 ⟨(y 0).val, idx2_lt0 y⟩ k') = HJ (ix2 ⟨(k 0).val, idx2_lt0 k⟩ k'))
    (h2 : ∀ k' : Fin 128, x2 (ix2 ⟨(y 0).val, idx2_lt0 y⟩ k') = E (ix2 ⟨(k 0).val, idx2_lt0 k⟩ k'))
    (h3 : x3 = Aw) (h5 : x5 = Bw) (h7 : x7 = Cw) (h9 : x9 = Vw) (h4 : x4 = Ab) (h6 : x6 = Bb) (h8 : x8 = Cb)
    (h10 : x10 = Vb) (h11 : x11 = μ) (h12 : x12 = v) (h13 : x13 = s) (h14 : x14 = o) (hk : (k 1).val = (y 1).val) :
    k1_pay2 (F := Ideal) (k1_pay3 (F := Ideal) x1) x2 (k1_pay4 (F := Ideal) x9)
        (k1_pay5 (F := Ideal) x0 x1 x2 x3 x5 x7 x4 x6 x8) x12 x11 x13 x14 x10 y
      = G16 HI HJ E Aw Bw Cw Vw Ab Bb Cb Vb μ v s o k := by
  have h15 := point15 x0 x1 x2 x3 x5 x7 x4 x6 x8 x11 x12 x13 x14 HI HJ E Aw Bw Cw Ab Bb Cb μ v s o y k
    h0 h1 h2 h3 h5 h7 h4 h6 h8 h11 h12 h13 h14 hk
  obtain ⟨p, q, rfl⟩ : ∃ (p : Fin 3000) (q : Fin 128), y = ix2 p q := ⟨y 0, y 1, eq_ix2 y⟩
  subst h9 h10
  have h1' : ∀ k' : Fin 128, x1 (ix2 p k') = HJ (ix2 ⟨(k 0).val, idx2_lt0 k⟩ k') := h1
  have hq : (⟨(k 1).val, idx2_lt1 k⟩ : Fin 128) = q := Fin.ext hk
  have hl : lin (fun (i : Fin 3000) (k : Fin 128) => k1_pay3 (F := Ideal) x1 (ix2 i k)) (fun (i : Fin 128) (k : Fin 128) => k1_pay4 (F := Ideal) x9 (ix2 i k)) (fun q : Fin 128 => x10 (ix2 (0 : Fin 1) q)) p q
      = lin (fun (i : Fin 600000) (k : Fin 128) => HJ (ix2 i k)) (fun (i : Fin 128) (k : Fin 128) => x9 (ix2 i k)) (fun q : Fin 128 => x10 (ix2 (0 : Fin 1) q)) ⟨(k 0).val, idx2_lt0 k⟩ q := by
    simp only [k1_pay3_apply, k1_pay4_apply]
    exact lin_congr _ _ _ _ p ⟨(k 0).val, idx2_lt0 k⟩ q h1'
  rw [Pay1.k1_pay2_apply, h15]
  unfold G16
  rw [hq, hl]

/-! ### From the blocks to the arrays -/

/-- What point `t` writes back to window 15 is block `t` of the function. -/
theorem flushed_eq15 (c : Dev nD) (t : Fin cfg1.N) :
    (dat1 V c).flushed 15 t = ((cfg1.win 15).blk t).view.read (Elt Ideal)
      (G15 (V c main_v6) (V c main_v13) (V c main_arg1) (V c main_arg4) (V c main_arg6) (V c main_arg8) (V c main_v14) (V c main_v15) (V c main_v16) (V c main_v34) (V c main_v35) (V c main_v19) (V c main_v20)) := by
  show (cfg1.win 15).cut (grid1.coords t) ((dat1 V c).after 15 t) = _
  rw [after1_15]
  unfold out1_15
  rw [View.canon_unit_zero hz]
  simp only [View.ld_unit_zero (S := S3000x128) hz, View.ld_unit_zero (S := S128x128) hz, View.ld_unit_zero (S := S1x128) hz]
  obtain ⟨e0_0, e0_1, e1_0, e1_1, e2_0, e2_1, e15_0, e15_1, e16_0, e16_1⟩ := idx_tiled t
  funext y
  have hk0 : ((((cfg1.win 15).blk t).view.emb y) 0).val = t.val * 3000 + (y 0).val := by
    show win1_15.index t (0 : Fin 2) * 3000 + 1 * (y 0).val = _
    rw [e15_0]; omega
  have hk1 : ((((cfg1.win 15).blk t).view.emb y) 1).val = (y 1).val := by
    show win1_15.index t (1 : Fin 2) * 128 + 1 * (y 1).val = _
    rw [e15_1]; omega
  exact point15 _ _ _ _ _ _ _ _ _ _ _ _ _ _ _ _ _ _ _ _ _ _ _ _ _ _ y (((cfg1.win 15).blk t).view.emb y)
    (rd0 V c t y _ hk0) (rd1 V c t y _ hk0) (rd2 V c t y _ hk0)
    (rd3 V c t) (rd5 V c t) (rd7 V c t) (rd4 V c t) (rd6 V c t) (rd8 V c t) (rd11 V c t) (rd12 V c t) (rd13 V c t) (rd14 V c t) hk1

/-- What point `t` writes back to window 16 is block `t` of the function. -/
theorem flushed_eq16 (c : Dev nD) (t : Fin cfg1.N) :
    (dat1 V c).flushed 16 t = ((cfg1.win 16).blk t).view.read (Elt Ideal)
      (G16 (V c main_v6) (V c main_v13) (V c main_arg1) (V c main_arg4) (V c main_arg6) (V c main_arg8) (V c main_arg12) (V c main_v14) (V c main_v15) (V c main_v16) (V c main_v18) (V c main_v34) (V c main_v35) (V c main_v19) (V c main_v20)) := by
  show (cfg1.win 16).cut (grid1.coords t) ((dat1 V c).after 16 t) = _
  rw [after1_16]
  unfold out1_16
  rw [View.canon_unit_zero hz]
  simp only [View.ld_unit_zero (S := S3000x128) hz, View.ld_unit_zero (S := S128x128) hz, View.ld_unit_zero (S := S1x128) hz]
  obtain ⟨e0_0, e0_1, e1_0, e1_1, e2_0, e2_1, e15_0, e15_1, e16_0, e16_1⟩ := idx_tiled t
  funext y
  have hk0 : ((((cfg1.win 16).blk t).view.emb y) 0).val = t.val * 3000 + (y 0).val := by
    show win1_16.index t (0 : Fin 2) * 3000 + 1 * (y 0).val = _
    rw [e16_0]; omega
  have hk1 : ((((cfg1.win 16).blk t).view.emb y) 1).val = (y 1).val := by
    show win1_16.index t (1 : Fin 2) * 128 + 1 * (y 1).val = _
    rw [e16_1]; omega
  exact point16 _ _ _ _ _ _ _ _ _ _ _ _ _ _ _ _ _ _ _ _ _ _ _ _ _ _ _ _ _ _ y (((cfg1.win 16).blk t).view.emb y)
    (rd0 V c t y _ hk0) (rd1 V c t y _ hk0) (rd2 V c t y _ hk0)
    (rd3 V c t) (rd5 V c t) (rd7 V c t) (rd9 V c t) (rd4 V c t) (rd6 V c t) (rd8 V c t) (rd10 V c t) (rd11 V c t) (rd12 V c t) (rd13 V c t) (rd14 V c t) hk1

/-- An index is in point `t`'s block of window 15 iff each coordinate is in the block's range. -/
theorem mem_blk15 (t : Fin cfg1.N) (i : S600000x128.Idx) :
    i ∈ ((cfg1.win 15).blk t).view.set ↔ ∀ a : Fin 2, win1_15.index t a * S3000x128.size a ≤ (i a).val ∧ (i a).val < win1_15.index t a * S3000x128.size a + S3000x128.size a := by
  show i ∈ ((View.whole main_v36_0).slice (win1_15.rect t)).set ↔ _
  rw [View.set_slice_whole, Rect.mem_set_unit]
  exact Iff.rfl

/-- An index is in point `t`'s block of window 16 iff each coordinate is in the block's range. -/
theorem mem_blk16 (t : Fin cfg1.N) (i : S600000x128.Idx) :
    i ∈ ((cfg1.win 16).blk t).view.set ↔ ∀ a : Fin 2, win1_16.index t a * S3000x128.size a ≤ (i a).val ∧ (i a).val < win1_16.index t a * S3000x128.size a + S3000x128.size a := by
  show i ∈ ((View.whole main_v36_1).slice (win1_16.rect t)).set ↔ _
  rw [View.set_slice_whole, Rect.mem_set_unit]
  exact Iff.rfl

/-- The array of window 15 after the region: row `r` is covered by point `r / 3000`. -/
theorem final15 (c : Dev nD) : (dat1 V c).arrAt 15 cfg1.N
    = G15 (V c main_v6) (V c main_v13) (V c main_arg1) (V c main_arg4) (V c main_arg6) (V c main_arg8) (V c main_v14) (V c main_v15) (V c main_v16) (V c main_v34) (V c main_v35) (V c main_v19) (V c main_v20) :=
  (dat1 V c).arrAt_eq_of_cover 15 _ (fun t _ => flushed_eq15 V c t) fun i => by
    have hi0 : (i 0).val < 600000 := (i 0).isLt
    have hi1 : (i 1).val < 128 := (i 1).isLt
    have hN : cfg1.N = 200 := N_1
    refine ⟨⟨(i 0).val / 3000, by rw [hN]; omega⟩, flush1_15 _, ?_⟩
    rw [mem_blk15]
    obtain ⟨e0_0, e0_1, e1_0, e1_1, e2_0, e2_1, e15_0, e15_1, e16_0, e16_1⟩ := idx_tiled ⟨(i 0).val / 3000, by rw [hN]; omega⟩
    intro a
    match a with
    | ⟨0, _⟩ => show win1_15.index _ (0 : Fin 2) * 3000 ≤ (i 0).val ∧ (i 0).val < win1_15.index _ (0 : Fin 2) * 3000 + 3000; rw [e15_0]; show (i 0).val / 3000 * 3000 ≤ _ ∧ _ < (i 0).val / 3000 * 3000 + 3000; omega
    | ⟨1, _⟩ => show win1_15.index _ (1 : Fin 2) * 128 ≤ (i 1).val ∧ (i 1).val < win1_15.index _ (1 : Fin 2) * 128 + 128; rw [e15_1]; omega

/-- The array of window 16 after the region: row `r` is covered by point `r / 3000`. -/
theorem final16 (c : Dev nD) : (dat1 V c).arrAt 16 cfg1.N
    = G16 (V c main_v6) (V c main_v13) (V c main_arg1) (V c main_arg4) (V c main_arg6) (V c main_arg8) (V c main_arg12) (V c main_v14) (V c main_v15) (V c main_v16) (V c main_v18) (V c main_v34) (V c main_v35) (V c main_v19) (V c main_v20) :=
  (dat1 V c).arrAt_eq_of_cover 16 _ (fun t _ => flushed_eq16 V c t) fun i => by
    have hi0 : (i 0).val < 600000 := (i 0).isLt
    have hi1 : (i 1).val < 128 := (i 1).isLt
    have hN : cfg1.N = 200 := N_1
    refine ⟨⟨(i 0).val / 3000, by rw [hN]; omega⟩, flush1_16 _, ?_⟩
    rw [mem_blk16]
    obtain ⟨e0_0, e0_1, e1_0, e1_1, e2_0, e2_1, e15_0, e15_1, e16_0, e16_1⟩ := idx_tiled ⟨(i 0).val / 3000, by rw [hN]; omega⟩
    intro a
    match a with
    | ⟨0, _⟩ => show win1_16.index _ (0 : Fin 2) * 3000 ≤ (i 0).val ∧ (i 0).val < win1_16.index _ (0 : Fin 2) * 3000 + 3000; rw [e16_0]; show (i 0).val / 3000 * 3000 ≤ _ ∧ _ < (i 0).val / 3000 * 3000 + 3000; omega
    | ⟨1, _⟩ => show win1_16.index _ (1 : Fin 2) * 128 ≤ (i 1).val ∧ (i 1).val < win1_16.index _ (1 : Fin 2) * 128 + 128; rw [e16_1]; omega

end Cert.KernelIdeal.K1
end
-- ==== Proof.Pay2.lean ====
/-
  The node-feature body's arithmetic, read entry by entry on the extended reals: the pre-normalisation node features of
  a block of 5000 rows, and the two 8 × 128 tiles whose first row holds their column sums and the column sums of their
  squares.
-/
import proofs.«145784_j42537356100034_2_alg».proof.Proof.Gen.KernelIdeal.Skeleton
import proofs.«145784_j42537356100034_2_alg».proof.Proof.Spec
import proofs.«145784_j42537356100034_2_alg».proof.Proof.SpecK
import proofs.«145784_j42537356100034_2_alg».proof.Proof.Consts
import proofs.«145784_j42537356100034_2_alg».proof.Proof.Pay0
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay2

open Cert.KernelIdeal Cert.KernelIdeal.Gen Cert.Spec Idealize.ShloMosaic Idealize.ShloMosaic.ValueIdx

local notation "M[" x "]" => (fun (i : Fin _) (k : Fin 128) => x (ix2 i k))
local notation "R[" v "]" => (fun (c : Fin 128) => v (ix2 (0 : Fin 1) c))

/-- The matrix product's dimension numbers for a 5000 × 128 block against a 128 × 128 matrix. -/
abbrev D5 : DotDims S5000x128 S128x128 S5000x128 := dot_S5000x128_S128x128_S5000x128_1_0_0_1_n_n

/-- The left operand's row is the result's row. -/
theorem lhs_row (i : S5000x128.Idx) (c : D5.contr.Idx) : (D5.lhsIdx i c 0).val = (i 0).val := by
  unfold DotDims.lhsIdx
  rw [dif_neg (show ¬(0 : Fin S5000x128.rank) ∈ D5.lhsBatch by decide),
    dif_pos (show (0 : Fin S5000x128.rank) ∈ D5.lhsNonContracting by decide)]
  rfl

/-- The left operand's column is the contraction position. -/
theorem lhs_col (i : S5000x128.Idx) (c : D5.contr.Idx) : (D5.lhsIdx i c 1).val = (c ⟨0, by decide⟩).val :=
  D5.lhsIdx_val_of_single rfl i c

/-- The right operand's row is the contraction position. -/
theorem rhs_row (i : S5000x128.Idx) (c : D5.contr.Idx) : (D5.rhsIdx i c 0).val = (c ⟨0, by decide⟩).val :=
  D5.rhsIdx_val_of_single rfl i c

/-- The right operand's column is the result's column. -/
theorem rhs_col (i : S5000x128.Idx) (c : D5.contr.Idx) : (D5.rhsIdx i c 1).val = (i 1).val := by
  unfold DotDims.rhsIdx
  rw [dif_neg (show ¬(1 : Fin S128x128.rank) ∈ D5.rhsBatch by decide),
    dif_pos (show (1 : Fin S128x128.rank) ∈ D5.rhsNonContracting by decide)]
  rfl

/-- The matrix product into the zero accumulator, at row p and column q: the sum over k of x[p, k] · w[k, q]. -/
theorem matmul_apply (x : FVec Ideal S5000x128 .bf16) (w : FVec Ideal S128x128 .bf16) (p : Fin 5000) (q : Fin 128) :
    matmul D5 none x w (constant (F := Ideal) S5000x128 .f32 0x00000000#32) (ix2 p q)
      = ∑ k : Fin 128, x (ix2 p k) * w (ix2 k q) := by
  refine (Ideal.matmul_constant_zero_apply D5 none x w (ix2 p q)).trans ?_
  rw [← Equiv.sum_comp (contrEquiv1 D5 128 rfl rfl).symm]
  refine Finset.sum_congr rfl fun k _ => ?_
  have hk := contrEquiv1_symm_val D5 128 rfl rfl k
  have el : D5.lhsIdx (ix2 p q) ((contrEquiv1 D5 128 rfl rfl).symm k) = ix2 p k := funext fun a => Fin.ext (by
    match a with
    | ⟨0, _⟩ => exact lhs_row _ _
    | ⟨1, _⟩ => exact (lhs_col _ _).trans hk)
  have er : D5.rhsIdx (ix2 p q) ((contrEquiv1 D5 128 rfl rfl).symm k) = ix2 k q := funext fun a => Fin.ext (by
    match a with
    | ⟨0, _⟩ => exact (rhs_row _ _).trans hk
    | ⟨1, _⟩ => exact rhs_col _ _)
  rw [el, er]

/-- The node features of the block before normalisation, at row p, column q: the affine map of the node's own
    features plus the aggregated messages divided by the gate sums. -/
theorem k2_pay1_apply (v0 v9 v11 : FVec Ideal S5000x128 .f32) (v2 : FVec Ideal S128x128 .f32)
    (v5 : FVec Ideal S1x128 .f32) (p : Fin 5000) (q : Fin 128) :
    k2_pay1 (F := Ideal) v0 v2 v5 v9 v11 (ix2 p q)
      = lin M[v0] M[v2] R[v5] p q + Ideal.div (v9 (ix2 p q)) (v11 (ix2 p q)) := by
  unfold k2_pay1 lin
  simp only [addf_apply, divf_apply, shapeCast_self, broadcastTo_1b_ab_apply]
  simp only [matmul_apply, truncf_apply]

/-- The stored sum tile: row 0 holds the block's column sums of the node features, the other seven rows are zero. -/
theorem k2_sum_apply (v0 v9 v11 : FVec Ideal S5000x128 .f32) (v2 : FVec Ideal S128x128 .f32)
    (v5 : FVec Ideal S1x128 .f32) (r : Fin 8) (q : Fin 128) :
    k2_pay2 (F := Ideal) v0 v2 v5 v9 v11 (ix2 r q)
      = if r.val = 0 then ∑ p : Fin 5000, k2_pay1 (F := Ideal) v0 v2 v5 v9 v11 (ix2 p q) else 0 := by
  unfold k2_pay2
  rw [shapeCast_self]
  refine (Pay0.tile_apply _ _ _ r q).trans ?_
  rw [shapeCast_a_1a_apply _ _ 0 q, Pay0.colsum_apply]

/-- The stored sum-of-squares tile: row 0 holds the block's column sums of the squared node features, the other rows
    are zero. -/
theorem k2_sumsq_apply (v0 v9 v11 : FVec Ideal S5000x128 .f32) (v2 : FVec Ideal S128x128 .f32)
    (v5 : FVec Ideal S1x128 .f32) (r : Fin 8) (q : Fin 128) :
    k2_pay3 (F := Ideal) v0 v2 v5 v9 v11 (ix2 r q)
      = if r.val = 0 then ∑ p : Fin 5000, k2_pay1 (F := Ideal) v0 v2 v5 v9 v11 (ix2 p q)
          * k2_pay1 (F := Ideal) v0 v2 v5 v9 v11 (ix2 p q) else 0 := by
  unfold k2_pay3
  rw [shapeCast_self]
  refine (Pay0.tile_apply _ _ _ r q).trans ?_
  rw [shapeCast_a_1a_apply _ _ 0 q, Pay0.colsum_apply]
  rfl

end Cert.KernelIdeal.Pay2

end
-- ==== Proof.K2.lean ====
/-
  The third region (the node features before normalisation), read as three functions of the arrays it is entered with.
  Entry (n, q) of the first result is (U h)[n, q] plus the aggregated messages divided by the gate sums.  The other two
  results hold the batch statistics of the first, block by block: each of the ten grid points handles 5000 consecutive
  rows and writes one tile of eight rows, whose first row holds the column sums of the block (of its entries, and of
  their squares) and whose other seven rows are zero.  The ten blocks tile the 50000 rows and the ten tiles the 80 rows,
  so each array after the region is its function everywhere.
-/
import proofs.«145784_j42537356100034_2_alg».proof.Proof.Gen.KernelIdeal.Frame
import proofs.«145784_j42537356100034_2_alg».proof.Proof.Spec
import proofs.«145784_j42537356100034_2_alg».proof.Proof.SpecK
import proofs.«145784_j42537356100034_2_alg».proof.Proof.Consts
import proofs.«145784_j42537356100034_2_alg».proof.Proof.Pay2
import proofs.«145784_j42537356100034_2_alg».proof.Proof.KDefs
import Idealize.ShloMosaic.Lib.Pipeline.Value
import Idealize.ShloMosaic.Lib.ValueIdx
import Idealize.ShloMosaic.Lib.ValueLayout

noncomputable section
open scoped BigOperators
namespace Cert.KernelIdeal.K2
open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The printed index maps over the ten grid points: the three tiled inputs and the three outputs at block `t` of the
    rows and the one block of columns, the weight matrix and the bias row at their only block. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_5.index t (0 : Fin 2) = t.val ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- The affine map looks at one row of its first argument. -/
theorem lin_congr {n m : ℕ} (x : Fin n → Fin 128 → EReal) (x' : Fin m → Fin 128 → EReal)
    (W : Fin 128 → Fin 128 → EReal) (b : Fin 128 → EReal) (i : Fin n) (i' : Fin m) (q : Fin 128)
    (h : ∀ k, x i k = x' i' k) : lin x W b i q = lin x' W b i' q := by
  unfold lin
  simp only [h]

/-! ### What each window's block reads -/

/-- Row `p` of window 0's block at point `t` is row `5000 t + p` of its array. -/
theorem rd0 (c : Dev nD) (t : Fin cfg2.N) (p : Fin 5000) (q : Fin 128) :
    iblk2 V c 0 t (ix2 p q)
      = V c main_arg0 (ix2 (⟨5000 * t.val + p.val, by have := p.isLt; have := lt_of_lt_of_eq t.isLt N_2; omega⟩ : Fin 50000) q) := by
  obtain ⟨e0_0, e0_1, e1_0, e1_1, e2_0, e2_1, e5_0, e5_1, e6_0, e6_1, e7_0, e7_1, e3_0, e3_1, e4_0, e4_1⟩ := idx_facts t
  show V c main_arg0 (((cfg2.win 0).blk t).view.emb (ix2 p q)) = _
  refine congrArg _ (funext fun a => Fin.ext ?_)
  match a with
  | ⟨0, _⟩ => show win2_0.index t (0 : Fin 2) * 5000 + 1 * p.val = 5000 * t.val + p.val; rw [e0_0]; omega
  | ⟨1, _⟩ => show win2_0.index t (1 : Fin 2) * 128 + 1 * q.val = q.val; rw [e0_1]; omega

/-- Row `p` of window 1's block at point `t` is row `5000 t + p` of its array. -/
theorem rd1 (c : Dev nD) (t : Fin cfg2.N) (p : Fin 5000) (q : Fin 128) :
    iblk2 V c 1 t (ix2 p q)
      = V c main_v50 (ix2 (⟨5000 * t.val + p.val, by have := p.isLt; have := lt_of_lt_of_eq t.isLt N_2; omega⟩ : Fin 50000) q) := by
  obtain ⟨e0_0, e0_1, e1_0, e1_1, e2_0, e2_1, e5_0, e5_1, e6_0, e6_1, e7_0, e7_1, e3_0, e3_1, e4_0, e4_1⟩ := idx_facts t
  show V c main_v50 (((cfg2.win 1).blk t).view.emb (ix2 p q)) = _
  refine congrArg _ (funext fun a => Fin.ext ?_)
  match a with
  | ⟨0, _⟩ => show win2_1.index t (0 : Fin 2) * 5000 + 1 * p.val = 5000 * t.val + p.val; rw [e1_0]; omega
  | ⟨1, _⟩ => show win2_1.index t (1 : Fin 2) * 128 + 1 * q.val = q.val; rw [e1_1]; omega

/-- Row `p` of window 2's block at point `t` is row `5000 t + p` of its array. -/
theorem rd2 (c : Dev nD) (t : Fin cfg2.N) (p : Fin 5000) (q : Fin 128) :
    iblk2 V c 2 t (ix2 p q)
      = V c main_v47 (ix2 (⟨5000 * t.val + p.val, by have := p.isLt; have := lt_of_lt_of_eq t.isLt N_2; omega⟩ : Fin 50000) q) := by
  obtain ⟨e0_0, e0_1, e1_0, e1_1, e2_0, e2_1, e5_0, e5_1, e6_0, e6_1, e7_0, e7_1, e3_0, e3_1, e4_0, e4_1⟩ := idx_facts t
  show V c main_v47 (((cfg2.win 2).blk t).view.emb (ix2 p q)) = _
  refine congrArg _ (funext fun a => Fin.ext ?_)
  match a with
  | ⟨0, _⟩ => show win2_2.index t (0 : Fin 2) * 5000 + 1 * p.val = 5000 * t.val + p.val; rw [e2_0]; omega
  | ⟨1, _⟩ => show win2_2.index t (1 : Fin 2) * 128 + 1 * q.val = q.val; rw [e2_1]; omega

/-- Window 3's block at every point is its whole array. -/
theorem rd3 (c : Dev nD) (t : Fin cfg2.N) : (iblk2 V c 3 t : FVec Ideal S128x128 .f32) = V c main_arg10 := by
  obtain ⟨e0_0, e0_1, e1_0, e1_1, e2_0, e2_1, e5_0, e5_1, e6_0, e6_1, e7_0, e7_1, e3_0, e3_1, e4_0, e4_1⟩ := idx_facts t
  funext z
  show V c main_arg10 (((cfg2.win 3).blk t).view.emb z) = V c main_arg10 z
  refine congrArg _ (funext fun a => Fin.ext ?_)
  match a with
  | ⟨0, _⟩ => show win2_3.index t (0 : Fin 2) * 128 + 1 * (z 0).val = (z 0).val; rw [e3_0]; omega
  | ⟨1, _⟩ => show win2_3.index t (1 : Fin 2) * 128 + 1 * (z 1).val = (z 1).val; rw [e3_1]; omega

/-- Window 4's block at every point is its whole array. -/
theorem rd4 (c : Dev nD) (t : Fin cfg2.N) : (iblk2 V c 4 t : FVec Ideal S1x128 .f32) = V c main_v17 := by
  obtain ⟨e0_0, e0_1, e1_0, e1_1, e2_0, e2_1, e5_0, e5_1, e6_0, e6_1, e7_0, e7_1, e3_0, e3_1, e4_0, e4_1⟩ := idx_facts t
  funext z
  show V c main_v17 (((cfg2.win 4).blk t).view.emb z) = V c main_v17 z
  refine congrArg _ (funext fun a => Fin.ext ?_)
  match a with
  | ⟨0, _⟩ => show win2_4.index t (0 : Fin 2) * 1 + 1 * (z 0).val = (z 0).val; rw [e4_0]; omega
  | ⟨1, _⟩ => show win2_4.index t (1 : Fin 2) * 128 + 1 * (z 1).val = (z 1).val; rw [e4_1]; omega

/-! ### One entry of each result -/

/-- The body's node feature at local row `p` of block `t` is the function at row `5000 t + p` of the arrays. -/
theorem pay1_eq (x0 x1 x2 : FVec Ideal S5000x128 .f32) (x3 : FVec Ideal S128x128 .f32) (x4 : FVec Ideal S1x128 .f32)
    (H AGG WS : FVec Ideal S50000x128 .f32) (Uw : FVec Ideal S128x128 .f32) (Ub : FVec Ideal S1x128 .f32)
    (t : ℕ) (ht : t < 10)
    (h0 : ∀ (p : Fin 5000) (q : Fin 128), x0 (ix2 p q) = H (ix2 (⟨5000 * t + p.val, by have := p.isLt; omega⟩ : Fin 50000) q))
    (h1 : ∀ (p : Fin 5000) (q : Fin 128), x1 (ix2 p q) = AGG (ix2 (⟨5000 * t + p.val, by have := p.isLt; omega⟩ : Fin 50000) q))
    (h2 : ∀ (p : Fin 5000) (q : Fin 128), x2 (ix2 p q) = WS (ix2 (⟨5000 * t + p.val, by have := p.isLt; omega⟩ : Fin 50000) q))
    (h3 : x3 = Uw) (h4 : x4 = Ub) (p : Fin 5000) (q : Fin 128) :
    k2_pay1 (F := Ideal) x0 x3 x4 x1 x2 (ix2 p q) = P2 H AGG WS Uw Ub (⟨5000 * t + p.val, by have := p.isLt; omega⟩ : Fin 50000) q := by
  subst h3 h4
  rw [Pay2.k2_pay1_apply, h1 p q, h2 p q]
  show _ = lin (fun (i : Fin 50000) (k : Fin 128) => H (ix2 i k)) (fun (i : Fin 128) (k : Fin 128) => x3 (ix2 i k)) (fun q : Fin 128 => x4 (ix2 (0 : Fin 1) q)) (⟨5000 * t + p.val, by have := p.isLt; omega⟩ : Fin 50000) q
    + Ideal.div (AGG (ix2 (⟨5000 * t + p.val, by have := p.isLt; omega⟩ : Fin 50000) q)) (WS (ix2 (⟨5000 * t + p.val, by have := p.isLt; omega⟩ : Fin 50000) q))
  refine congrArg (· + _) ?_
  exact lin_congr _ _ _ _ p (⟨5000 * t + p.val, by have := p.isLt; omega⟩ : Fin 50000) q (fun k' => h0 p k')

/-- One entry of the first result. -/
theorem point5 (x0 x1 x2 : FVec Ideal S5000x128 .f32) (x3 : FVec Ideal S128x128 .f32) (x4 : FVec Ideal S1x128 .f32)
    (H AGG WS : FVec Ideal S50000x128 .f32) (Uw : FVec Ideal S128x128 .f32) (Ub : FVec Ideal S1x128 .f32)
    (t : ℕ) (ht : t < 10)
    (h0 : ∀ (p : Fin 5000) (q : Fin 128), x0 (ix2 p q) = H (ix2 (⟨5000 * t + p.val, by have := p.isLt; omega⟩ : Fin 50000) q))
    (h1 : ∀ (p : Fin 5000) (q : Fin 128), x1 (ix2 p q) = AGG (ix2 (⟨5000 * t + p.val, by have := p.isLt; omega⟩ : Fin 50000) q))
    (h2 : ∀ (p : Fin 5000) (q : Fin 128), x2 (ix2 p q) = WS (ix2 (⟨5000 * t + p.val, by have := p.isLt; omega⟩ : Fin 50000) q))
    (h3 : x3 = Uw) (h4 : x4 = Ub) (y : S5000x128.Idx) (k : S50000x128.Idx)
    (hk0 : (k 0).val = 5000 * t + (y 0).val) (hk1 : (k 1).val = (y 1).val) :
    k2_pay1 (F := Ideal) x0 x3 x4 x1 x2 y = G5 H AGG WS Uw Ub k := by
  obtain ⟨p, q, rfl⟩ : ∃ (p : Fin 5000) (q : Fin 128), y = ix2 p q := ⟨y 0, y 1, eq_ix2 y⟩
  have hkeq : k = ix2 (⟨5000 * t + p.val, by have := p.isLt; omega⟩ : Fin 50000) q := funext fun a => Fin.ext (by
    match a with
    | ⟨0, _⟩ => exact hk0
    | ⟨1, _⟩ => exact hk1)
  rw [hkeq]
  exact pay1_eq x0 x1 x2 x3 x4 H AGG WS Uw Ub t ht h0 h1 h2 h3 h4 p q

/-- One entry of the second result: local row `y 0` of tile `t` is array row `8 t + y 0`. -/
theorem point6 (x0 x1 x2 : FVec Ideal S5000x128 .f32) (x3 : FVec Ideal S128x128 .f32) (x4 : FVec Ideal S1x128 .f32)
    (H AGG WS : FVec Ideal S50000x128 .f32) (Uw : FVec Ideal S128x128 .f32) (Ub : FVec Ideal S1x128 .f32)
    (t : ℕ) (ht : t < 10)
    (h0 : ∀ (p : Fin 5000) (q : Fin 128), x0 (ix2 p q) = H (ix2 (⟨5000 * t + p.val, by have := p.isLt; omega⟩ : Fin 50000) q))
    (h1 : ∀ (p : Fin 5000) (q : Fin 128), x1 (ix2 p q) = AGG (ix2 (⟨5000 * t + p.val, by have := p.isLt; omega⟩ : Fin 50000) q))
    (h2 : ∀ (p : Fin 5000) (q : Fin 128), x2 (ix2 p q) = WS (ix2 (⟨5000 * t + p.val, by have := p.isLt; omega⟩ : Fin 50000) q))
    (h3 : x3 = Uw) (h4 : x4 = Ub) (y : S8x128.Idx) (k : S80x128.Idx)
    (hk0 : (k 0).val = t * 8 + (y 0).val) (hk1 : (k 1).val = (y 1).val) :
    k2_pay2 (F := Ideal) x0 x3 x4 x1 x2 y = G6 H AGG WS Uw Ub k := by
  obtain ⟨r, q, rfl⟩ : ∃ (r : Fin 8) (q : Fin 128), y = ix2 r q := ⟨y 0, y 1, eq_ix2 y⟩
  have hk0' : (k 0).val = t * 8 + r.val := hk0
  have hr : (k 0).val % 8 = r.val := by have := r.isLt; omega
  have hd : (k 0).val / 8 = t := by have := r.isLt; omega
  have hq : (⟨(k 1).val, idx2_lt1 k⟩ : Fin 128) = q := Fin.ext hk1
  rw [Pay2.k2_sum_apply]
  unfold G6
  rw [hr, hd, hq]
  refine if_congr Iff.rfl ?_ rfl
  rw [← Fin.sum_univ_eq_sum_range (fun p => rowN (P2 H AGG WS Uw Ub) (5000 * t + p) q) 5000]
  refine Finset.sum_congr rfl fun p _ => ?_
  rw [rowN_of_lt _ _ (by have := p.isLt; omega)]
  exact pay1_eq x0 x1 x2 x3 x4 H AGG WS Uw Ub t ht h0 h1 h2 h3 h4 p q

/-- One entry of the third result, likewise with the squares. -/
theorem point7 (x0 x1 x2 : FVec Ideal S5000x128 .f32) (x3 : FVec Ideal S128x128 .f32) (x4 : FVec Ideal S1x128 .f32)
    (H AGG WS : FVec Ideal S50000x128 .f32) (Uw : FVec Ideal S128x128 .f32) (Ub : FVec Ideal S1x128 .f32)
    (t : ℕ) (ht : t < 10)
    (h0 : ∀ (p : Fin 5000) (q : Fin 128), x0 (ix2 p q) = H (ix2 (⟨5000 * t + p.val, by have := p.isLt; omega⟩ : Fin 50000) q))
    (h1 : ∀ (p : Fin 5000) (q : Fin 128), x1 (ix2 p q) = AGG (ix2 (⟨5000 * t + p.val, by have := p.isLt; omega⟩ : Fin 50000) q))
    (h2 : ∀ (p : Fin 5000) (q : Fin 128), x2 (ix2 p q) = WS (ix2 (⟨5000 * t + p.val, by have := p.isLt; omega⟩ : Fin 50000) q))
    (h3 : x3 = Uw) (h4 : x4 = Ub) (y : S8x128.Idx) (k : S80x128.Idx)
    (hk0 : (k 0).val = t * 8 + (y 0).val) (hk1 : (k 1).val = (y 1).val) :
    k2_pay3 (F := Ideal) x0 x3 x4 x1 x2 y = G7 H AGG WS Uw Ub k := by
  obtain ⟨r, q, rfl⟩ : ∃ (r : Fin 8) (q : Fin 128), y = ix2 r q := ⟨y 0, y 1, eq_ix2 y⟩
  have hk0' : (k 0).val = t * 8 + r.val := hk0
  have hr : (k 0).val % 8 = r.val := by have := r.isLt; omega
  have hd : (k 0).val / 8 = t := by have := r.isLt; omega
  have hq : (⟨(k 1).val, idx2_lt1 k⟩ : Fin 128) = q := Fin.ext hk1
  rw [Pay2.k2_sumsq_apply]
  unfold G7
  rw [hr, hd, hq]
  refine if_congr Iff.rfl ?_ rfl
  rw [← Fin.sum_univ_eq_sum_range
    (fun p => rowN (fun n q => P2 H AGG WS Uw Ub n q * P2 H AGG WS Uw Ub n q) (5000 * t + p) q) 5000]
  refine Finset.sum_congr rfl fun p _ => ?_
  rw [rowN_of_lt _ _ (by have := p.isLt; omega)]
  show _ = P2 H AGG WS Uw Ub (⟨5000 * t + p.val, by have := p.isLt; omega⟩ : Fin 50000) q * P2 H AGG WS Uw Ub (⟨5000 * t + p.val, by have := p.isLt; omega⟩ : Fin 50000) q
  rw [pay1_eq x0 x1 x2 x3 x4 H AGG WS Uw Ub t ht h0 h1 h2 h3 h4 p q]

/-! ### From the blocks to the arrays -/

/-- What point `t` writes back to window 5 is block `t` of the function. -/
theorem flushed_eq5 (c : Dev nD) (t : Fin cfg2.N) :
    (dat2 V c).flushed 5 t = ((cfg2.win 5).blk t).view.read (Elt Ideal)
      (G5 (V c main_arg0) (V c main_v50) (V c main_v47) (V c main_arg10) (V c main_v17)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e0_0, e0_1, e1_0, e1_1, e2_0, e2_1, e5_0, e5_1, e6_0, e6_1, e7_0, e7_1, e3_0, e3_1, e4_0, e4_1⟩ := idx_facts t
  have ht : t.val < 10 := lt_of_lt_of_eq t.isLt N_2
  funext y
  have hk0 : ((((cfg2.win 5).blk t).view.emb y) 0).val = 5000 * t.val + (y 0).val := by
    show win2_5.index t (0 : Fin 2) * 5000 + 1 * (y 0).val = _
    rw [e5_0]; omega
  have hk1 : ((((cfg2.win 5).blk t).view.emb y) 1).val = (y 1).val := by
    show win2_5.index t (1 : Fin 2) * 128 + 1 * (y 1).val = _
    rw [e5_1]; omega
  exact point5 _ _ _ _ _ _ _ _ _ _ t.val ht (rd0 V c t) (rd1 V c t) (rd2 V c t) (rd3 V c t) (rd4 V c t) y
    (((cfg2.win 5).blk t).view.emb y) hk0 hk1

/-- What point `t` writes back to window 6 is block `t` of the function. -/
theorem flushed_eq6 (c : Dev nD) (t : Fin cfg2.N) :
    (dat2 V c).flushed 6 t = ((cfg2.win 6).blk t).view.read (Elt Ideal)
      (G6 (V c main_arg0) (V c main_v50) (V c main_v47) (V c main_arg10) (V c main_v17)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  obtain ⟨e0_0, e0_1, e1_0, e1_1, e2_0, e2_1, e5_0, e5_1, e6_0, e6_1, e7_0, e7_1, e3_0, e3_1, e4_0, e4_1⟩ := idx_facts t
  have ht : t.val < 10 := lt_of_lt_of_eq t.isLt N_2
  funext y
  have hk0 : ((((cfg2.win 6).blk t).view.emb y) 0).val = t.val * 8 + (y 0).val := by
    show win2_6.index t (0 : Fin 2) * 8 + 1 * (y 0).val = _
    rw [e6_0]; omega
  have hk1 : ((((cfg2.win 6).blk t).view.emb y) 1).val = (y 1).val := by
    show win2_6.index t (1 : Fin 2) * 128 + 1 * (y 1).val = _
    rw [e6_1]; omega
  exact point6 _ _ _ _ _ _ _ _ _ _ t.val ht (rd0 V c t) (rd1 V c t) (rd2 V c t) (rd3 V c t) (rd4 V c t) y
    (((cfg2.win 6).blk t).view.emb y) hk0 hk1

/-- What point `t` writes back to window 7 is block `t` of the function. -/
theorem flushed_eq7 (c : Dev nD) (t : Fin cfg2.N) :
    (dat2 V c).flushed 7 t = ((cfg2.win 7).blk t).view.read (Elt Ideal)
      (G7 (V c main_arg0) (V c main_v50) (V c main_v47) (V c main_arg10) (V c main_v17)) := by
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz]
  obtain ⟨e0_0, e0_1, e1_0, e1_1, e2_0, e2_1, e5_0, e5_1, e6_0, e6_1, e7_0, e7_1, e3_0, e3_1, e4_0, e4_1⟩ := idx_facts t
  have ht : t.val < 10 := lt_of_lt_of_eq t.isLt N_2
  funext y
  have hk0 : ((((cfg2.win 7).blk t).view.emb y) 0).val = t.val * 8 + (y 0).val := by
    show win2_7.index t (0 : Fin 2) * 8 + 1 * (y 0).val = _
    rw [e7_0]; omega
  have hk1 : ((((cfg2.win 7).blk t).view.emb y) 1).val = (y 1).val := by
    show win2_7.index t (1 : Fin 2) * 128 + 1 * (y 1).val = _
    rw [e7_1]; omega
  exact point7 _ _ _ _ _ _ _ _ _ _ t.val ht (rd0 V c t) (rd1 V c t) (rd2 V c t) (rd3 V c t) (rd4 V c t) y
    (((cfg2.win 7).blk t).view.emb y) hk0 hk1

/-- An index is in point `t`'s block of window 5 iff each coordinate is in the block's range. -/
theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v51_0).slice (win2_5.rect t)).set ↔ _
  rw [View.set_slice_whole, Rect.mem_set_unit]
  exact Iff.rfl

/-- An index is in point `t`'s block of window 6 iff each coordinate is in the block's range. -/
theorem mem_blk6 (t : Fin cfg2.N) (i : S80x128.Idx) :
    i ∈ ((cfg2.win 6).blk t).view.set ↔ ∀ a : Fin 2, win2_6.index t a * S8x128.size a ≤ (i a).val ∧ (i a).val < win2_6.index t a * S8x128.size a + S8x128.size a := by
  show i ∈ ((View.whole main_v51_1).slice (win2_6.rect t)).set ↔ _
  rw [View.set_slice_whole, Rect.mem_set_unit]
  exact Iff.rfl

/-- An index is in point `t`'s block of window 7 iff each coordinate is in the block's range. -/
theorem mem_blk7 (t : Fin cfg2.N) (i : S80x128.Idx) :
    i ∈ ((cfg2.win 7).blk t).view.set ↔ ∀ a : Fin 2, win2_7.index t a * S8x128.size a ≤ (i a).val ∧ (i a).val < win2_7.index t a * S8x128.size a + S8x128.size a := by
  show i ∈ ((View.whole main_v51_2).slice (win2_7.rect t)).set ↔ _
  rw [View.set_slice_whole, Rect.mem_set_unit]
  exact Iff.rfl

/-- The array of window 5 after the region: row `r` is covered by point `r / 5000`. -/
theorem final5 (c : Dev nD) : (dat2 V c).arrAt 5 cfg2.N
    = G5 (V c main_arg0) (V c main_v50) (V c main_v47) (V c main_arg10) (V c main_v17) :=
  (dat2 V c).arrAt_eq_of_cover 5 _ (fun t _ => flushed_eq5 V c t) fun i => by
    have hi0 : (i 0).val < 50000 := (i 0).isLt
    have hi1 : (i 1).val < 128 := (i 1).isLt
    have hN : cfg2.N = 10 := N_2
    refine ⟨⟨(i 0).val / 5000, by rw [hN]; omega⟩, flush2_5 _, ?_⟩
    rw [mem_blk5]
    obtain ⟨e0_0, e0_1, e1_0, e1_1, e2_0, e2_1, e5_0, e5_1, e6_0, e6_1, e7_0, e7_1, e3_0, e3_1, e4_0, e4_1⟩ := idx_facts ⟨(i 0).val / 5000, by rw [hN]; omega⟩
    intro a
    match a with
    | ⟨0, _⟩ => show win2_5.index _ (0 : Fin 2) * 5000 ≤ (i 0).val ∧ (i 0).val < win2_5.index _ (0 : Fin 2) * 5000 + 5000; rw [e5_0]; show (i 0).val / 5000 * 5000 ≤ _ ∧ _ < (i 0).val / 5000 * 5000 + 5000; omega
    | ⟨1, _⟩ => show win2_5.index _ (1 : Fin 2) * 128 ≤ (i 1).val ∧ (i 1).val < win2_5.index _ (1 : Fin 2) * 128 + 128; rw [e5_1]; omega

/-- The array of window 6 after the region: row `r` is covered by point `r / 8`. -/
theorem final6 (c : Dev nD) : (dat2 V c).arrAt 6 cfg2.N
    = G6 (V c main_arg0) (V c main_v50) (V c main_v47) (V c main_arg10) (V c main_v17) :=
  (dat2 V c).arrAt_eq_of_cover 6 _ (fun t _ => flushed_eq6 V c t) fun i => by
    have hi0 : (i 0).val < 80 := (i 0).isLt
    have hi1 : (i 1).val < 128 := (i 1).isLt
    have hN : cfg2.N = 10 := N_2
    refine ⟨⟨(i 0).val / 8, by rw [hN]; omega⟩, flush2_6 _, ?_⟩
    rw [mem_blk6]
    obtain ⟨e0_0, e0_1, e1_0, e1_1, e2_0, e2_1, e5_0, e5_1, e6_0, e6_1, e7_0, e7_1, e3_0, e3_1, e4_0, e4_1⟩ := idx_facts ⟨(i 0).val / 8, by rw [hN]; omega⟩
    intro a
    match a with
    | ⟨0, _⟩ => show win2_6.index _ (0 : Fin 2) * 8 ≤ (i 0).val ∧ (i 0).val < win2_6.index _ (0 : Fin 2) * 8 + 8; rw [e6_0]; show (i 0).val / 8 * 8 ≤ _ ∧ _ < (i 0).val / 8 * 8 + 8; omega
    | ⟨1, _⟩ => show win2_6.index _ (1 : Fin 2) * 128 ≤ (i 1).val ∧ (i 1).val < win2_6.index _ (1 : Fin 2) * 128 + 128; rw [e6_1]; omega

/-- The array of window 7 after the region: row `r` is covered by point `r / 8`. -/
theorem final7 (c : Dev nD) : (dat2 V c).arrAt 7 cfg2.N
    = G7 (V c main_arg0) (V c main_v50) (V c main_v47) (V c main_arg10) (V c main_v17) :=
  (dat2 V c).arrAt_eq_of_cover 7 _ (fun t _ => flushed_eq7 V c t) fun i => by
    have hi0 : (i 0).val < 80 := (i 0).isLt
    have hi1 : (i 1).val < 128 := (i 1).isLt
    have hN : cfg2.N = 10 := N_2
    refine ⟨⟨(i 0).val / 8, by rw [hN]; omega⟩, flush2_7 _, ?_⟩
    rw [mem_blk7]
    obtain ⟨e0_0, e0_1, e1_0, e1_1, e2_0, e2_1, e5_0, e5_1, e6_0, e6_1, e7_0, e7_1, e3_0, e3_1, e4_0, e4_1⟩ := idx_facts ⟨(i 0).val / 8, by rw [hN]; omega⟩
    intro a
    match a with
    | ⟨0, _⟩ => show win2_7.index _ (0 : Fin 2) * 8 ≤ (i 0).val ∧ (i 0).val < win2_7.index _ (0 : Fin 2) * 8 + 8; rw [e7_0]; show (i 0).val / 8 * 8 ≤ _ ∧ _ < (i 0).val / 8 * 8 + 8; omega
    | ⟨1, _⟩ => show win2_7.index _ (1 : Fin 2) * 128 ≤ (i 1).val ∧ (i 1).val < win2_7.index _ (1 : Fin 2) * 128 + 128; rw [e7_1]; omega

end Cert.KernelIdeal.K2
end
-- ==== Proof.K3.lean ====
/-
  The fourth region (the node normalisation), read as one function of the arrays it is entered with: entry (n, q) of its
  result is the node feature h[n, q] plus the positive part of the normalised pre-activation,
  (x[n, q] − μ[q]) · (v[q] + ε)^(−1/2) · s[q] + o[q].  Each grid point handles 5000 consecutive rows; the four row vectors
  are whole at every point; the ten blocks tile the 50000 rows, so the array after the region is that function everywhere.
-/
import proofs.«145784_j42537356100034_2_alg».proof.Proof.Gen.KernelIdeal.Frame
import proofs.«145784_j42537356100034_2_alg».proof.Proof.Spec
import proofs.«145784_j42537356100034_2_alg».proof.Proof.Consts
import Idealize.ShloMosaic.Lib.Pipeline.Value
import Idealize.ShloMosaic.Lib.ValueIdx
import Idealize.ShloMosaic.Lib.ValueLayout

noncomputable section
namespace Cert.KernelIdeal.K3
open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (V : (c : Dev nD) → (b : Ref sig .tc) → Buf (Elt Ideal) ((c : Thread nD τ).loc b))

/-- The zero offsets, however spelt. -/
theorem hz : (![0, 0] : Fin 2 → Nat) = fun _ => 0 := funext fun a => by fin_cases a <;> rfl

/-- The body's arithmetic at row `p`, column `q` of a block. -/
theorem pay_apply (v0 v23 : FVec Ideal S5000x128 .f32) (v2 v7 v13 v17 : FVec Ideal S1x128 .f32) (p : Fin 5000) (q : Fin 128) :
    k3_pay1 (F := Ideal) v0 v2 v7 v13 v17 v23 (ix2 p q)
      = v23 (ix2 p q) + bnRelu (Ideal.ofBits .f32 0x3727C5AC#32) (fun q => v7 (ix2 (0 : Fin 1) q)) (fun q => v2 (ix2 (0 : Fin 1) q))
          (fun q => v13 (ix2 (0 : Fin 1) q)) (fun q => v17 (ix2 (0 : Fin 1) q)) (v0 (ix2 p q)) q := by
  unfold k3_pay1 bnRelu bn
  simp only [addf_apply, maximumf_apply, mulf_apply, subf_apply, broadcast_apply, shapeCast_self, broadcastTo_1b_ab_apply]
  rw [show (FloatOps.ofBits (F := Ideal) .f32 0#32) = 0 from Consts.ofBits_zero]
  rfl

/-- The region's result as a function of the whole arrays: pre-activation `X`, node features `H`, and the mean, variance,
    scale and offset rows. -/
def G (X H : FVec Ideal S50000x128 .f32) (μ v s o : FVec Ideal S1x128 .f32) : FVec Ideal S50000x128 .f32 :=
  fun i => H i + bnRelu (Ideal.ofBits .f32 0x3727C5AC#32) (fun q => μ (ix2 (0 : Fin 1) q)) (fun q => v (ix2 (0 : Fin 1) q))
    (fun q => s (ix2 (0 : Fin 1) q)) (fun q => o (ix2 (0 : Fin 1) q)) (X i) ⟨(i 1).val, idx2_lt1 i⟩

/-- The printed index maps over the ten grid points: the two tiled inputs move with the output (block `t` of the rows,
    the one block of columns), the four row vectors stay at their only block. -/
theorem idx_facts : ∀ t : Fin cfg3.N, win3_0.index t (0 : Fin 2) = win3_6.index t (0 : Fin 2)
    ∧ win3_0.index t (1 : Fin 2) = win3_6.index t (1 : Fin 2)
    ∧ win3_1.index t (0 : Fin 2) = win3_6.index t (0 : Fin 2)
    ∧ win3_1.index t (1 : Fin 2) = win3_6.index t (1 : Fin 2)
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- One entry: the body's result at `y` of a block is the function at the array index `k` the block puts `y` at. -/
theorem point (x0 x1 : FVec Ideal S5000x128 .f32) (x2 x3 x4 x5 : FVec Ideal S1x128 .f32)
    (X H : FVec Ideal S50000x128 .f32) (μ v s o : FVec Ideal S1x128 .f32) (y : S5000x128.Idx) (k : S50000x128.Idx)
    (h0 : x0 y = X k) (h1 : x1 y = H k) (h2 : x2 = μ) (h3 : x3 = v) (h4 : x4 = s) (h5 : x5 = o) (hk : (k 1).val = (y 1).val) :
    k3_pay1 (F := Ideal) x0 x3 x2 x4 x5 x1 y = G X H μ v s o k := by
  obtain ⟨p, q, rfl⟩ : ∃ (p : Fin 5000) (q : Fin 128), y = ix2 p q := ⟨y 0, y 1, eq_ix2 y⟩
  subst h2 h3 h4 h5
  rw [pay_apply]
  unfold G
  rw [← h0, ← h1]
  have hq : (⟨(k 1).val, idx2_lt1 k⟩ : Fin 128) = q := Fin.ext hk
  rw [hq]

/-- What point `t` writes back is block `t` of the function. -/
theorem flushed_eq (c : Dev nD) (t : Fin cfg3.N) :
    (dat3 V c).flushed 6 t = ((cfg3.win 6).blk t).view.read (Elt Ideal)
      (G (V c main_v51_0) (V c main_arg0) (V c main_v62) (V c main_v63) (V c main_v21) (V c main_v22)) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz]
  obtain ⟨e00, e01, e10, e11, e20, e21, e30, e31, e40, e41, e50, e51, e60, e61⟩ := idx_facts t
  funext y
  refine point _ _ _ _ _ _ _ _ _ _ _ _ y (((cfg3.win 6).blk t).view.emb y) ?_ ?_ ?_ ?_ ?_ ?_ ?_
  · show V c main_v51_0 (((cfg3.win 0).blk t).view.emb y) = V c main_v51_0 (((cfg3.win 6).blk t).view.emb y)
    refine congrArg _ (funext fun a => Fin.ext ?_)
    match a with
    | ⟨0, _⟩ => show win3_0.index t (0 : Fin 2) * 5000 + 1 * (y 0).val = win3_6.index t (0 : Fin 2) * 5000 + 1 * (y 0).val; rw [e00]
    | ⟨1, _⟩ => show win3_0.index t (1 : Fin 2) * 128 + 1 * (y 1).val = win3_6.index t (1 : Fin 2) * 128 + 1 * (y 1).val; rw [e01]
  · show V c main_arg0 (((cfg3.win 1).blk t).view.emb y) = V c main_arg0 (((cfg3.win 6).blk t).view.emb y)
    refine congrArg _ (funext fun a => Fin.ext ?_)
    match a with
    | ⟨0, _⟩ => show win3_1.index t (0 : Fin 2) * 5000 + 1 * (y 0).val = win3_6.index t (0 : Fin 2) * 5000 + 1 * (y 0).val; rw [e10]
    | ⟨1, _⟩ => show win3_1.index t (1 : Fin 2) * 128 + 1 * (y 1).val = win3_6.index t (1 : Fin 2) * 128 + 1 * (y 1).val; rw [e11]
  · funext z
    show V c main_v62 (((cfg3.win 2).blk t).view.emb z) = V c main_v62 z
    refine congrArg _ (funext fun a => Fin.ext ?_)
    match a with
    | ⟨0, _⟩ => show win3_2.index t (0 : Fin 2) * 1 + 1 * (z 0).val = (z 0).val; rw [e20]; omega
    | ⟨1, _⟩ => show win3_2.index t (1 : Fin 2) * 128 + 1 * (z 1).val = (z 1).val; rw [e21]; omega
  · funext z
    show V c main_v63 (((cfg3.win 3).blk t).view.emb z) = V c main_v63 z
    refine congrArg _ (funext fun a => Fin.ext ?_)
    match a with
    | ⟨0, _⟩ => show win3_3.index t (0 : Fin 2) * 1 + 1 * (z 0).val = (z 0).val; rw [e30]; omega
    | ⟨1, _⟩ => show win3_3.index t (1 : Fin 2) * 128 + 1 * (z 1).val = (z 1).val; rw [e31]; omega
  · funext z
    show V c main_v21 (((cfg3.win 4).blk t).view.emb z) = V c main_v21 z
    refine congrArg _ (funext fun a => Fin.ext ?_)
    match a with
    | ⟨0, _⟩ => show win3_4.index t (0 : Fin 2) * 1 + 1 * (z 0).val = (z 0).val; rw [e40]; omega
    | ⟨1, _⟩ => show win3_4.index t (1 : Fin 2) * 128 + 1 * (z 1).val = (z 1).val; rw [e41]; omega
  · funext z
    show V c main_v22 (((cfg3.win 5).blk t).view.emb z) = V c main_v22 z
    refine congrArg _ (funext fun a => Fin.ext ?_)
    match a with
    | ⟨0, _⟩ => show win3_5.index t (0 : Fin 2) * 1 + 1 * (z 0).val = (z 0).val; rw [e50]; omega
    | ⟨1, _⟩ => show win3_5.index t (1 : Fin 2) * 128 + 1 * (z 1).val = (z 1).val; rw [e51]; omega
  · show win3_6.index t (1 : Fin 2) * 128 + 1 * (y 1).val = (y 1).val
    rw [e61]; omega

/-- An index is in point `t`'s block iff each coordinate is in the block's range. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v64).slice (win3_6.rect t)).set ↔ _
  rw [View.set_slice_whole, Rect.mem_set_unit]
  exact Iff.rfl

/-- The array after the region: row `r` is covered by point `r / 5000`. -/
theorem final (c : Dev nD) : (dat3 V c).arrAt 6 cfg3.N
    = G (V c main_v51_0) (V c main_arg0) (V c main_v62) (V c main_v63) (V c main_v21) (V c main_v22) :=
  (dat3 V c).arrAt_eq_of_cover 6 _ (fun t _ => flushed_eq V c t) fun i => by
    have hi0 : (i 0).val < 50000 := (i 0).isLt
    have hi1 : (i 1).val < 128 := (i 1).isLt
    have hN : cfg3.N = 10 := N_3
    refine ⟨⟨(i 0).val / 5000, by rw [hN]; omega⟩, flush3_6 _, ?_⟩
    rw [mem_blk]
    obtain ⟨e00, e01, e10, e11, e20, e21, e30, e31, e40, e41, e50, e51, e60, e61⟩ := idx_facts ⟨(i 0).val / 5000, by rw [hN]; omega⟩
    intro a
    match a with
    | ⟨0, _⟩ => show win3_6.index _ (0 : Fin 2) * 5000 ≤ (i 0).val ∧ (i 0).val < win3_6.index _ (0 : Fin 2) * 5000 + 5000; rw [e60]; show (i 0).val / 5000 * 5000 ≤ _ ∧ _ < (i 0).val / 5000 * 5000 + 5000; omega
    | ⟨1, _⟩ => show win3_6.index _ (1 : Fin 2) * 128 ≤ (i 1).val ∧ (i 1).val < win3_6.index _ (1 : Fin 2) * 128 + 128; rw [e61]; omega

end Cert.KernelIdeal.K3
end
-- ==== Proof.KFun.lean ====
/-
  The kernel program's computation as functions of its eighteen argument arrays: the four regions' whole-array
  functions and the host stretches between them composed in program order — the gathers, the first region's
  statistics, the mean and one-pass variance, the second region's updated edge features and gated messages, the gate
  and the two segment sums, the third region's pre-activation and statistics, the fourth region's updated node features.
-/
import proofs.«145784_j42537356100034_2_alg».proof.Proof.HostK
import proofs.«145784_j42537356100034_2_alg».proof.Proof.KDefs
import proofs.«145784_j42537356100034_2_alg».proof.Proof.K1
import proofs.«145784_j42537356100034_2_alg».proof.Proof.K3

noncomputable section

namespace Cert.KernelIdeal.KFun

open Idealize.ShloMosaic Cert.KernelIdeal Cert.KernelIdeal.HostK

/-- The eighteen argument arrays: node features, edge features, sender and receiver indices, the five weight matrices
    with their biases, and the two normalisations' scales and offsets. -/
structure Args where
  h : Cf S50000x128
  e : Cf S600000x128
  snd : Ci S600000
  rcv : Ci S600000
  Aw : Cf S128x128
  Ab : Cf S128
  Bw : Cf S128x128
  Bb : Cf S128
  Cw : Cf S128x128
  Cb : Cf S128
  Uw : Cf S128x128
  Ub : Cf S128
  Vw : Cf S128x128
  Vb : Cf S128
  se : Cf S128
  oe : Cf S128
  sn : Cf S128
  on : Cf S128

variable (A : Args)

/-- The gathered sender and receiver features. -/
def HI : Cf S600000x128 := gath A.h A.snd
def HJ : Cf S600000x128 := gath A.h A.rcv
/-- The two edge statistics arrays. -/
def S0 : Cf S800x128 := K0.G9 (HI A) (HJ A) A.e A.Aw A.Bw A.Cw (row A.Ab) (row A.Bb) (row A.Cb)
def Q0 : Cf S800x128 := K0.G10 (HI A) (HJ A) A.e A.Aw A.Bw A.Cw (row A.Ab) (row A.Bb) (row A.Cb)
/-- The updated edge features. -/
def EN : Cf S600000x128 :=
  K1.G15 (HI A) (HJ A) A.e A.Aw A.Bw A.Cw (row A.Ab) (row A.Bb) (row A.Cb) (row (meanE (S0 A))) (row (varE (S0 A) (Q0 A)))
    (row A.se) (row A.oe)
/-- The gated messages. -/
def UN : Cf S600000x128 :=
  K1.G16 (HI A) (HJ A) A.e A.Aw A.Bw A.Cw A.Vw (row A.Ab) (row A.Bb) (row A.Cb) (row A.Vb) (row (meanE (S0 A)))
    (row (varE (S0 A) (Q0 A))) (row A.se) (row A.oe)
/-- The gate sums and the aggregated messages per node. -/
def WS : Cf S50000x128 := wsum A.snd (gate (EN A))
def AGG : Cf S50000x128 := seg A.snd (UN A)
/-- The node pre-activation and its two statistics arrays. -/
def X : Cf S50000x128 := K2.G5 A.h (AGG A) (WS A) A.Uw (row A.Ub)
def S2 : Cf S80x128 := K2.G6 A.h (AGG A) (WS A) A.Uw (row A.Ub)
def Q2 : Cf S80x128 := K2.G7 A.h (AGG A) (WS A) A.Uw (row A.Ub)
/-- The updated node features. -/
def HN : Cf S50000x128 :=
  K3.G (X A) A.h (row (meanN (S2 A))) (row (varN (S2 A) (Q2 A))) (row A.sn) (row A.on)

end Cert.KernelIdeal.KFun

end
-- ==== Proof.KChain.lean ====
/-
  The kernel program's two results as functions of the launch contents: the four regions' whole-array functions
  and the host stretches between them composed in program order.  Every buffer a region reads is followed back to the
  stretch or region that wrote it (nothing in between writes it).
-/
import proofs.«145784_j42537356100034_2_alg».proof.Proof.Walk
import proofs.«145784_j42537356100034_2_alg».proof.Proof.HostK
import proofs.«145784_j42537356100034_2_alg».proof.Proof.K0
import proofs.«145784_j42537356100034_2_alg».proof.Proof.K1
import proofs.«145784_j42537356100034_2_alg».proof.Proof.K2
import proofs.«145784_j42537356100034_2_alg».proof.Proof.K3
import proofs.«145784_j42537356100034_2_alg».proof.Proof.KFun

set_option maxRecDepth 16384

noncomputable section

namespace Cert.KernelIdeal.KChain

open Idealize.ShloMosaic Idealize.ShloMosaic.TcCoe Idealize.SL.Sem
open Idealize.ShloMosaic.Pipeline (Dat)
open Cert.KernelIdeal Cert.KernelIdeal.Gen Cert.KernelIdeal.Walk Cert.KernelIdeal.HostK

variable (m : (ℓ : Loc nD τ sig) → Buf (Elt Ideal) ℓ) (ρ : Dev nD → PrngReg) (c : Dev nD)

/-! ## The stages, named -/

/-- The argument arrays as launched on core `c`. -/
def args : KFun.Args where
  h := m ((c : Thread nD τ).loc main_arg0)
  e := m ((c : Thread nD τ).loc main_arg1)
  snd := m ((c : Thread nD τ).loc main_arg2)
  rcv := m ((c : Thread nD τ).loc main_arg3)
  Aw := m ((c : Thread nD τ).loc main_arg4)
  Ab := m ((c : Thread nD τ).loc main_arg5)
  Bw := m ((c : Thread nD τ).loc main_arg6)
  Bb := m ((c : Thread nD τ).loc main_arg7)
  Cw := m ((c : Thread nD τ).loc main_arg8)
  Cb := m ((c : Thread nD τ).loc main_arg9)
  Uw := m ((c : Thread nD τ).loc main_arg10)
  Ub := m ((c : Thread nD τ).loc main_arg11)
  Vw := m ((c : Thread nD τ).loc main_arg12)
  Vb := m ((c : Thread nD τ).loc main_arg13)
  se := m ((c : Thread nD τ).loc main_arg14)
  oe := m ((c : Thread nD τ).loc main_arg15)
  sn := m ((c : Thread nD τ).loc main_arg16)
  on := m ((c : Thread nD τ).loc main_arg17)

abbrev HI : Cf S600000x128 := KFun.HI (args m c)
abbrev HJ : Cf S600000x128 := KFun.HJ (args m c)
abbrev S0 : Cf S800x128 := KFun.S0 (args m c)
abbrev Q0 : Cf S800x128 := KFun.Q0 (args m c)
abbrev EN : Cf S600000x128 := KFun.EN (args m c)
abbrev UN : Cf S600000x128 := KFun.UN (args m c)
abbrev WS : Cf S50000x128 := KFun.WS (args m c)
abbrev AGG : Cf S50000x128 := KFun.AGG (args m c)
abbrev X : Cf S50000x128 := KFun.X (args m c)
abbrev S2 : Cf S80x128 := KFun.S2 (args m c)
abbrev Q2 : Cf S80x128 := KFun.Q2 (args m c)
abbrev HN : Cf S50000x128 := KFun.HN (args m c)

/-! ## The first boundary: after the first host stretch -/

theorem w1_arg (b : Ref sig .tc) (h : W1 m ρ c (Proc.devRef .tc b) = W0 m ρ c (Proc.devRef .tc b)) :
    W1 m ρ c (Proc.devRef .tc b) = m ((c : Thread nD τ).loc b) := h.trans rfl

theorem w1_arg0 : W1 m ρ c (Proc.devRef .tc main_arg0) = m ((c : Thread nD τ).loc main_arg0) := w1_arg m ρ c _ (by host_keep)
theorem w1_arg1 : W1 m ρ c (Proc.devRef .tc main_arg1) = m ((c : Thread nD τ).loc main_arg1) := w1_arg m ρ c _ (by host_keep)
theorem w1_arg2 : W1 m ρ c (Proc.devRef .tc main_arg2) = m ((c : Thread nD τ).loc main_arg2) := w1_arg m ρ c _ (by host_keep)
theorem w1_arg4 : W1 m ρ c (Proc.devRef .tc main_arg4) = m ((c : Thread nD τ).loc main_arg4) := w1_arg m ρ c _ (by host_keep)
theorem w1_arg6 : W1 m ρ c (Proc.devRef .tc main_arg6) = m ((c : Thread nD τ).loc main_arg6) := w1_arg m ρ c _ (by host_keep)
theorem w1_arg8 : W1 m ρ c (Proc.devRef .tc main_arg8) = m ((c : Thread nD τ).loc main_arg8) := w1_arg m ρ c _ (by host_keep)
theorem w1_arg10 : W1 m ρ c (Proc.devRef .tc main_arg10) = m ((c : Thread nD τ).loc main_arg10) := w1_arg m ρ c _ (by host_keep)
theorem w1_arg12 : W1 m ρ c (Proc.devRef .tc main_arg12) = m ((c : Thread nD τ).loc main_arg12) := w1_arg m ρ c _ (by host_keep)
theorem w1_v6 : W1 m ρ c (Proc.devRef .tc main_v6) = HI m c := v6_eq _
theorem w1_v13 : W1 m ρ c (Proc.devRef .tc main_v13) = HJ m c := v13_eq _
theorem w1_v14 : W1 m ρ c (Proc.devRef .tc main_v14) = row (m ((c : Thread nD τ).loc main_arg5)) := v14_eq _
theorem w1_v15 : W1 m ρ c (Proc.devRef .tc main_v15) = row (m ((c : Thread nD τ).loc main_arg7)) := v15_eq _
theorem w1_v16 : W1 m ρ c (Proc.devRef .tc main_v16) = row (m ((c : Thread nD τ).loc main_arg9)) := v16_eq _
theorem w1_v17 : W1 m ρ c (Proc.devRef .tc main_v17) = row (m ((c : Thread nD τ).loc main_arg11)) := v17_eq _
theorem w1_v18 : W1 m ρ c (Proc.devRef .tc main_v18) = row (m ((c : Thread nD τ).loc main_arg13)) := v18_eq _
theorem w1_v19 : W1 m ρ c (Proc.devRef .tc main_v19) = row (m ((c : Thread nD τ).loc main_arg14)) := v19_eq _
theorem w1_v20 : W1 m ρ c (Proc.devRef .tc main_v20) = row (m ((c : Thread nD τ).loc main_arg15)) := v20_eq _
theorem w1_v21 : W1 m ρ c (Proc.devRef .tc main_v21) = row (m ((c : Thread nD τ).loc main_arg16)) := v21_eq _
theorem w1_v22 : W1 m ρ c (Proc.devRef .tc main_v22) = row (m ((c : Thread nD τ).loc main_arg17)) := v22_eq _

/-! ## After the first region and the second host stretch -/

/-- A buffer written before the first region is still there when the second is entered. -/
macro "w3_keep" : tactic =>
  `(tactic| (refine Eq.trans (by host_keep) ?_
             refine Eq.trans (keep0 _ _ _ _ (by decide) (by decide)) ?_))

theorem w2_v23_0 : W2 m ρ c (Proc.devRef .tc main_v23_0) = S0 m c := by
  refine (W2_arr m ρ c 9).trans ((K0.final9 (V1 m ρ) c).trans ?_)
  dsimp only [V1]
  rw [w1_v6, w1_v13, w1_arg1, w1_arg4, w1_arg6, w1_arg8, w1_v14, w1_v15, w1_v16]
  rfl
theorem w2_v23_1 : W2 m ρ c (Proc.devRef .tc main_v23_1) = Q0 m c := by
  refine (W2_arr m ρ c 10).trans ((K0.final10 (V1 m ρ) c).trans ?_)
  dsimp only [V1]
  rw [w1_v6, w1_v13, w1_arg1, w1_arg4, w1_arg6, w1_arg8, w1_v14, w1_v15, w1_v16]
  rfl

theorem w3_v6 : W3 m ρ c (Proc.devRef .tc main_v6) = HI m c := by w3_keep; exact w1_v6 m ρ c
theorem w3_v13 : W3 m ρ c (Proc.devRef .tc main_v13) = HJ m c := by w3_keep; exact w1_v13 m ρ c
theorem w3_arg1 : W3 m ρ c (Proc.devRef .tc main_arg1) = m ((c : Thread nD τ).loc main_arg1) := by w3_keep; exact w1_arg1 m ρ c
theorem w3_arg4 : W3 m ρ c (Proc.devRef .tc main_arg4) = m ((c : Thread nD τ).loc main_arg4) := by w3_keep; exact w1_arg4 m ρ c
theorem w3_arg6 : W3 m ρ c (Proc.devRef .tc main_arg6) = m ((c : Thread nD τ).loc main_arg6) := by w3_keep; exact w1_arg6 m ρ c
theorem w3_arg8 : W3 m ρ c (Proc.devRef .tc main_arg8) = m ((c : Thread nD τ).loc main_arg8) := by w3_keep; exact w1_arg8 m ρ c
theorem w3_arg12 : W3 m ρ c (Proc.devRef .tc main_arg12) = m ((c : Thread nD τ).loc main_arg12) := by w3_keep; exact w1_arg12 m ρ c
theorem w3_v14 : W3 m ρ c (Proc.devRef .tc main_v14) = row (m ((c : Thread nD τ).loc main_arg5)) := by w3_keep; exact w1_v14 m ρ c
theorem w3_v15 : W3 m ρ c (Proc.devRef .tc main_v15) = row (m ((c : Thread nD τ).loc main_arg7)) := by w3_keep; exact w1_v15 m ρ c
theorem w3_v16 : W3 m ρ c (Proc.devRef .tc main_v16) = row (m ((c : Thread nD τ).loc main_arg9)) := by w3_keep; exact w1_v16 m ρ c
theorem w3_v18 : W3 m ρ c (Proc.devRef .tc main_v18) = row (m ((c : Thread nD τ).loc main_arg13)) := by w3_keep; exact w1_v18 m ρ c
theorem w3_v19 : W3 m ρ c (Proc.devRef .tc main_v19) = row (m ((c : Thread nD τ).loc main_arg14)) := by w3_keep; exact w1_v19 m ρ c
theorem w3_v20 : W3 m ρ c (Proc.devRef .tc main_v20) = row (m ((c : Thread nD τ).loc main_arg15)) := by w3_keep; exact w1_v20 m ρ c
theorem w3_v34 : W3 m ρ c (Proc.devRef .tc main_v34) = row (meanE (S0 m c)) := by
  refine (v34_eq _).trans ?_; rw [w2_v23_0]
theorem w3_v35 : W3 m ρ c (Proc.devRef .tc main_v35) = row (varE (S0 m c) (Q0 m c)) := by
  refine (v35_eq _).trans ?_; rw [w2_v23_0, w2_v23_1]

/-! ## After the second region -/

theorem w4_v36_0 : W4 m ρ c (Proc.devRef .tc main_v36_0) = EN m c := by
  refine (W4_arr m ρ c 15).trans ((K1.final15 (V3 m ρ) c).trans ?_)
  dsimp only [V3]
  rw [w3_v6, w3_v13, w3_arg1, w3_arg4, w3_arg6, w3_arg8, w3_v14, w3_v15, w3_v16, w3_v34, w3_v35, w3_v19, w3_v20]
  rfl
theorem w4_v36_1 : W4 m ρ c (Proc.devRef .tc main_v36_1) = UN m c := by
  refine (W4_arr m ρ c 16).trans ((K1.final16 (V3 m ρ) c).trans ?_)
  dsimp only [V3]
  rw [w3_v6, w3_v13, w3_arg1, w3_arg4, w3_arg6, w3_arg8, w3_arg12, w3_v14, w3_v15, w3_v16, w3_v18, w3_v34, w3_v35, w3_v19, w3_v20]
  rfl

/-- A buffer written before the first region is still there when the third is entered. -/
macro "w5_keep" : tactic =>
  `(tactic| (refine Eq.trans (by host_keep) ?_
             refine Eq.trans (keep1 _ _ _ _ (by decide) (by decide)) ?_
             refine Eq.trans (by host_keep) ?_
             refine Eq.trans (keep0 _ _ _ _ (by decide) (by decide)) ?_))

theorem w4_arg2 : W4 m ρ c (Proc.devRef .tc main_arg2) = m ((c : Thread nD τ).loc main_arg2) := by
  refine Eq.trans (keep1 _ _ _ _ (by decide) (by decide)) ?_
  refine Eq.trans (by host_keep) ?_
  refine Eq.trans (keep0 _ _ _ _ (by decide) (by decide)) ?_
  exact w1_arg2 m ρ c
theorem w5_arg0 : W5 m ρ c (Proc.devRef .tc main_arg0) = m ((c : Thread nD τ).loc main_arg0) := by w5_keep; exact w1_arg0 m ρ c
theorem w5_arg10 : W5 m ρ c (Proc.devRef .tc main_arg10) = m ((c : Thread nD τ).loc main_arg10) := by w5_keep; exact w1_arg10 m ρ c
theorem w5_v17 : W5 m ρ c (Proc.devRef .tc main_v17) = row (m ((c : Thread nD τ).loc main_arg11)) := by w5_keep; exact w1_v17 m ρ c
theorem w5_v47 : W5 m ρ c (Proc.devRef .tc main_v47) = WS m c := by
  refine (v47_eq _).trans ?_; rw [w4_arg2, w4_v36_0]; rfl
theorem w5_v50 : W5 m ρ c (Proc.devRef .tc main_v50) = AGG m c := by
  refine (v50_eq _).trans ?_; rw [w4_arg2, w4_v36_1]; rfl

/-! ## After the third region -/

theorem w6_v51_0 : W6 m ρ c (Proc.devRef .tc main_v51_0) = X m c := by
  refine (W6_arr m ρ c 5).trans ((K2.final5 (V5 m ρ) c).trans ?_)
  dsimp only [V5]
  rw [w5_arg0, w5_v50, w5_v47, w5_arg10, w5_v17]
  rfl
theorem w6_v51_1 : W6 m ρ c (Proc.devRef .tc main_v51_1) = S2 m c := by
  refine (W6_arr m ρ c 6).trans ((K2.final6 (V5 m ρ) c).trans ?_)
  dsimp only [V5]
  rw [w5_arg0, w5_v50, w5_v47, w5_arg10, w5_v17]
  rfl
theorem w6_v51_2 : W6 m ρ c (Proc.devRef .tc main_v51_2) = Q2 m c := by
  refine (W6_arr m ρ c 7).trans ((K2.final7 (V5 m ρ) c).trans ?_)
  dsimp only [V5]
  rw [w5_arg0, w5_v50, w5_v47, w5_arg10, w5_v17]
  rfl

/-- A buffer written before the first region is still there when the fourth is entered. -/
macro "w7_keep" : tactic =>
  `(tactic| (refine Eq.trans (by host_keep) ?_
             refine Eq.trans (keep2 _ _ _ _ (by decide) (by decide) (by decide)) ?_
             refine Eq.trans (by host_keep) ?_
             refine Eq.trans (keep1 _ _ _ _ (by decide) (by decide)) ?_
             refine Eq.trans (by host_keep) ?_
             refine Eq.trans (keep0 _ _ _ _ (by decide) (by decide)) ?_))

theorem w7_arg0 : W7 m ρ c (Proc.devRef .tc main_arg0) = m ((c : Thread nD τ).loc main_arg0) := by w7_keep; exact w1_arg0 m ρ c
theorem w7_v21 : W7 m ρ c (Proc.devRef .tc main_v21) = row (m ((c : Thread nD τ).loc main_arg16)) := by w7_keep; exact w1_v21 m ρ c
theorem w7_v22 : W7 m ρ c (Proc.devRef .tc main_v22) = row (m ((c : Thread nD τ).loc main_arg17)) := by w7_keep; exact w1_v22 m ρ c
theorem w7_v51_0 : W7 m ρ c (Proc.devRef .tc main_v51_0) = X m c := by
  refine Eq.trans (by host_keep) ?_; exact w6_v51_0 m ρ c
theorem w7_v62 : W7 m ρ c (Proc.devRef .tc main_v62) = row (meanN (S2 m c)) := by
  refine (v62_eq _).trans ?_; rw [w6_v51_1]
theorem w7_v63 : W7 m ρ c (Proc.devRef .tc main_v63) = row (varN (S2 m c) (Q2 m c)) := by
  refine (v63_eq _).trans ?_; rw [w6_v51_1, w6_v51_2]

/-! ## The two results -/

/-- The node result buffer after the run. -/
theorem w8_v64 : W8 m ρ c (Proc.devRef .tc main_v64) = HN m c := by
  refine (W8_arr m ρ c 6).trans ((K3.final (V7 m ρ) c).trans ?_)
  dsimp only [V7]
  rw [w7_v51_0, w7_arg0, w7_v62, w7_v63, w7_v21, w7_v22]
  rfl

/-- The edge result buffer after the run: nothing after the second region writes it. -/
theorem w8_v36_0 : W8 m ρ c (Proc.devRef .tc main_v36_0) = EN m c := by
  refine Eq.trans (keep3 _ _ _ _ (by decide)) ?_
  refine Eq.trans (by host_keep) ?_
  refine Eq.trans (keep2 _ _ _ _ (by decide) (by decide) (by decide)) ?_
  refine Eq.trans (by host_keep) ?_
  exact w4_v36_0 m ρ c

end Cert.KernelIdeal.KChain

end
-- ==== Proof.Terms.lean ====
/-
  The reference's computation, named piece by piece.  Every definition below is a composition of the reference
  program's own host operations on whole arrays (nothing is read at an index here): the gathered endpoint features,
  the three affine maps summed to the edge logits, the batch statistics over the edge (or node) axis, the normalised
  and rectified update, the gate, the two segment sums, the node pre-activation and its normalisation.  The
  reference's run ends with its two results at `hOut` and `eOut` of the eighteen argument arrays.
-/
import proofs.«145784_j42537356100034_2_alg».proof.ReferenceIdeal
import Idealize.ShloMosaic.PureOps.Ideal

noncomputable section

namespace Cert.ReferenceIdeal.Terms

open Idealize.ShloMosaic Cert.ReferenceIdeal Cert.ReferenceIdeal.Facts₀

variable [Facts]

/-- A float array of shape `S` at the ideal instance. -/
abbrev Cf (S : Shape) : Type := FVec Ideal S .f32
/-- A 32-bit integer array of shape `S`. -/
abbrev Ci (S : Shape) : Type := IVec S 32

/-- A scalar float constant. -/
abbrev kst (b : BitVec 32) : Cf S_ := constant S_ .f32 b

/-- An index array made non-negative (a negative entry counts from the end) and given a unit column axis. -/
def normIdx (s : Ci S600000) : Ci S600000x1 :=
  broadcastInDim S600000x1 ![0] bcast_S600000_S600000x1_0
    (select (cmpi .slt s (broadcastInDim S600000 ![] bcast_S_S600000 (constantI S_ 32 0#32)))
      (addi s (broadcastInDim S600000 ![] bcast_S_S600000 (constantI S_ 32 50000#32))) s)

/-- The node features gathered along the edges' endpoint indices. -/
def gath (h : Cf S50000x128) (s : Ci S600000) : Cf S600000x128 :=
  Host.gather gather_S50000x128_S600000x1_S600000x128_1_0_n_n_0_1_1128 h (normIdx s)

/-- A feature vector repeated along the edge axis. -/
def rowE (b : Cf S128) : Cf S600000x128 :=
  broadcastInDim S600000x128 ![0, 1] bcast_S1x128_S600000x128_0_1 (broadcastInDim S1x128 ![1] bcast_S128_S1x128_1 b)
/-- A feature vector repeated along the node axis. -/
def rowN (b : Cf S128) : Cf S50000x128 :=
  broadcastInDim S50000x128 ![0, 1] bcast_S1x128_S50000x128_0_1 (broadcastInDim S1x128 ![1] bcast_S128_S1x128_1 b)

/-- An affine map of edge rows: `x · W + b`. -/
def linE (x : Cf S600000x128) (W : Cf S128x128) (b : Cf S128) : Cf S600000x128 :=
  addf (Host.dotGeneral dot_S600000x128_S128x128_S600000x128_1_0_0_1_n_n none x W) (rowE b)
/-- An affine map of node rows: `x · W + b`. -/
def linN (x : Cf S50000x128) (W : Cf S128x128) (b : Cf S128) : Cf S50000x128 :=
  addf (Host.dotGeneral dot_S50000x128_S128x128_S50000x128_1_0_0_1_n_n none x W) (rowN b)

/-- The edge logits `A h_i + B h_j + C e`. -/
def eta (hi hj e : Cf S600000x128) (Aw : Cf S128x128) (Ab : Cf S128) (Bw : Cf S128x128) (Bb : Cf S128)
    (Cw : Cf S128x128) (Cb : Cf S128) : Cf S600000x128 :=
  addf (addf (linE hi Aw Ab) (linE hj Bw Bb)) (linE e Cw Cb)

/-- Column sums over the edge axis. -/
def sumE (x : Cf S600000x128) : Cf S128 := Host.reduceAdd x (kst 0x00000000#32) reducesTo_S600000x128_S128_d0 h_S_
/-- Column sums over the node axis. -/
def sumN (x : Cf S50000x128) : Cf S128 := Host.reduceAdd x (kst 0x00000000#32) reducesTo_S50000x128_S128_d0 h_S_

/-- Column means over the 600000 edges. -/
def meanE (x : Cf S600000x128) : Cf S128 :=
  Host.divf (sumE x) (broadcastInDim S128 ![] bcast_S_S128 (kst 0x49127C00#32))
/-- Column means over the 50000 nodes. -/
def meanN (x : Cf S50000x128) : Cf S128 :=
  Host.divf (sumN x) (broadcastInDim S128 ![] bcast_S_S128 (kst 0x47435000#32))

/-- The deviations from the column mean, as the two-pass variance computes them (the mean as a row first). -/
def devE (x : Cf S600000x128) : Cf S600000x128 :=
  subf x (broadcastInDim S600000x128 ![0, 1] bcast_S1x128_S600000x128_0_1
    (Host.divf (broadcastInDim S1x128 ![1] bcast_S128_S1x128_1 (sumE x)) (broadcastInDim S1x128 ![] bcast_S_S1x128 (kst 0x49127C00#32))))
def devN (x : Cf S50000x128) : Cf S50000x128 :=
  subf x (broadcastInDim S50000x128 ![0, 1] bcast_S1x128_S50000x128_0_1
    (Host.divf (broadcastInDim S1x128 ![1] bcast_S128_S1x128_1 (sumN x)) (broadcastInDim S1x128 ![] bcast_S_S1x128 (kst 0x47435000#32))))

/-- The count the variance divides by: the number of rows less the (zero) degrees-of-freedom correction. -/
def cntE : Cf S_ := subf (kst 0x49127C00#32) (sitofp .f32 (constantI S_ 32 0#32 : Ci S_))
def cntN : Cf S_ := subf (kst 0x47435000#32) (sitofp .f32 (constantI S_ 32 0#32 : Ci S_))

/-- The two-pass column variance over the edges, guarded by the count being positive. -/
def varE (x : Cf S600000x128) : Cf S128 :=
  select (broadcastInDim S128 ![] bcast_S_S128 (cmpf .ogt cntE (kst 0x00000000#32)))
    (Host.divf (sumE (mulf (devE x) (devE x))) (broadcastInDim S128 ![] bcast_S_S128 cntE))
    (broadcastInDim S128 ![] bcast_S_S128 (id (kst 0x7FC00000#32)))
/-- The two-pass column variance over the nodes. -/
def varN (x : Cf S50000x128) : Cf S128 :=
  select (broadcastInDim S128 ![] bcast_S_S128 (cmpf .ogt cntN (kst 0x00000000#32)))
    (Host.divf (sumN (mulf (devN x) (devN x))) (broadcastInDim S128 ![] bcast_S_S128 cntN))
    (broadcastInDim S128 ![] bcast_S_S128 (id (kst 0x7FC00000#32)))

/-- The reciprocal standard deviation `1/√(v + ε)`. -/
def istd (v : Cf S128) : Cf S128 := Host.rsqrt (addf v (broadcastInDim S128 ![] bcast_S_S128 (kst 0x3727C5AC#32)))

/-- Batch normalisation of edge rows with mean `μ`, variance `v`, scale `s`, offset `o`. -/
def bnE (x : Cf S600000x128) (μ v s o : Cf S128) : Cf S600000x128 :=
  addf (mulf (mulf (subf x (rowE μ)) (rowE (istd v))) (rowE s)) (rowE o)
def bnN (x : Cf S50000x128) (μ v s o : Cf S128) : Cf S50000x128 :=
  addf (mulf (mulf (subf x (rowN μ)) (rowN (istd v))) (rowN s)) (rowN o)

/-- The positive part. -/
def reluE (x : Cf S600000x128) : Cf S600000x128 :=
  maximumf x (broadcastInDim S600000x128 ![] bcast_S_S600000x128 (kst 0x00000000#32))
def reluN (x : Cf S50000x128) : Cf S50000x128 :=
  maximumf x (broadcastInDim S50000x128 ![] bcast_S_S50000x128 (kst 0x00000000#32))

/-- The updated edge features: the residual plus the rectified normalised logits. -/
def eNew (e x : Cf S600000x128) (s o : Cf S128) : Cf S600000x128 :=
  addf e (reluE (bnE x (meanE x) (varE x) s o))

/-- The gate `1 / (1 + e⁻ˣ)`. -/
def sig (x : Cf S600000x128) : Cf S600000x128 :=
  Host.divf (broadcastInDim S600000x128 ![] bcast_S_S600000x128 (kst 0x3F800000#32))
    (addf (broadcastInDim S600000x128 ![] bcast_S_S600000x128 (kst 0x3F800000#32)) (Host.exp (Host.negf x)))

/-- The sum of edge rows into their sender nodes. -/
def seg (s : Ci S600000) (u : Cf S600000x128) : Cf S50000x128 :=
  Host.scatterAdd scatter_S50000x128_S600000x1_S600000x128_1_0_0_1
    (broadcastInDim S50000x128 ![] bcast_S_S50000x128 (kst 0x00000000#32))
    (broadcastInDim S600000x1 ![0] bcast_S600000_S600000x1_0 s) u

/-- The gates summed per node, plus the small constant that keeps the quotient defined. -/
def wsum (s : Ci S600000) (σ : Cf S600000x128) : Cf S50000x128 :=
  addf (seg s σ) (broadcastInDim S50000x128 ![] bcast_S_S50000x128 (kst 0x358637BD#32))

/-- The gated messages `(V h_j) · σ`. -/
def unatt (hj : Cf S600000x128) (Vw : Cf S128x128) (Vb : Cf S128) (σ : Cf S600000x128) : Cf S600000x128 :=
  mulf (linE hj Vw Vb) σ

/-- The node pre-activation `U h + agg / wsum`. -/
def nodePre (h : Cf S50000x128) (Uw : Cf S128x128) (Ub : Cf S128) (agg ws : Cf S50000x128) : Cf S50000x128 :=
  addf (linN h Uw Ub) (Host.divf agg ws)

/-- The updated node features: the residual plus the rectified normalised pre-activation. -/
def hNew (h x : Cf S50000x128) (s o : Cf S128) : Cf S50000x128 :=
  addf h (reluN (bnN x (meanN x) (varN x) s o))

/-- The reference's second result (the edge features) as a function of the arguments. -/
def eOut (h : Cf S50000x128) (e : Cf S600000x128) (snd rcv : Ci S600000) (Aw : Cf S128x128) (Ab : Cf S128)
    (Bw : Cf S128x128) (Bb : Cf S128) (Cw : Cf S128x128) (Cb : Cf S128) (se oe : Cf S128) : Cf S600000x128 :=
  eNew e (eta (gath h snd) (gath h rcv) e Aw Ab Bw Bb Cw Cb) se oe

/-- The reference's first result (the node features) as a function of the arguments and of the updated edge
    features `en`. -/
def hOut (h : Cf S50000x128) (snd rcv : Ci S600000) (Uw : Cf S128x128) (Ub : Cf S128) (Vw : Cf S128x128) (Vb : Cf S128)
    (sn on : Cf S128) (en : Cf S600000x128) : Cf S50000x128 :=
  hNew h (nodePre h Uw Ub (seg snd (unatt (gath h rcv) Vw Vb (sig en))) (wsum snd (sig en))) sn on

end Cert.ReferenceIdeal.Terms

end
-- ==== Proof.RefRun.lean ====
/-
  The reference program's run, read back.  The reference's @main calls four outlined functions (the two-pass
  variance, with its guarded select, over the edge rows and over the node rows; the positive part, over each);
  a call executes the callee's body on the operands, so @main is one straight line of host operations once each
  callee's operations are listed at its call site over that call's own buffers.  That line is `ops`; the program
  equals its sequencing; every weakly fair execution then ends with each buffer at the fold of the operations
  over the launch contents; and the fold, read at the two result buffers, is the composition of the named pieces
  of the reference's computation, the eighteen argument buffers being written by no operation.
-/
import proofs.«145784_j42537356100034_2_alg».proof.Proof.Terms
import proofs.«145784_j42537356100034_2_alg».proof.Proof.Gen.ReferenceIdeal
import Idealize.ShloMosaic.Lib.StableHlo.Run

-- one declaration at a time: each reading of the fold below holds a large term while it is checked
set_option Elab.async false

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F]
/-- @main's operations in order, the four calls unfolded: the edge variance's nineteen operations and its guarded
    select's three over the first call's buffers, the positive part's three over the second's, and likewise over
    the node rows for the third and fourth. -/
abbrev ops : List (HloOp τ sig (Elt F)) :=
  [ nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg2 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v2 (broadcastInDim S600000 ![] bcast_S_S600000 : (⟨S_, .i32⟩ : BufTy).Contents (Elt F) → (⟨S600000, .i32⟩ : BufTy).Contents (Elt F)),
    binary main_arg2 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg2 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v7 (broadcastInDim S600000 ![] bcast_S_S600000 : (⟨S_, .i32⟩ : BufTy).Contents (Elt F) → (⟨S600000, .i32⟩ : BufTy).Contents (Elt F)),
    binary main_arg3 main_v7 main_v8 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v9 (broadcastInDim S600000 ![] bcast_S_S600000 : (⟨S_, .i32⟩ : BufTy).Contents (Elt F) → (⟨S600000, .i32⟩ : BufTy).Contents (Elt F)),
    binary main_arg3 main_v9 main_v10 (addi : (⟨S600000, .i32⟩ : BufTy).Contents (Elt F) → (⟨S600000, .i32⟩ : BufTy).Contents (Elt F) → (⟨S600000, .i32⟩ : BufTy).Contents (Elt F)),
    ternary main_v8 main_v10 main_arg3 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v11 main_v12 (broadcastInDim S600000x1 ![0] bcast_S600000_S600000x1_0 : (⟨S600000, .i32⟩ : BufTy).Contents (Elt F) → (⟨S600000x1, .i32⟩ : BufTy).Contents (Elt F)),
    binary main_arg0 main_v12 main_v13 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v6 main_arg4 main_v14 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S600000x128 ![0, 1] bcast_S1x128_S600000x128_0_1 : (⟨S1x128, .f32⟩ : BufTy).Contents (Elt F) → (⟨S600000x128, .f32⟩ : BufTy).Contents (Elt F)),
    binary main_v14 main_v16 main_v17 (addf : (⟨S600000x128, .f32⟩ : BufTy).Contents (Elt F) → (⟨S600000x128, .f32⟩ : BufTy).Contents (Elt F) → (⟨S600000x128, .f32⟩ : BufTy).Contents (Elt F)),
    binary main_v13 main_arg6 main_v18 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg7 main_v19 (broadcastInDim S1x128 ![1] bcast_S128_S1x128_1 : (⟨S128, .f32⟩ : BufTy).Contents (Elt F) → (⟨S1x128, .f32⟩ : BufTy).Contents (Elt F)),
    unary main_v19 main_v20 (broadcastInDim S600000x128 ![0, 1] bcast_S1x128_S600000x128_0_1 : (⟨S1x128, .f32⟩ : BufTy).Contents (Elt F) → (⟨S600000x128, .f32⟩ : BufTy).Contents (Elt F)),
    binary main_v18 main_v20 main_v21 (addf : (⟨S600000x128, .f32⟩ : BufTy).Contents (Elt F) → (⟨S600000x128, .f32⟩ : BufTy).Contents (Elt F) → (⟨S600000x128, .f32⟩ : BufTy).Contents (Elt F)),
    binary main_v17 main_v21 main_v22 (addf : (⟨S600000x128, .f32⟩ : BufTy).Contents (Elt F) → (⟨S600000x128, .f32⟩ : BufTy).Contents (Elt F) → (⟨S600000x128, .f32⟩ : BufTy).Contents (Elt F)),
    binary main_arg1 main_arg8 main_v23 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg9 main_v24 (broadcastInDim S1x128 ![1] bcast_S128_S1x128_1 : (⟨S128, .f32⟩ : BufTy).Contents (Elt F) → (⟨S1x128, .f32⟩ : BufTy).Contents (Elt F)),
    unary main_v24 main_v25 (broadcastInDim S600000x128 ![0, 1] bcast_S1x128_S600000x128_0_1 : (⟨S1x128, .f32⟩ : BufTy).Contents (Elt F) → (⟨S600000x128, .f32⟩ : BufTy).Contents (Elt F)),
    binary main_v23 main_v25 main_v26 (addf : (⟨S600000x128, .f32⟩ : BufTy).Contents (Elt F) → (⟨S600000x128, .f32⟩ : BufTy).Contents (Elt F) → (⟨S600000x128, .f32⟩ : BufTy).Contents (Elt F)),
    binary main_v22 main_v26 main_v27 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    binary main_v27 main_cst main_v28 ((fun x v => Host.reduceAdd x v reducesTo_S600000x128_S128_d0 h_S_) : (⟨S600000x128, .f32⟩ : BufTy).Contents (Elt F) → (⟨S_, .f32⟩ : BufTy).Contents (Elt F) → (⟨S128, .f32⟩ : BufTy).Contents (Elt F)),
    nullary main_cst_3 (constant S_ .f32 0x49127C00#32),
    unary main_cst_3 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call0.cst (constant S_ .f32 0x00000000#32),
    TRef.binary (.of main_v27 : TRef sig ⟨S600000x128, .f32⟩) main_call0.cst main_call0.v0 (fun x v => Host.reduceAdd x v reducesTo_S600000x128_S128_d0 h_S_),
    TRef.unary main_call0.v0 main_call0.v1 (broadcastInDim S1x128 ![1] bcast_S128_S1x128_1),
    TRef.nullary main_call0.cst_0 (constant S_ .f32 0x49127C00#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S600000x128 ![0, 1] bcast_S1x128_S600000x128_0_1),
    TRef.binary (.of main_v27 : TRef sig ⟨S600000x128, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x49127C00#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S600000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v30 main_v32 (broadcastInDim S1x128 ![1] bcast_S128_S1x128_1 : (⟨S128, .f32⟩ : BufTy).Contents (Elt F) → (⟨S1x128, .f32⟩ : BufTy).Contents (Elt F)),
    unary main_v32 main_v33 (broadcastInDim S600000x128 ![0, 1] bcast_S1x128_S600000x128_0_1 : (⟨S1x128, .f32⟩ : BufTy).Contents (Elt F) → (⟨S600000x128, .f32⟩ : BufTy).Contents (Elt F)),
    binary main_v27 main_v33 main_v34 (subf : (⟨S600000x128, .f32⟩ : BufTy).Contents (Elt F) → (⟨S600000x128, .f32⟩ : BufTy).Contents (Elt F) → (⟨S600000x128, .f32⟩ : BufTy).Contents (Elt F)),
    nullary main_cst_5 (constant S_ .f32 0x3727C5AC#32),
    unary main_cst_5 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S600000x128 ![0, 1] bcast_S1x128_S600000x128_0_1 : (⟨S1x128, .f32⟩ : BufTy).Contents (Elt F) → (⟨S600000x128, .f32⟩ : BufTy).Contents (Elt F)),
    binary main_v34 main_v39 main_v40 (mulf : (⟨S600000x128, .f32⟩ : BufTy).Contents (Elt F) → (⟨S600000x128, .f32⟩ : BufTy).Contents (Elt F) → (⟨S600000x128, .f32⟩ : BufTy).Contents (Elt F)),
    unary main_arg14 main_v41 (broadcastInDim S1x128 ![1] bcast_S128_S1x128_1 : (⟨S128, .f32⟩ : BufTy).Contents (Elt F) → (⟨S1x128, .f32⟩ : BufTy).Contents (Elt F)),
    unary main_v41 main_v42 (broadcastInDim S600000x128 ![0, 1] bcast_S1x128_S600000x128_0_1 : (⟨S1x128, .f32⟩ : BufTy).Contents (Elt F) → (⟨S600000x128, .f32⟩ : BufTy).Contents (Elt F)),
    binary main_v40 main_v42 main_v43 (mulf : (⟨S600000x128, .f32⟩ : BufTy).Contents (Elt F) → (⟨S600000x128, .f32⟩ : BufTy).Contents (Elt F) → (⟨S600000x128, .f32⟩ : BufTy).Contents (Elt F)),
    unary main_arg15 main_v44 (broadcastInDim S1x128 ![1] bcast_S128_S1x128_1 : (⟨S128, .f32⟩ : BufTy).Contents (Elt F) → (⟨S1x128, .f32⟩ : BufTy).Contents (Elt F)),
    unary main_v44 main_v45 (broadcastInDim S600000x128 ![0, 1] bcast_S1x128_S600000x128_0_1 : (⟨S1x128, .f32⟩ : BufTy).Contents (Elt F) → (⟨S600000x128, .f32⟩ : BufTy).Contents (Elt F)),
    binary main_v43 main_v45 main_v46 (addf : (⟨S600000x128, .f32⟩ : BufTy).Contents (Elt F) → (⟨S600000x128, .f32⟩ : BufTy).Contents (Elt F) → (⟨S600000x128, .f32⟩ : BufTy).Contents (Elt F)),
    TRef.nullary main_call1.cst (constant S_ .f32 0x00000000#32),
    TRef.unary main_call1.cst main_call1.v0 (broadcastInDim S600000x128 ![] bcast_S_S600000x128),
    TRef.binary (.of main_v46 : TRef sig ⟨S600000x128, .f32⟩) main_call1.v0 main_call1.v1 maximumf,
    binary main_arg1 main_v47 main_v48 (addf : (⟨S600000x128, .f32⟩ : BufTy).Contents (Elt F) → (⟨S600000x128, .f32⟩ : BufTy).Contents (Elt F) → (⟨S600000x128, .f32⟩ : BufTy).Contents (Elt F)),
    unary main_v48 main_v49 (Host.negf : (⟨S600000x128, .f32⟩ : BufTy).Contents (Elt F) → (⟨S600000x128, .f32⟩ : BufTy).Contents (Elt F)),
    unary main_v49 main_v50 (Host.exp : (⟨S600000x128, .f32⟩ : BufTy).Contents (Elt F) → (⟨S600000x128, .f32⟩ : BufTy).Contents (Elt F)),
    nullary main_cst_6 (constant S_ .f32 0x3F800000#32),
    unary main_cst_6 main_v51 (broadcastInDim S600000x128 ![] bcast_S_S600000x128 : (⟨S_, .f32⟩ : BufTy).Contents (Elt F) → (⟨S600000x128, .f32⟩ : BufTy).Contents (Elt F)),
    binary main_v51 main_v50 main_v52 (addf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x3F800000#32),
    unary main_cst_7 main_v53 (broadcastInDim S600000x128 ![] bcast_S_S600000x128 : (⟨S_, .f32⟩ : BufTy).Contents (Elt F) → (⟨S600000x128, .f32⟩ : BufTy).Contents (Elt F)),
    binary main_v53 main_v52 main_v54 (Host.divf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v55 (broadcastInDim S50000x128 ![] bcast_S_S50000x128 : (⟨S_, .f32⟩ : BufTy).Contents (Elt F) → (⟨S50000x128, .f32⟩ : BufTy).Contents (Elt F)),
    unary main_arg2 main_v56 (broadcastInDim S600000x1 ![0] bcast_S600000_S600000x1_0 : (⟨S600000, .i32⟩ : BufTy).Contents (Elt F) → (⟨S600000x1, .i32⟩ : BufTy).Contents (Elt F)),
    ternary main_v55 main_v56 main_v54 main_v57 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_9 (constant S_ .f32 0x358637BD#32),
    unary main_cst_9 main_v58 (broadcastInDim S50000x128 ![] bcast_S_S50000x128 : (⟨S_, .f32⟩ : BufTy).Contents (Elt F) → (⟨S50000x128, .f32⟩ : BufTy).Contents (Elt F)),
    binary main_v57 main_v58 main_v59 (addf : (⟨S50000x128, .f32⟩ : BufTy).Contents (Elt F) → (⟨S50000x128, .f32⟩ : BufTy).Contents (Elt F) → (⟨S50000x128, .f32⟩ : BufTy).Contents (Elt F)),
    binary main_v13 main_arg12 main_v60 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg13 main_v61 (broadcastInDim S1x128 ![1] bcast_S128_S1x128_1 : (⟨S128, .f32⟩ : BufTy).Contents (Elt F) → (⟨S1x128, .f32⟩ : BufTy).Contents (Elt F)),
    unary main_v61 main_v62 (broadcastInDim S600000x128 ![0, 1] bcast_S1x128_S600000x128_0_1 : (⟨S1x128, .f32⟩ : BufTy).Contents (Elt F) → (⟨S600000x128, .f32⟩ : BufTy).Contents (Elt F)),
    binary main_v60 main_v62 main_v63 (addf : (⟨S600000x128, .f32⟩ : BufTy).Contents (Elt F) → (⟨S600000x128, .f32⟩ : BufTy).Contents (Elt F) → (⟨S600000x128, .f32⟩ : BufTy).Contents (Elt F)),
    binary main_v63 main_v54 main_v64 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v65 (broadcastInDim S50000x128 ![] bcast_S_S50000x128 : (⟨S_, .f32⟩ : BufTy).Contents (Elt F) → (⟨S50000x128, .f32⟩ : BufTy).Contents (Elt F)),
    unary main_arg2 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_arg10 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    binary main_v67 main_v59 main_v72 (Host.divf : (⟨S50000x128, .f32⟩ : BufTy).Contents (Elt F) → (⟨S50000x128, .f32⟩ : BufTy).Contents (Elt F) → (⟨S50000x128, .f32⟩ : BufTy).Contents (Elt F)),
    binary main_v71 main_v72 main_v73 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v73 main_cst_11 main_v74 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v75 (broadcastInDim S128 ![] bcast_S_S128 : (⟨S_, .f32⟩ : BufTy).Contents (Elt F) → (⟨S128, .f32⟩ : BufTy).Contents (Elt F)),
    binary main_v74 main_v75 main_v76 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v73 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v73 : TRef sig ⟨S50000x128, .f32⟩) main_call2.v4 main_call2.v5 subf,
    TRef.binary main_call2.v5 main_call2.v5 main_call2.v6 mulf,
    TRef.unary (.of main_c_13 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v76 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v73 main_v79 main_v80 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v81 (broadcastInDim S128 ![] bcast_S_S128 : (⟨S_, .f32⟩ : BufTy).Contents (Elt F) → (⟨S128, .f32⟩ : BufTy).Contents (Elt F)),
    binary main_v77 main_v81 main_v82 (addf : (⟨S128, .f32⟩ : BufTy).Contents (Elt F) → (⟨S128, .f32⟩ : BufTy).Contents (Elt F) → (⟨S128, .f32⟩ : BufTy).Contents (Elt F)),
    unary main_v82 main_v83 (Host.rsqrt : (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v80 main_v85 main_v86 (mulf : (⟨S50000x128, .f32⟩ : BufTy).Contents (Elt F) → (⟨S50000x128, .f32⟩ : BufTy).Contents (Elt F) → (⟨S50000x128, .f32⟩ : BufTy).Contents (Elt F)),
    unary main_arg16 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (mulf : (⟨S50000x128, .f32⟩ : BufTy).Contents (Elt F) → (⟨S50000x128, .f32⟩ : BufTy).Contents (Elt F) → (⟨S50000x128, .f32⟩ : BufTy).Contents (Elt F)),
    unary main_arg17 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v92 : TRef sig ⟨S50000x128, .f32⟩) main_call3.v0 main_call3.v1 maximumf,
    binary main_arg0 main_v93 main_v94 (addf : (⟨S50000x128, .f32⟩ : BufTy).Contents (Elt F) → (⟨S50000x128, .f32⟩ : BufTy).Contents (Elt F) → (⟨S50000x128, .f32⟩ : BufTy).Contents (Elt F)) ]

-- one hundred and fifty-eight binds to re-associate: the recursion under the chain is once per statement
set_option maxRecDepth 8192 in
set_option maxHeartbeats 4000000 in
/-- @main is that straight line: the two windows in order, the callees' definitions unfolded at their calls, and
    sequencing re-associated. -/
theorem main_eq (c : Dev nD) : main (F := F) c = seq ops := by
  simp only [main, main_part0, main_part1, fn_var.body, fn_var_0.body, fn_where.body, fn_relu.body, fn_relu_1.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., nullary_bufs_sub .., unary_bufs_sub .., unary_bufs_sub .., ternary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub ..⟩

set_option maxRecDepth 8192 in
set_option maxHeartbeats 4000000 in
/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The operations up to the updated edge features (the edge half). -/
abbrev opsE : List (HloOp τ sig (Elt F)) :=
  [ nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg2 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v2 (broadcastInDim S600000 ![] bcast_S_S600000 : (⟨S_, .i32⟩ : BufTy).Contents (Elt F) → (⟨S600000, .i32⟩ : BufTy).Contents (Elt F)),
    binary main_arg2 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg2 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v7 (broadcastInDim S600000 ![] bcast_S_S600000 : (⟨S_, .i32⟩ : BufTy).Contents (Elt F) → (⟨S600000, .i32⟩ : BufTy).Contents (Elt F)),
    binary main_arg3 main_v7 main_v8 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v9 (broadcastInDim S600000 ![] bcast_S_S600000 : (⟨S_, .i32⟩ : BufTy).Contents (Elt F) → (⟨S600000, .i32⟩ : BufTy).Contents (Elt F)),
    binary main_arg3 main_v9 main_v10 (addi : (⟨S600000, .i32⟩ : BufTy).Contents (Elt F) → (⟨S600000, .i32⟩ : BufTy).Contents (Elt F) → (⟨S600000, .i32⟩ : BufTy).Contents (Elt F)),
    ternary main_v8 main_v10 main_arg3 main_v11 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v11 main_v12 (broadcastInDim S600000x1 ![0] bcast_S600000_S600000x1_0 : (⟨S600000, .i32⟩ : BufTy).Contents (Elt F) → (⟨S600000x1, .i32⟩ : BufTy).Contents (Elt F)),
    binary main_arg0 main_v12 main_v13 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    binary main_v6 main_arg4 main_v14 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg5 main_v15 (broadcastInDim S1x128 ![1] bcast_S128_S1x128_1 : (⟨S128, .f32⟩ : BufTy).Contents (Elt F) → (⟨S1x128, .f32⟩ : BufTy).Contents (Elt F)),
    unary main_v15 main_v16 (broadcastInDim S600000x128 ![0, 1] bcast_S1x128_S600000x128_0_1 : (⟨S1x128, .f32⟩ : BufTy).Contents (Elt F) → (⟨S600000x128, .f32⟩ : BufTy).Contents (Elt F)),
    binary main_v14 main_v16 main_v17 (addf : (⟨S600000x128, .f32⟩ : BufTy).Contents (Elt F) → (⟨S600000x128, .f32⟩ : BufTy).Contents (Elt F) → (⟨S600000x128, .f32⟩ : BufTy).Contents (Elt F)),
    binary main_v13 main_arg6 main_v18 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg7 main_v19 (broadcastInDim S1x128 ![1] bcast_S128_S1x128_1 : (⟨S128, .f32⟩ : BufTy).Contents (Elt F) → (⟨S1x128, .f32⟩ : BufTy).Contents (Elt F)),
    unary main_v19 main_v20 (broadcastInDim S600000x128 ![0, 1] bcast_S1x128_S600000x128_0_1 : (⟨S1x128, .f32⟩ : BufTy).Contents (Elt F) → (⟨S600000x128, .f32⟩ : BufTy).Contents (Elt F)),
    binary main_v18 main_v20 main_v21 (addf : (⟨S600000x128, .f32⟩ : BufTy).Contents (Elt F) → (⟨S600000x128, .f32⟩ : BufTy).Contents (Elt F) → (⟨S600000x128, .f32⟩ : BufTy).Contents (Elt F)),
    binary main_v17 main_v21 main_v22 (addf : (⟨S600000x128, .f32⟩ : BufTy).Contents (Elt F) → (⟨S600000x128, .f32⟩ : BufTy).Contents (Elt F) → (⟨S600000x128, .f32⟩ : BufTy).Contents (Elt F)),
    binary main_arg1 main_arg8 main_v23 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg9 main_v24 (broadcastInDim S1x128 ![1] bcast_S128_S1x128_1 : (⟨S128, .f32⟩ : BufTy).Contents (Elt F) → (⟨S1x128, .f32⟩ : BufTy).Contents (Elt F)),
    unary main_v24 main_v25 (broadcastInDim S600000x128 ![0, 1] bcast_S1x128_S600000x128_0_1 : (⟨S1x128, .f32⟩ : BufTy).Contents (Elt F) → (⟨S600000x128, .f32⟩ : BufTy).Contents (Elt F)),
    binary main_v23 main_v25 main_v26 (addf : (⟨S600000x128, .f32⟩ : BufTy).Contents (Elt F) → (⟨S600000x128, .f32⟩ : BufTy).Contents (Elt F) → (⟨S600000x128, .f32⟩ : BufTy).Contents (Elt F)),
    binary main_v22 main_v26 main_v27 (addf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    binary main_v27 main_cst main_v28 ((fun x v => Host.reduceAdd x v reducesTo_S600000x128_S128_d0 h_S_) : (⟨S600000x128, .f32⟩ : BufTy).Contents (Elt F) → (⟨S_, .f32⟩ : BufTy).Contents (Elt F) → (⟨S128, .f32⟩ : BufTy).Contents (Elt F)),
    nullary main_cst_3 (constant S_ .f32 0x49127C00#32),
    unary main_cst_3 main_v29 (broadcastInDim S128 ![] bcast_S_S128 : (⟨S_, .f32⟩ : BufTy).Contents (Elt F) → (⟨S128, .f32⟩ : BufTy).Contents (Elt F)),
    binary main_v28 main_v29 main_v30 (Host.divf : (⟨S128, .f32⟩ : BufTy).Contents (Elt F) → (⟨S128, .f32⟩ : BufTy).Contents (Elt F) → (⟨S128, .f32⟩ : BufTy).Contents (Elt F)),
    nullary main_c_4 (constantI S_ 32 0#32),
    TRef.nullary main_call0.cst (constant S_ .f32 0x00000000#32),
    TRef.binary (.of main_v27 : TRef sig ⟨S600000x128, .f32⟩) main_call0.cst main_call0.v0 (fun x v => Host.reduceAdd x v reducesTo_S600000x128_S128_d0 h_S_),
    TRef.unary main_call0.v0 main_call0.v1 (broadcastInDim S1x128 ![1] bcast_S128_S1x128_1),
    TRef.nullary main_call0.cst_0 (constant S_ .f32 0x49127C00#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S600000x128 ![0, 1] bcast_S1x128_S600000x128_0_1),
    TRef.binary (.of main_v27 : TRef sig ⟨S600000x128, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x49127C00#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S600000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v30 main_v32 (broadcastInDim S1x128 ![1] bcast_S128_S1x128_1 : (⟨S128, .f32⟩ : BufTy).Contents (Elt F) → (⟨S1x128, .f32⟩ : BufTy).Contents (Elt F)),
    unary main_v32 main_v33 (broadcastInDim S600000x128 ![0, 1] bcast_S1x128_S600000x128_0_1 : (⟨S1x128, .f32⟩ : BufTy).Contents (Elt F) → (⟨S600000x128, .f32⟩ : BufTy).Contents (Elt F)),
    binary main_v27 main_v33 main_v34 (subf : (⟨S600000x128, .f32⟩ : BufTy).Contents (Elt F) → (⟨S600000x128, .f32⟩ : BufTy).Contents (Elt F) → (⟨S600000x128, .f32⟩ : BufTy).Contents (Elt F)),
    nullary main_cst_5 (constant S_ .f32 0x3727C5AC#32),
    unary main_cst_5 main_v35 (broadcastInDim S128 ![] bcast_S_S128 : (⟨S_, .f32⟩ : BufTy).Contents (Elt F) → (⟨S128, .f32⟩ : BufTy).Contents (Elt F)),
    binary main_v31 main_v35 main_v36 (addf : (⟨S128, .f32⟩ : BufTy).Contents (Elt F) → (⟨S128, .f32⟩ : BufTy).Contents (Elt F) → (⟨S128, .f32⟩ : BufTy).Contents (Elt F)),
    unary main_v36 main_v37 (Host.rsqrt : (⟨S128, .f32⟩ : BufTy).Contents (Elt F) → (⟨S128, .f32⟩ : BufTy).Contents (Elt F)),
    unary main_v37 main_v38 (broadcastInDim S1x128 ![1] bcast_S128_S1x128_1 : (⟨S128, .f32⟩ : BufTy).Contents (Elt F) → (⟨S1x128, .f32⟩ : BufTy).Contents (Elt F)),
    unary main_v38 main_v39 (broadcastInDim S600000x128 ![0, 1] bcast_S1x128_S600000x128_0_1 : (⟨S1x128, .f32⟩ : BufTy).Contents (Elt F) → (⟨S600000x128, .f32⟩ : BufTy).Contents (Elt F)),
    binary main_v34 main_v39 main_v40 (mulf : (⟨S600000x128, .f32⟩ : BufTy).Contents (Elt F) → (⟨S600000x128, .f32⟩ : BufTy).Contents (Elt F) → (⟨S600000x128, .f32⟩ : BufTy).Contents (Elt F)),
    unary main_arg14 main_v41 (broadcastInDim S1x128 ![1] bcast_S128_S1x128_1 : (⟨S128, .f32⟩ : BufTy).Contents (Elt F) → (⟨S1x128, .f32⟩ : BufTy).Contents (Elt F)),
    unary main_v41 main_v42 (broadcastInDim S600000x128 ![0, 1] bcast_S1x128_S600000x128_0_1 : (⟨S1x128, .f32⟩ : BufTy).Contents (Elt F) → (⟨S600000x128, .f32⟩ : BufTy).Contents (Elt F)),
    binary main_v40 main_v42 main_v43 (mulf : (⟨S600000x128, .f32⟩ : BufTy).Contents (Elt F) → (⟨S600000x128, .f32⟩ : BufTy).Contents (Elt F) → (⟨S600000x128, .f32⟩ : BufTy).Contents (Elt F)),
    unary main_arg15 main_v44 (broadcastInDim S1x128 ![1] bcast_S128_S1x128_1 : (⟨S128, .f32⟩ : BufTy).Contents (Elt F) → (⟨S1x128, .f32⟩ : BufTy).Contents (Elt F)),
    unary main_v44 main_v45 (broadcastInDim S600000x128 ![0, 1] bcast_S1x128_S600000x128_0_1 : (⟨S1x128, .f32⟩ : BufTy).Contents (Elt F) → (⟨S600000x128, .f32⟩ : BufTy).Contents (Elt F)),
    binary main_v43 main_v45 main_v46 (addf : (⟨S600000x128, .f32⟩ : BufTy).Contents (Elt F) → (⟨S600000x128, .f32⟩ : BufTy).Contents (Elt F) → (⟨S600000x128, .f32⟩ : BufTy).Contents (Elt F)),
    TRef.nullary main_call1.cst (constant S_ .f32 0x00000000#32),
    TRef.unary main_call1.cst main_call1.v0 (broadcastInDim S600000x128 ![] bcast_S_S600000x128),
    TRef.binary (.of main_v46 : TRef sig ⟨S600000x128, .f32⟩) main_call1.v0 main_call1.v1 maximumf,
    binary main_arg1 main_v47 main_v48 (addf : (⟨S600000x128, .f32⟩ : BufTy).Contents (Elt F) → (⟨S600000x128, .f32⟩ : BufTy).Contents (Elt F) → (⟨S600000x128, .f32⟩ : BufTy).Contents (Elt F)) ]

/-- The operations after them (the gate, the two segment sums, the node half). -/
abbrev opsN : List (HloOp τ sig (Elt F)) :=
  [ unary main_v48 main_v49 (Host.negf : (⟨S600000x128, .f32⟩ : BufTy).Contents (Elt F) → (⟨S600000x128, .f32⟩ : BufTy).Contents (Elt F)),
    unary main_v49 main_v50 (Host.exp : (⟨S600000x128, .f32⟩ : BufTy).Contents (Elt F) → (⟨S600000x128, .f32⟩ : BufTy).Contents (Elt F)),
    nullary main_cst_6 (constant S_ .f32 0x3F800000#32),
    unary main_cst_6 main_v51 (broadcastInDim S600000x128 ![] bcast_S_S600000x128 : (⟨S_, .f32⟩ : BufTy).Contents (Elt F) → (⟨S600000x128, .f32⟩ : BufTy).Contents (Elt F)),
    binary main_v51 main_v50 main_v52 (addf : (⟨S600000x128, .f32⟩ : BufTy).Contents (Elt F) → (⟨S600000x128, .f32⟩ : BufTy).Contents (Elt F) → (⟨S600000x128, .f32⟩ : BufTy).Contents (Elt F)),
    nullary main_cst_7 (constant S_ .f32 0x3F800000#32),
    unary main_cst_7 main_v53 (broadcastInDim S600000x128 ![] bcast_S_S600000x128 : (⟨S_, .f32⟩ : BufTy).Contents (Elt F) → (⟨S600000x128, .f32⟩ : BufTy).Contents (Elt F)),
    binary main_v53 main_v52 main_v54 (Host.divf : (⟨S600000x128, .f32⟩ : BufTy).Contents (Elt F) → (⟨S600000x128, .f32⟩ : BufTy).Contents (Elt F) → (⟨S600000x128, .f32⟩ : BufTy).Contents (Elt F)),
    nullary main_cst_8 (constant S_ .f32 0x00000000#32),
    unary main_cst_8 main_v55 (broadcastInDim S50000x128 ![] bcast_S_S50000x128 : (⟨S_, .f32⟩ : BufTy).Contents (Elt F) → (⟨S50000x128, .f32⟩ : BufTy).Contents (Elt F)),
    unary main_arg2 main_v56 (broadcastInDim S600000x1 ![0] bcast_S600000_S600000x1_0 : (⟨S600000, .i32⟩ : BufTy).Contents (Elt F) → (⟨S600000x1, .i32⟩ : BufTy).Contents (Elt F)),
    ternary main_v55 main_v56 main_v54 main_v57 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    nullary main_cst_9 (constant S_ .f32 0x358637BD#32),
    unary main_cst_9 main_v58 (broadcastInDim S50000x128 ![] bcast_S_S50000x128 : (⟨S_, .f32⟩ : BufTy).Contents (Elt F) → (⟨S50000x128, .f32⟩ : BufTy).Contents (Elt F)),
    binary main_v57 main_v58 main_v59 (addf : (⟨S50000x128, .f32⟩ : BufTy).Contents (Elt F) → (⟨S50000x128, .f32⟩ : BufTy).Contents (Elt F) → (⟨S50000x128, .f32⟩ : BufTy).Contents (Elt F)),
    binary main_v13 main_arg12 main_v60 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    unary main_arg13 main_v61 (broadcastInDim S1x128 ![1] bcast_S128_S1x128_1 : (⟨S128, .f32⟩ : BufTy).Contents (Elt F) → (⟨S1x128, .f32⟩ : BufTy).Contents (Elt F)),
    unary main_v61 main_v62 (broadcastInDim S600000x128 ![0, 1] bcast_S1x128_S600000x128_0_1 : (⟨S1x128, .f32⟩ : BufTy).Contents (Elt F) → (⟨S600000x128, .f32⟩ : BufTy).Contents (Elt F)),
    binary main_v60 main_v62 main_v63 (addf : (⟨S600000x128, .f32⟩ : BufTy).Contents (Elt F) → (⟨S600000x128, .f32⟩ : BufTy).Contents (Elt F) → (⟨S600000x128, .f32⟩ : BufTy).Contents (Elt F)),
    binary main_v63 main_v54 main_v64 (mulf : (⟨S600000x128, .f32⟩ : BufTy).Contents (Elt F) → (⟨S600000x128, .f32⟩ : BufTy).Contents (Elt F) → (⟨S600000x128, .f32⟩ : BufTy).Contents (Elt F)),
    nullary main_cst_10 (constant S_ .f32 0x00000000#32),
    unary main_cst_10 main_v65 (broadcastInDim S50000x128 ![] bcast_S_S50000x128 : (⟨S_, .f32⟩ : BufTy).Contents (Elt F) → (⟨S50000x128, .f32⟩ : BufTy).Contents (Elt F)),
    unary main_arg2 main_v66 (broadcastInDim S600000x1 ![0] bcast_S600000_S600000x1_0 : (⟨S600000, .i32⟩ : BufTy).Contents (Elt F) → (⟨S600000x1, .i32⟩ : BufTy).Contents (Elt F)),
    ternary main_v65 main_v66 main_v64 main_v67 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_arg10 main_v68 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg11 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v68 main_v70 main_v71 (addf : (⟨S50000x128, .f32⟩ : BufTy).Contents (Elt F) → (⟨S50000x128, .f32⟩ : BufTy).Contents (Elt F) → (⟨S50000x128, .f32⟩ : BufTy).Contents (Elt F)),
    binary main_v67 main_v59 main_v72 (Host.divf : (⟨S50000x128, .f32⟩ : BufTy).Contents (Elt F) → (⟨S50000x128, .f32⟩ : BufTy).Contents (Elt F) → (⟨S50000x128, .f32⟩ : BufTy).Contents (Elt F)),
    binary main_v71 main_v72 main_v73 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v73 main_cst_11 main_v74 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v75 (broadcastInDim S128 ![] bcast_S_S128 : (⟨S_, .f32⟩ : BufTy).Contents (Elt F) → (⟨S128, .f32⟩ : BufTy).Contents (Elt F)),
    binary main_v74 main_v75 main_v76 (Host.divf : (⟨S128, .f32⟩ : BufTy).Contents (Elt F) → (⟨S128, .f32⟩ : BufTy).Contents (Elt F) → (⟨S128, .f32⟩ : BufTy).Contents (Elt F)),
    nullary main_c_13 (constantI S_ 32 0#32),
    TRef.nullary main_call2.cst (constant S_ .f32 0x00000000#32),
    TRef.binary (.of main_v73 : TRef sig ⟨S50000x128, .f32⟩) main_call2.cst main_call2.v0 (fun x v => Host.reduceAdd x v reducesTo_S50000x128_S128_d0 h_S_),
    TRef.unary main_call2.v0 main_call2.v1 (broadcastInDim S1x128 ![1] bcast_S128_S1x128_1),
    TRef.nullary main_call2.cst_0 (constant S_ .f32 0x47435000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S50000x128 ![0, 1] bcast_S1x128_S50000x128_0_1),
    TRef.binary (.of main_v73 : TRef sig ⟨S50000x128, .f32⟩) main_call2.v4 main_call2.v5 subf,
    TRef.binary main_call2.v5 main_call2.v5 main_call2.v6 mulf,
    TRef.unary (.of main_c_13 : TRef sig ⟨S_, .i32⟩) main_call2.v7 (sitofp .f32),
    TRef.nullary main_call2.cst_1 (constant S_ .f32 0x47435000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S50000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v76 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v73 main_v79 main_v80 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v81 (broadcastInDim S128 ![] bcast_S_S128 : (⟨S_, .f32⟩ : BufTy).Contents (Elt F) → (⟨S128, .f32⟩ : BufTy).Contents (Elt F)),
    binary main_v77 main_v81 main_v82 (addf : (⟨S128, .f32⟩ : BufTy).Contents (Elt F) → (⟨S128, .f32⟩ : BufTy).Contents (Elt F) → (⟨S128, .f32⟩ : BufTy).Contents (Elt F)),
    unary main_v82 main_v83 (Host.rsqrt : (⟨S128, .f32⟩ : BufTy).Contents (Elt F) → (⟨S128, .f32⟩ : BufTy).Contents (Elt F)),
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S50000x128 ![0, 1] bcast_S1x128_S50000x128_0_1 : (⟨S1x128, .f32⟩ : BufTy).Contents (Elt F) → (⟨S50000x128, .f32⟩ : BufTy).Contents (Elt F)),
    binary main_v80 main_v85 main_v86 (mulf : (⟨S50000x128, .f32⟩ : BufTy).Contents (Elt F) → (⟨S50000x128, .f32⟩ : BufTy).Contents (Elt F) → (⟨S50000x128, .f32⟩ : BufTy).Contents (Elt F)),
    unary main_arg16 main_v87 (broadcastInDim S1x128 ![1] bcast_S128_S1x128_1 : (⟨S128, .f32⟩ : BufTy).Contents (Elt F) → (⟨S1x128, .f32⟩ : BufTy).Contents (Elt F)),
    unary main_v87 main_v88 (broadcastInDim S50000x128 ![0, 1] bcast_S1x128_S50000x128_0_1 : (⟨S1x128, .f32⟩ : BufTy).Contents (Elt F) → (⟨S50000x128, .f32⟩ : BufTy).Contents (Elt F)),
    binary main_v86 main_v88 main_v89 (mulf : (⟨S50000x128, .f32⟩ : BufTy).Contents (Elt F) → (⟨S50000x128, .f32⟩ : BufTy).Contents (Elt F) → (⟨S50000x128, .f32⟩ : BufTy).Contents (Elt F)),
    unary main_arg17 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v89 main_v91 main_v92 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v92 : TRef sig ⟨S50000x128, .f32⟩) main_call3.v0 main_call3.v1 maximumf,
    binary main_arg0 main_v93 main_v94 (addf : (⟨S50000x128, .f32⟩ : BufTy).Contents (Elt F) → (⟨S50000x128, .f32⟩ : BufTy).Contents (Elt F) → (⟨S50000x128, .f32⟩ : BufTy).Contents (Elt F)) ]

/-- The line is the edge half followed by the node half. -/
theorem ops_eq : (ops : List (HloOp τ sig (Elt F))) = opsE ++ opsN := rfl

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
set_option maxHeartbeats 2000000 in
/-- No operation of the edge half writes an argument buffer. -/
theorem argsE (V : Valuation τ sig (Elt F)) :
    after (opsE (F := F)) V (main_arg0 : DevRef τ sig) = V (main_arg0 : DevRef τ sig)
      ∧ after (opsE (F := F)) V (main_arg1 : DevRef τ sig) = V (main_arg1 : DevRef τ sig)
      ∧ after (opsE (F := F)) V (main_arg2 : DevRef τ sig) = V (main_arg2 : DevRef τ sig)
      ∧ after (opsE (F := F)) V (main_arg3 : DevRef τ sig) = V (main_arg3 : DevRef τ sig)
      ∧ after (opsE (F := F)) V (main_arg4 : DevRef τ sig) = V (main_arg4 : DevRef τ sig)
      ∧ after (opsE (F := F)) V (main_arg5 : DevRef τ sig) = V (main_arg5 : DevRef τ sig)
      ∧ after (opsE (F := F)) V (main_arg6 : DevRef τ sig) = V (main_arg6 : DevRef τ sig)
      ∧ after (opsE (F := F)) V (main_arg7 : DevRef τ sig) = V (main_arg7 : DevRef τ sig)
      ∧ after (opsE (F := F)) V (main_arg8 : DevRef τ sig) = V (main_arg8 : DevRef τ sig)
      ∧ after (opsE (F := F)) V (main_arg9 : DevRef τ sig) = V (main_arg9 : DevRef τ sig)
      ∧ after (opsE (F := F)) V (main_arg10 : DevRef τ sig) = V (main_arg10 : DevRef τ sig)
      ∧ after (opsE (F := F)) V (main_arg11 : DevRef τ sig) = V (main_arg11 : DevRef τ sig)
      ∧ after (opsE (F := F)) V (main_arg12 : DevRef τ sig) = V (main_arg12 : DevRef τ sig)
      ∧ after (opsE (F := F)) V (main_arg13 : DevRef τ sig) = V (main_arg13 : DevRef τ sig)
      ∧ after (opsE (F := F)) V (main_arg14 : DevRef τ sig) = V (main_arg14 : DevRef τ sig)
      ∧ after (opsE (F := F)) V (main_arg15 : DevRef τ sig) = V (main_arg15 : DevRef τ sig)
      ∧ after (opsE (F := F)) V (main_arg16 : DevRef τ sig) = V (main_arg16 : DevRef τ sig)
      ∧ after (opsE (F := F)) V (main_arg17 : DevRef τ sig) = V (main_arg17 : DevRef τ sig) := by
  refine ⟨?_, ?_, ?_, ?_, ?_, ?_, ?_, ?_, ?_, ?_, ?_, ?_, ?_, ?_, ?_, ?_, ?_, ?_⟩ <;> after_results_simp

set_option maxRecDepth 8192 in
set_option maxHeartbeats 2000000 in
/-- No operation of the node half writes an argument buffer. -/
theorem argsN (V : Valuation τ sig (Elt F)) :
    after (opsN (F := F)) V (main_arg0 : DevRef τ sig) = V (main_arg0 : DevRef τ sig)
      ∧ after (opsN (F := F)) V (main_arg1 : DevRef τ sig) = V (main_arg1 : DevRef τ sig)
      ∧ after (opsN (F := F)) V (main_arg2 : DevRef τ sig) = V (main_arg2 : DevRef τ sig)
      ∧ after (opsN (F := F)) V (main_arg3 : DevRef τ sig) = V (main_arg3 : DevRef τ sig)
      ∧ after (opsN (F := F)) V (main_arg4 : DevRef τ sig) = V (main_arg4 : DevRef τ sig)
      ∧ after (opsN (F := F)) V (main_arg5 : DevRef τ sig) = V (main_arg5 : DevRef τ sig)
      ∧ after (opsN (F := F)) V (main_arg6 : DevRef τ sig) = V (main_arg6 : DevRef τ sig)
      ∧ after (opsN (F := F)) V (main_arg7 : DevRef τ sig) = V (main_arg7 : DevRef τ sig)
      ∧ after (opsN (F := F)) V (main_arg8 : DevRef τ sig) = V (main_arg8 : DevRef τ sig)
      ∧ after (opsN (F := F)) V (main_arg9 : DevRef τ sig) = V (main_arg9 : DevRef τ sig)
      ∧ after (opsN (F := F)) V (main_arg10 : DevRef τ sig) = V (main_arg10 : DevRef τ sig)
      ∧ after (opsN (F := F)) V (main_arg11 : DevRef τ sig) = V (main_arg11 : DevRef τ sig)
      ∧ after (opsN (F := F)) V (main_arg12 : DevRef τ sig) = V (main_arg12 : DevRef τ sig)
      ∧ after (opsN (F := F)) V (main_arg13 : DevRef τ sig) = V (main_arg13 : DevRef τ sig)
      ∧ after (opsN (F := F)) V (main_arg14 : DevRef τ sig) = V (main_arg14 : DevRef τ sig)
      ∧ after (opsN (F := F)) V (main_arg15 : DevRef τ sig) = V (main_arg15 : DevRef τ sig)
      ∧ after (opsN (F := F)) V (main_arg16 : DevRef τ sig) = V (main_arg16 : DevRef τ sig)
      ∧ after (opsN (F := F)) V (main_arg17 : DevRef τ sig) = V (main_arg17 : DevRef τ sig) := by
  refine ⟨?_, ?_, ?_, ?_, ?_, ?_, ?_, ?_, ?_, ?_, ?_, ?_, ?_, ?_, ?_, ?_, ?_, ?_⟩ <;> after_results_simp

set_option maxRecDepth 8192 in
set_option maxHeartbeats 2000000 in
/-- The edge half leaves the node features gathered along the receivers where the node half reads them. -/
theorem v13E (V : Valuation τ sig (Elt Ideal)) :
    after (opsE (F := Ideal)) V (main_v13 : DevRef τ sig) = Terms.gath (V (main_arg0 : DevRef τ sig)) (V (main_arg3 : DevRef τ sig)) := by
  after_results_simp
  simp only [Terms.gath, Terms.normIdx]

set_option maxRecDepth 8192 in
set_option maxHeartbeats 4000000 in
/-- The edge half ends with the updated edge features: the operations' composed term is the named pieces'
    composition once these are unfolded, a typed reference's transport at a literal reference being the identity. -/
theorem v48E (V : Valuation τ sig (Elt Ideal)) :
    after (opsE (F := Ideal)) V (main_v48 : DevRef τ sig) = (Terms.eOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg14 : DevRef τ sig)) (V (main_arg15 : DevRef τ sig))) := by
  after_results_simp
  simp only [TRef.toBuf, TRef.ofBuf, cast_eq, Terms.eOut, Terms.eNew, Terms.eta, Terms.gath, Terms.normIdx, Terms.linE, Terms.rowE, Terms.bnE, Terms.meanE, Terms.varE, Terms.sumE, Terms.devE, Terms.cntE, Terms.istd, Terms.reluE]

set_option maxRecDepth 8192 in
set_option maxHeartbeats 4000000 in
/-- The node half, from any contents `W`, ends with the updated node features of the arguments, of the gathered
    receivers' features and of the updated edge features as `W` holds them. -/
theorem v94N (W : Valuation τ sig (Elt Ideal)) :
    after (opsN (F := Ideal)) W (main_v94 : DevRef τ sig)
      = Terms.hNew (W (main_arg0 : DevRef τ sig))
        (Terms.nodePre (W (main_arg0 : DevRef τ sig)) (W (main_arg10 : DevRef τ sig)) (W (main_arg11 : DevRef τ sig))
          (Terms.seg (W (main_arg2 : DevRef τ sig)) (Terms.unatt (W (main_v13 : DevRef τ sig)) (W (main_arg12 : DevRef τ sig)) (W (main_arg13 : DevRef τ sig)) (Terms.sig (W (main_v48 : DevRef τ sig)))))
          (Terms.wsum (W (main_arg2 : DevRef τ sig)) (Terms.sig (W (main_v48 : DevRef τ sig)))))
        (W (main_arg16 : DevRef τ sig)) (W (main_arg17 : DevRef τ sig)) := by
  after_results_simp
  simp only [TRef.toBuf, TRef.ofBuf, cast_eq, Terms.hNew, Terms.nodePre, Terms.seg, Terms.unatt, Terms.sig, Terms.wsum, Terms.linE, Terms.linN, Terms.rowE, Terms.rowN, Terms.bnN, Terms.meanN, Terms.varN, Terms.sumN, Terms.devN, Terms.cntN, Terms.istd, Terms.reluN]

set_option maxRecDepth 8192 in
set_option maxHeartbeats 2000000 in
/-- The node half does not write the updated edge features. -/
theorem v48N (W : Valuation τ sig (Elt F)) :
    after (opsN (F := F)) W (main_v48 : DevRef τ sig) = W (main_v48 : DevRef τ sig) := by
  after_results_simp

/-- No operation of the whole line writes an argument buffer. -/
theorem args_eq (V : Valuation τ sig (Elt F)) :
    after (ops (F := F)) V (main_arg0 : DevRef τ sig) = V (main_arg0 : DevRef τ sig)
      ∧ after (ops (F := F)) V (main_arg1 : DevRef τ sig) = V (main_arg1 : DevRef τ sig)
      ∧ after (ops (F := F)) V (main_arg2 : DevRef τ sig) = V (main_arg2 : DevRef τ sig)
      ∧ after (ops (F := F)) V (main_arg3 : DevRef τ sig) = V (main_arg3 : DevRef τ sig)
      ∧ after (ops (F := F)) V (main_arg4 : DevRef τ sig) = V (main_arg4 : DevRef τ sig)
      ∧ after (ops (F := F)) V (main_arg5 : DevRef τ sig) = V (main_arg5 : DevRef τ sig)
      ∧ after (ops (F := F)) V (main_arg6 : DevRef τ sig) = V (main_arg6 : DevRef τ sig)
      ∧ after (ops (F := F)) V (main_arg7 : DevRef τ sig) = V (main_arg7 : DevRef τ sig)
      ∧ after (ops (F := F)) V (main_arg8 : DevRef τ sig) = V (main_arg8 : DevRef τ sig)
      ∧ after (ops (F := F)) V (main_arg9 : DevRef τ sig) = V (main_arg9 : DevRef τ sig)
      ∧ after (ops (F := F)) V (main_arg10 : DevRef τ sig) = V (main_arg10 : DevRef τ sig)
      ∧ after (ops (F := F)) V (main_arg11 : DevRef τ sig) = V (main_arg11 : DevRef τ sig)
      ∧ after (ops (F := F)) V (main_arg12 : DevRef τ sig) = V (main_arg12 : DevRef τ sig)
      ∧ after (ops (F := F)) V (main_arg13 : DevRef τ sig) = V (main_arg13 : DevRef τ sig)
      ∧ after (ops (F := F)) V (main_arg14 : DevRef τ sig) = V (main_arg14 : DevRef τ sig)
      ∧ after (ops (F := F)) V (main_arg15 : DevRef τ sig) = V (main_arg15 : DevRef τ sig)
      ∧ after (ops (F := F)) V (main_arg16 : DevRef τ sig) = V (main_arg16 : DevRef τ sig)
      ∧ after (ops (F := F)) V (main_arg17 : DevRef τ sig) = V (main_arg17 : DevRef τ sig) := by
  rw [ops_eq, after_app]
  obtain ⟨e0, e1, e2, e3, e4, e5, e6, e7, e8, e9, e10, e11, e12, e13, e14, e15, e16, e17⟩ := argsE V
  obtain ⟨n0, n1, n2, n3, n4, n5, n6, n7, n8, n9, n10, n11, n12, n13, n14, n15, n16, n17⟩ := argsN (after (opsE (F := F)) V)
  exact ⟨n0.trans e0, n1.trans e1, n2.trans e2, n3.trans e3, n4.trans e4, n5.trans e5, n6.trans e6, n7.trans e7, n8.trans e8, n9.trans e9, n10.trans e10, n11.trans e11, n12.trans e12, n13.trans e13, n14.trans e14, n15.trans e15, n16.trans e16, n17.trans e17⟩

/-- The whole line leaves the updated edge features at the second result buffer. -/
theorem v48_eq (V : Valuation τ sig (Elt Ideal)) :
    after (ops (F := Ideal)) V (main_v48 : DevRef τ sig) = (Terms.eOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg14 : DevRef τ sig)) (V (main_arg15 : DevRef τ sig))) := by
  rw [ops_eq, after_app, v48N, v48E]

/-- The whole line leaves the updated node features at the first result buffer: the node half's reading, at the
    contents the edge half leaves (the arguments untouched, the gathered receivers' features, the updated edge
    features). -/
theorem v94_eq (V : Valuation τ sig (Elt Ideal)) :
    after (ops (F := Ideal)) V (main_v94 : DevRef τ sig) = Terms.hOut (V (main_arg0 : DevRef τ sig)) (V (main_arg2 : DevRef τ sig)) (V (main_arg3 : DevRef τ sig)) (V (main_arg10 : DevRef τ sig)) (V (main_arg11 : DevRef τ sig)) (V (main_arg12 : DevRef τ sig)) (V (main_arg13 : DevRef τ sig)) (V (main_arg16 : DevRef τ sig)) (V (main_arg17 : DevRef τ sig)) (Terms.eOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg14 : DevRef τ sig)) (V (main_arg15 : DevRef τ sig))) := by
  obtain ⟨e0, e1, e2, e3, e4, e5, e6, e7, e8, e9, e10, e11, e12, e13, e14, e15, e16, e17⟩ := argsE V
  rw [ops_eq, after_app, v94N, v48E, v13E, e0, e2, e10, e11, e12, e13, e16, e17]
  rfl

/-- The reference's run: from any memory with zero counters every weakly fair execution of @main terminates with
    the first result at the updated node features and the second at the updated edge features of the arguments'
    launch contents, the eighteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v94) = Terms.hOut (m ((c.tc : Thread nD τ).loc main_arg0)) (m ((c.tc : Thread nD τ).loc main_arg2)) (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg16)) (m ((c.tc : Thread nD τ).loc main_arg17)) (Terms.eOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)))
      ∧ r.2.mem ((c.tc : Thread nD τ).loc main_v48) = (Terms.eOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg14)) (m ((c.tc : Thread nD τ).loc main_arg15)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run _ _ _).mono (fun _ h c => by
      obtain ⟨a0, a1, a2, a3, a4, a5, a6, a7, a8, a9, a10, a11, a12, a13, a14, a15, a16, a17⟩ := args_eq (launchContents m c)
      exact ⟨(h c main_v94).trans (v94_eq _), (h c main_v48).trans (v48_eq _),
        (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10, (h c main_arg11).trans a11, (h c main_arg12).trans a12, (h c main_arg13).trans a13, (h c main_arg14).trans a14, (h c main_arg15).trans a15, (h c main_arg16).trans a16, (h c main_arg17).trans a17⟩)
    (run_main m ρ)

/-- The frame alone: the arguments are unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run _ _ _).mono (fun _ h c => (h c).2.2) (run m ρ)

end Cert.ReferenceIdeal.RefRun

end
-- ==== Proof.FinitePre.lean ====
/-
  From the precondition to finiteness.  The precondition computes, for each of the sixteen float arguments, the
  conjunction over all entries of |x| < +∞, and states that the conjunction of the sixteen results is true.  Read
  back: every entry of every float argument is an ordinary real number (neither infinity nor the junk value).
-/
import proofs.«145784_j42537356100034_2_alg».proof.Pre_finite_inputs
import proofs.«145784_j42537356100034_2_alg».proof.Proof.Gen.Pre_finite_inputs
import proofs.«145784_j42537356100034_2_alg».proof.Proof.Spec
import Idealize.ShloMosaic.Lib.ReduceAll
import Idealize.ShloMosaic.Lib.ValueIdx

noncomputable section

namespace Cert.Pre_finite_inputs.FinitePre

open Cert.Pre_finite_inputs Cert.Spec Idealize.ShloMosaic

/-- The rank-0 shape has exactly one index. -/
instance subsingleton_S_ : Subsingleton S_.Idx := ⟨fun a b => funext fun d => d.elim0⟩

/-- The f32 pattern 0x7F800000 is +∞. -/
theorem ofBits_inf : Ideal.ofBits .f32 0x7F800000#32 = (⊤ : EReal) := by
  simp [Ideal.ofBits, Ideal.ieee]

/-- An extended real whose absolute value max x (−x) is strictly below +∞ is a real number. -/
theorem isReal_of_abs_lt_top (x : EReal) (h : max x (-x) < (⊤ : EReal)) : IsReal x := by
  obtain ⟨h1, h2⟩ := max_lt_iff.1 h
  induction x using EReal.rec with
  | bot => exact absurd h2 (by simp)
  | coe r => exact ⟨r, rfl⟩
  | top => exact absurd h1 (lt_irrefl _)

/-- One entry's test: the comparison |x| < +∞ came out true, so x is a real number. -/
theorem isReal_of_cmp (x : Ideal .f32)
    (h : FloatOps.cmpf .olt (FloatOps.hostAbsf x) (Ideal.ofBits .f32 0x7F800000#32) = 1#1) : IsReal x := by
  rw [ofBits_inf] at h
  have h' : Ideal.cmp .olt (max x (-x)) (⊤ : EReal) = 1#1 := h
  unfold Ideal.cmp at h'
  have : decide (max x (-x) < (⊤ : EReal)) = true := by
    revert h'; cases decide (max x (-x) < (⊤ : EReal)) <;> simp
  exact isReal_of_abs_lt_top x (of_decide_eq_true this)

/-- One argument's test, for any shape: the conjunction over all entries of |x| < +∞ is true, so every entry of
    the argument is a real number. -/
theorem isReal_of_all {S : Shape} {axes : List (Fin S.rank)}
    (hb : S_.BroadcastsInDim S (![] : Fin 0 → Fin S.rank)) (hred : S.ReducesTo axes S_) (hu : 0 < S_.numel)
    (x : FVec Ideal S .f32)
    (e : Host.reduce IntOp.andi
          (cmpf .olt (Host.absf x) (broadcastInDim S ![] hb (constant (F := Ideal) S_ .f32 0x7F800000#32)))
          (constantI S_ 1 1#1) hred hu ValueIdx.ix0 = 1#1) :
    ∀ j, IsReal (x j) := by
  intro j
  have hj := Host.reduce_andi_all _ _ hred hu ValueIdx.ix0 e j
  exact isReal_of_cmp (x j) hj

/-- The precondition read back: every entry of every float argument is a real number. -/
theorem finite_of_fn [Facts] (a0 : FVec Ideal S50000x128 .f32) (a1 : FVec Ideal S600000x128 .f32)
    (a2 a3 : IVec S600000 32) (a4 : FVec Ideal S128x128 .f32) (a5 : FVec Ideal S128 .f32)
    (a6 : FVec Ideal S128x128 .f32) (a7 : FVec Ideal S128 .f32) (a8 : FVec Ideal S128x128 .f32)
    (a9 : FVec Ideal S128 .f32) (a10 : FVec Ideal S128x128 .f32) (a11 : FVec Ideal S128 .f32)
    (a12 : FVec Ideal S128x128 .f32) (a13 : FVec Ideal S128 .f32) (a14 a15 a16 a17 : FVec Ideal S128 .f32)
    (h : fn (F := Ideal) a0 a1 a2 a3 a4 a5 a6 a7 a8 a9 a10 a11 a12 a13 a14 a15 a16 a17 = (fun _ => 1#1)) :
    (∀ j, IsReal (a0 j)) ∧ (∀ j, IsReal (a1 j)) ∧ (∀ j, IsReal (a4 j)) ∧ (∀ j, IsReal (a5 j)) ∧
    (∀ j, IsReal (a6 j)) ∧ (∀ j, IsReal (a7 j)) ∧ (∀ j, IsReal (a8 j)) ∧ (∀ j, IsReal (a9 j)) ∧
    (∀ j, IsReal (a10 j)) ∧ (∀ j, IsReal (a11 j)) ∧ (∀ j, IsReal (a12 j)) ∧ (∀ j, IsReal (a13 j)) ∧
    (∀ j, IsReal (a14 j)) ∧ (∀ j, IsReal (a15 j)) ∧ (∀ j, IsReal (a16 j)) ∧ (∀ j, IsReal (a17 j)) := by
  have e := congrFun h ValueIdx.ix0
  dsimp only [fn, fn_part1, fn_part2, fn_part3, fn_part4] at e
  simp only [andi, IntOp.andi_eq_one] at e
  obtain ⟨⟨⟨⟨⟨⟨⟨⟨⟨⟨⟨⟨⟨⟨⟨e0, e1⟩, e4⟩, e5⟩, e6⟩, e7⟩, e8⟩, e9⟩, e10⟩, e11⟩, e12⟩, e13⟩, e14⟩, e15⟩, e16⟩, e17⟩ := e
  exact ⟨isReal_of_all _ _ _ a0 e0, isReal_of_all _ _ _ a1 e1, isReal_of_all _ _ _ a4 e4,
    isReal_of_all _ _ _ a5 e5, isReal_of_all _ _ _ a6 e6, isReal_of_all _ _ _ a7 e7,
    isReal_of_all _ _ _ a8 e8, isReal_of_all _ _ _ a9 e9, isReal_of_all _ _ _ a10 e10,
    isReal_of_all _ _ _ a11 e11, isReal_of_all _ _ _ a12 e12, isReal_of_all _ _ _ a13 e13,
    isReal_of_all _ _ _ a14 e14, isReal_of_all _ _ _ a15 e15, isReal_of_all _ _ _ a16 e16,
    isReal_of_all _ _ _ a17 e17⟩

end Cert.Pre_finite_inputs.FinitePre

end
-- ==== Proof.TermsAt.lean ====
/-
  The reference's computation read at an index.  Every definition of the term module is a composition of whole-array
  operations; here each is evaluated at one entry, at the ideal instance, and the result is stated in the vocabulary
  of the specification: a matrix product with one contracted axis is the sum over that axis of the entries' products,
  a reduction over the row axis is the initial value plus the sum over the rows, a broadcast reads the operand at the
  coordinates it keeps, and the elementwise operations are the extended reals' own.
-/
import proofs.«145784_j42537356100034_2_alg».proof.Proof.Terms
import proofs.«145784_j42537356100034_2_alg».proof.Proof.Spec
import proofs.«145784_j42537356100034_2_alg».proof.Proof.Consts
import Idealize.ShloMosaic.Lib.ValueIdx
import Idealize.ShloMosaic.Lib.ValueLayout
import Idealize.ShloMosaic.Lib.IdealHost
import Idealize.ShloMosaic.PureOps.Ideal.Laws
import Idealize.ShloMosaic.Lib.Pipeline.Value

noncomputable section

open scoped BigOperators

namespace Cert.ReferenceIdeal.TermsAt

open Idealize.ShloMosaic Cert.ReferenceIdeal Cert.ReferenceIdeal.Facts₀ Cert.ReferenceIdeal.Terms Cert.Spec
open Idealize.ShloMosaic.ValueIdx

variable [Facts]

/-- The entries of a rank-2 array as a function of the row and the column. -/
abbrev M {n : ℕ} (x : (⟨2, ![n, 128]⟩ : Shape).Idx → EReal) : Fin n → Fin 128 → EReal := fun i k => x (ix2 i k)
/-- The entries of a rank-1 array as a function of the position. -/
abbrev R (v : (⟨1, ![128]⟩ : Shape).Idx → EReal) : Fin 128 → EReal := fun q => v (ix1 q)

/-! ## Broadcasts -/

/-- A feature vector repeated along the edge axis reads the vector at the column. -/
theorem rowE_apply (b : Cf S128) (i : Fin 600000) (q : Fin 128) : rowE b (ix2 i q) = b (ix1 q) := by
  unfold rowE
  rw [broadcastInDim_apply _ _ _ _ (ix2 (0 : Fin 1) q) (fun a => by match a with | ⟨0, _⟩ => rfl | ⟨1, _⟩ => rfl)]
  rw [broadcastInDim_apply _ _ _ _ (ix1 q) (fun a => by match a with | ⟨0, _⟩ => rfl)]

/-- A feature vector repeated along the node axis reads the vector at the column. -/
theorem rowN_apply (b : Cf S128) (i : Fin 50000) (q : Fin 128) : rowN b (ix2 i q) = b (ix1 q) := by
  unfold rowN
  rw [broadcastInDim_apply _ _ _ _ (ix2 (0 : Fin 1) q) (fun a => by match a with | ⟨0, _⟩ => rfl | ⟨1, _⟩ => rfl)]
  rw [broadcastInDim_apply _ _ _ _ (ix1 q) (fun a => by match a with | ⟨0, _⟩ => rfl)]

/-! ## The affine maps -/

/-- The left operand's row coordinate at a result entry is the result's row. -/
theorem lhsE_0 (j : S600000x128.Idx) (c : dot_S600000x128_S128x128_S600000x128_1_0_0_1_n_n.contr.Idx) :
    (dot_S600000x128_S128x128_S600000x128_1_0_0_1_n_n.lhsIdx j c 0).val = (j 0).val := by
  unfold DotDims.lhsIdx
  rw [dif_neg (show ¬(0 : Fin S600000x128.rank) ∈ dot_S600000x128_S128x128_S600000x128_1_0_0_1_n_n.lhsBatch from List.not_mem_nil),
    dif_pos (show (0 : Fin S600000x128.rank) ∈ dot_S600000x128_S128x128_S600000x128_1_0_0_1_n_n.lhsNonContracting from List.mem_singleton.mpr rfl)]
  rfl
/-- The left operand's column coordinate is the contraction coordinate. -/
theorem lhsE_1 (j : S600000x128.Idx) (c : dot_S600000x128_S128x128_S600000x128_1_0_0_1_n_n.contr.Idx) :
    (dot_S600000x128_S128x128_S600000x128_1_0_0_1_n_n.lhsIdx j c 1).val = (c ⟨0, Nat.one_pos⟩).val :=
  dot_S600000x128_S128x128_S600000x128_1_0_0_1_n_n.lhsIdx_val_of_single rfl j c
/-- The right operand's row coordinate is the contraction coordinate. -/
theorem rhsE_0 (j : S600000x128.Idx) (c : dot_S600000x128_S128x128_S600000x128_1_0_0_1_n_n.contr.Idx) :
    (dot_S600000x128_S128x128_S600000x128_1_0_0_1_n_n.rhsIdx j c 0).val = (c ⟨0, Nat.one_pos⟩).val :=
  dot_S600000x128_S128x128_S600000x128_1_0_0_1_n_n.rhsIdx_val_of_single rfl j c
/-- The right operand's column coordinate at a result entry is the result's column. -/
theorem rhsE_1 (j : S600000x128.Idx) (c : dot_S600000x128_S128x128_S600000x128_1_0_0_1_n_n.contr.Idx) :
    (dot_S600000x128_S128x128_S600000x128_1_0_0_1_n_n.rhsIdx j c 1).val = (j 1).val := by
  unfold DotDims.rhsIdx
  rw [dif_neg (show ¬(1 : Fin S128x128.rank) ∈ dot_S600000x128_S128x128_S600000x128_1_0_0_1_n_n.rhsBatch from List.not_mem_nil),
    dif_pos (show (1 : Fin S128x128.rank) ∈ dot_S600000x128_S128x128_S600000x128_1_0_0_1_n_n.rhsNonContracting from List.mem_singleton.mpr rfl)]
  rfl

/-- The product of 600000 rows by a 128 × 128 matrix, at an entry: the sum over the contracted coordinate of the
    products of the entries. -/
theorem dotE_apply (x : Cf S600000x128) (W : Cf S128x128) (i : Fin 600000) (q : Fin 128) :
    Host.dotGeneral (F := Ideal) dot_S600000x128_S128x128_S600000x128_1_0_0_1_n_n none x W (ix2 i q)
      = ∑ k : Fin 128, x (ix2 i k) * W (ix2 k q) := by
  show FloatOps.dotGeneral _ none _ x W (ix2 i q) = _
  rw [Ideal.dotGeneral_apply, ← Equiv.sum_comp (contrEquiv1 dot_S600000x128_S128x128_S600000x128_1_0_0_1_n_n 128 rfl rfl).symm]
  refine Finset.sum_congr rfl fun k _ => ?_
  have hk := contrEquiv1_symm_val dot_S600000x128_S128x128_S600000x128_1_0_0_1_n_n 128 rfl rfl k
  have el : dot_S600000x128_S128x128_S600000x128_1_0_0_1_n_n.lhsIdx (ix2 i q) ((contrEquiv1 dot_S600000x128_S128x128_S600000x128_1_0_0_1_n_n 128 rfl rfl).symm k) = ix2 i k :=
    funext fun a => Fin.ext (by
      match a with
      | ⟨0, _⟩ => exact lhsE_0 _ _
      | ⟨1, _⟩ => exact (lhsE_1 _ _).trans hk)
  have er : dot_S600000x128_S128x128_S600000x128_1_0_0_1_n_n.rhsIdx (ix2 i q) ((contrEquiv1 dot_S600000x128_S128x128_S600000x128_1_0_0_1_n_n 128 rfl rfl).symm k) = ix2 k q :=
    funext fun a => Fin.ext (by
      match a with
      | ⟨0, _⟩ => exact (rhsE_0 _ _).trans hk
      | ⟨1, _⟩ => exact rhsE_1 _ _)
  rw [el, er]

/-- The affine map of 600000 rows at an entry. -/
theorem linE_apply (x : Cf S600000x128) (W : Cf S128x128) (b : Cf S128) (i : Fin 600000) (q : Fin 128) :
    linE x W b (ix2 i q) = Spec.lin (M x) (M W) (R b) i q := by
  unfold linE Spec.lin
  rw [addf_apply, dotE_apply, rowE_apply]

/-- The left operand's row coordinate at a result entry is the result's row. -/
theorem lhsN_0 (j : S50000x128.Idx) (c : dot_S50000x128_S128x128_S50000x128_1_0_0_1_n_n.contr.Idx) :
    (dot_S50000x128_S128x128_S50000x128_1_0_0_1_n_n.lhsIdx j c 0).val = (j 0).val := by
  unfold DotDims.lhsIdx
  rw [dif_neg (show ¬(0 : Fin S50000x128.rank) ∈ dot_S50000x128_S128x128_S50000x128_1_0_0_1_n_n.lhsBatch from List.not_mem_nil),
    dif_pos (show (0 : Fin S50000x128.rank) ∈ dot_S50000x128_S128x128_S50000x128_1_0_0_1_n_n.lhsNonContracting from List.mem_singleton.mpr rfl)]
  rfl
/-- The left operand's column coordinate is the contraction coordinate. -/
theorem lhsN_1 (j : S50000x128.Idx) (c : dot_S50000x128_S128x128_S50000x128_1_0_0_1_n_n.contr.Idx) :
    (dot_S50000x128_S128x128_S50000x128_1_0_0_1_n_n.lhsIdx j c 1).val = (c ⟨0, Nat.one_pos⟩).val :=
  dot_S50000x128_S128x128_S50000x128_1_0_0_1_n_n.lhsIdx_val_of_single rfl j c
/-- The right operand's row coordinate is the contraction coordinate. -/
theorem rhsN_0 (j : S50000x128.Idx) (c : dot_S50000x128_S128x128_S50000x128_1_0_0_1_n_n.contr.Idx) :
    (dot_S50000x128_S128x128_S50000x128_1_0_0_1_n_n.rhsIdx j c 0).val = (c ⟨0, Nat.one_pos⟩).val :=
  dot_S50000x128_S128x128_S50000x128_1_0_0_1_n_n.rhsIdx_val_of_single rfl j c
/-- The right operand's column coordinate at a result entry is the result's column. -/
theorem rhsN_1 (j : S50000x128.Idx) (c : dot_S50000x128_S128x128_S50000x128_1_0_0_1_n_n.contr.Idx) :
    (dot_S50000x128_S128x128_S50000x128_1_0_0_1_n_n.rhsIdx j c 1).val = (j 1).val := by
  unfold DotDims.rhsIdx
  rw [dif_neg (show ¬(1 : Fin S128x128.rank) ∈ dot_S50000x128_S128x128_S50000x128_1_0_0_1_n_n.rhsBatch from List.not_mem_nil),
    dif_pos (show (1 : Fin S128x128.rank) ∈ dot_S50000x128_S128x128_S50000x128_1_0_0_1_n_n.rhsNonContracting from List.mem_singleton.mpr rfl)]
  rfl

/-- The product of 50000 rows by a 128 × 128 matrix, at an entry: the sum over the contracted coordinate of the
    products of the entries. -/
theorem dotN_apply (x : Cf S50000x128) (W : Cf S128x128) (i : Fin 50000) (q : Fin 128) :
    Host.dotGeneral (F := Ideal) dot_S50000x128_S128x128_S50000x128_1_0_0_1_n_n none x W (ix2 i q)
      = ∑ k : Fin 128, x (ix2 i k) * W (ix2 k q) := by
  show FloatOps.dotGeneral _ none _ x W (ix2 i q) = _
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 i q) ((contrEquiv1 dot_S50000x128_S128x128_S50000x128_1_0_0_1_n_n 128 rfl rfl).symm k) = ix2 i k :=
    funext fun a => Fin.ext (by
      match a with
      | ⟨0, _⟩ => exact lhsN_0 _ _
      | ⟨1, _⟩ => exact (lhsN_1 _ _).trans hk)
  have er : dot_S50000x128_S128x128_S50000x128_1_0_0_1_n_n.rhsIdx (ix2 i q) ((contrEquiv1 dot_S50000x128_S128x128_S50000x128_1_0_0_1_n_n 128 rfl rfl).symm k) = ix2 k q :=
    funext fun a => Fin.ext (by
      match a with
      | ⟨0, _⟩ => exact (rhsN_0 _ _).trans hk
      | ⟨1, _⟩ => exact rhsN_1 _ _)
  rw [el, er]

/-- The affine map of 50000 rows at an entry. -/
theorem linN_apply (x : Cf S50000x128) (W : Cf S128x128) (b : Cf S128) (i : Fin 50000) (q : Fin 128) :
    linN x W b (ix2 i q) = Spec.lin (M x) (M W) (R b) i q := by
  unfold linN Spec.lin
  rw [addf_apply, dotN_apply, rowN_apply]

/-- The edge logits at an entry: the three affine maps summed. -/
theorem eta_apply (hi hj e : Cf S600000x128) (Aw : Cf S128x128) (Ab : Cf S128) (Bw : Cf S128x128) (Bb : Cf S128)
    (Cw : Cf S128x128) (Cb : Cf S128) (i : Fin 600000) (q : Fin 128) :
    eta hi hj e Aw Ab Bw Bb Cw Cb (ix2 i q)
      = (Spec.lin (M hi) (M Aw) (R Ab) i q + Spec.lin (M hj) (M Bw) (R Bb) i q) + Spec.lin (M e) (M Cw) (R Cb) i q := by
  unfold eta
  rw [addf_apply, addf_apply, linE_apply, linE_apply, linE_apply]

/-! ## Column sums, means and variances -/

/-- The scalar constant of pattern `+0.0` is `0`. -/
theorem kst_zero (j : S_.Idx) : kst 0x00000000#32 j = 0 := Consts.ofBits_zero
/-- The scalar constant of pattern `1.0` is `1`. -/
theorem kst_one (j : S_.Idx) : kst 0x3F800000#32 j = 1 := Consts.ofBits_one
/-- The scalar constant of pattern `600000.0` is the real `600000`. -/
theorem kst_600000 (j : S_.Idx) : kst 0x49127C00#32 j = ((600000 : ℝ) : EReal) := Consts.ofBits_600000
/-- The scalar constant of pattern `50000.0` is the real `50000`. -/
theorem kst_50000 (j : S_.Idx) : kst 0x47435000#32 j = ((50000 : ℝ) : EReal) := Consts.ofBits_50000
/-- Any other scalar constant reads the extended real its pattern denotes. -/
theorem kst_apply (b : BitVec 32) (j : S_.Idx) : kst b j = Ideal.ofBits .f32 b := rfl

/-- The ordered comparison `a > 0` of a positive extended real is the true bit. -/
theorem cmp_ogt_zero_of_pos {a : EReal} (h : 0 < a) : Ideal.cmp .ogt a 0 = 1#1 := by
  simp [Ideal.cmp, h]

/-- The witness that dropping the row axis of a 600000 × 128 array leaves its 128 columns. -/
theorem reducesE : S600000x128.Reduces [0] S128 := by decide

/-- The column sums over the 600000 rows at a column: the sum of the column's entries. -/
theorem sumE_apply (x : Cf S600000x128) (q : Fin 128) : sumE x (ix1 q) = Spec.colSum (M x) q := by
  unfold sumE Spec.colSum
  rw [hostReduceAdd_apply, Ideal.hostReduceAdd_single reducesTo_S600000x128_S128_d0 reducesE]
  rw [kst_zero, zero_add]
  refine Finset.sum_congr rfl fun k _ => ?_
  exact congrArg x (funext fun a => Fin.ext (by match a with | ⟨0, _⟩ => rfl | ⟨1, _⟩ => rfl))

/-- The column means over the 600000 rows at a column. -/
theorem meanE_apply (x : Cf S600000x128) (q : Fin 128) :
    meanE x (ix1 q) = Spec.mean ((600000 : ℝ) : EReal) (M x) q := by
  unfold meanE Spec.mean
  rw [hostDivf_apply, sumE_apply, broadcastInDim_scalar_apply, kst_600000]

/-- The deviation from the column mean at an entry. -/
theorem devE_apply (x : Cf S600000x128) (i : Fin 600000) (q : Fin 128) :
    devE x (ix2 i q) = x (ix2 i q) - Spec.mean ((600000 : ℝ) : EReal) (M x) q := by
  unfold devE Spec.mean
  rw [subf_apply]
  rw [broadcastInDim_apply _ _ _ _ (ix2 (0 : Fin 1) q) (fun a => by match a with | ⟨0, _⟩ => rfl | ⟨1, _⟩ => rfl)]
  rw [hostDivf_apply]
  rw [broadcastInDim_apply _ _ _ _ (ix1 q) (fun a => by match a with | ⟨0, _⟩ => rfl)]
  rw [sumE_apply, broadcastInDim_scalar_apply, kst_600000]

/-- The count the variance divides by is the number of rows: the correction subtracted from it is the integer zero. -/
theorem cntE_apply (j : S_.Idx) : cntE j = ((600000 : ℝ) : EReal) := by
  show Ideal.ofBits .f32 0x49127C00#32 - (((0#32 : BitVec 32).toInt : ℝ) : EReal) = _
  rw [Consts.ofBits_600000]
  simp

/-- The column sums of the squared deviations. -/
theorem sumSqE_apply (x : Cf S600000x128) (q : Fin 128) :
    sumE (mulf (devE x) (devE x)) (ix1 q)
      = ∑ i : Fin 600000, (M x i q - Spec.mean ((600000 : ℝ) : EReal) (M x) q)
          * (M x i q - Spec.mean ((600000 : ℝ) : EReal) (M x) q) := by
  rw [sumE_apply]
  unfold Spec.colSum
  refine Finset.sum_congr rfl fun i _ => ?_
  show mulf (devE x) (devE x) (ix2 i q) = _
  rw [mulf_apply, devE_apply]

/-- The guard of the variance: the count is positive. -/
theorem guardE : Ideal.cmp .ogt ((600000 : ℝ) : EReal) 0 = 1#1 :=
  cmp_ogt_zero_of_pos (by exact_mod_cast (by norm_num : (0 : ℝ) < 600000))

/-- The two-pass column variance over the 600000 rows at a column: the count is positive, so the guard takes its
    first branch, the mean of the squared deviations. -/
theorem varE_apply (x : Cf S600000x128) (q : Fin 128) :
    varE x (ix1 q) = Spec.var2 ((600000 : ℝ) : EReal) (M x) q := by
  unfold varE Spec.var2
  rw [select_apply, broadcastInDim_scalar_apply, cmpf_apply, cntE_apply, kst_zero, Ideal.cmpf_def, guardE]
  rw [select_one, hostDivf_apply, sumSqE_apply, broadcastInDim_scalar_apply, cntE_apply]

/-- The witness that dropping the row axis of a 50000 × 128 array leaves its 128 columns. -/
theorem reducesN : S50000x128.Reduces [0] S128 := by decide

/-- The column sums over the 50000 rows at a column: the sum of the column's entries. -/
theorem sumN_apply (x : Cf S50000x128) (q : Fin 128) : sumN x (ix1 q) = Spec.colSum (M x) q := by
  unfold sumN Spec.colSum
  rw [hostReduceAdd_apply, Ideal.hostReduceAdd_single reducesTo_S50000x128_S128_d0 reducesN]
  rw [kst_zero, zero_add]
  refine Finset.sum_congr rfl fun k _ => ?_
  exact congrArg x (funext fun a => Fin.ext (by match a with | ⟨0, _⟩ => rfl | ⟨1, _⟩ => rfl))

/-- The column means over the 50000 rows at a column. -/
theorem meanN_apply (x : Cf S50000x128) (q : Fin 128) :
    meanN x (ix1 q) = Spec.mean ((50000 : ℝ) : EReal) (M x) q := by
  unfold meanN Spec.mean
  rw [hostDivf_apply, sumN_apply, broadcastInDim_scalar_apply, kst_50000]

/-- The deviation from the column mean at an entry. -/
theorem devN_apply (x : Cf S50000x128) (i : Fin 50000) (q : Fin 128) :
    devN x (ix2 i q) = x (ix2 i q) - Spec.mean ((50000 : ℝ) : EReal) (M x) q := by
  unfold devN Spec.mean
  rw [subf_apply]
  rw [broadcastInDim_apply _ _ _ _ (ix2 (0 : Fin 1) q) (fun a => by match a with | ⟨0, _⟩ => rfl | ⟨1, _⟩ => rfl)]
  rw [hostDivf_apply]
  rw [broadcastInDim_apply _ _ _ _ (ix1 q) (fun a => by match a with | ⟨0, _⟩ => rfl)]
  rw [sumN_apply, broadcastInDim_scalar_apply, kst_50000]

/-- The count the variance divides by is the number of rows: the correction subtracted from it is the integer zero. -/
theorem cntN_apply (j : S_.Idx) : cntN j = ((50000 : ℝ) : EReal) := by
  show Ideal.ofBits .f32 0x47435000#32 - (((0#32 : BitVec 32).toInt : ℝ) : EReal) = _
  rw [Consts.ofBits_50000]
  simp

/-- The column sums of the squared deviations. -/
theorem sumSqN_apply (x : Cf S50000x128) (q : Fin 128) :
    sumN (mulf (devN x) (devN x)) (ix1 q)
      = ∑ i : Fin 50000, (M x i q - Spec.mean ((50000 : ℝ) : EReal) (M x) q)
          * (M x i q - Spec.mean ((50000 : ℝ) : EReal) (M x) q) := by
  rw [sumN_apply]
  unfold Spec.colSum
  refine Finset.sum_congr rfl fun i _ => ?_
  show mulf (devN x) (devN x) (ix2 i q) = _
  rw [mulf_apply, devN_apply]

/-- The guard of the variance: the count is positive. -/
theorem guardN : Ideal.cmp .ogt ((50000 : ℝ) : EReal) 0 = 1#1 :=
  cmp_ogt_zero_of_pos (by exact_mod_cast (by norm_num : (0 : ℝ) < 50000))

/-- The two-pass column variance over the 50000 rows at a column: the count is positive, so the guard takes its
    first branch, the mean of the squared deviations. -/
theorem varN_apply (x : Cf S50000x128) (q : Fin 128) :
    varN x (ix1 q) = Spec.var2 ((50000 : ℝ) : EReal) (M x) q := by
  unfold varN Spec.var2
  rw [select_apply, broadcastInDim_scalar_apply, cmpf_apply, cntN_apply, kst_zero, Ideal.cmpf_def, guardN]
  rw [select_one, hostDivf_apply, sumSqN_apply, broadcastInDim_scalar_apply, cntN_apply]

/-! ## Normalisation and the rectified update -/

/-- The reciprocal standard deviation at a column. -/
theorem istd_apply (v : Cf S128) (q : Fin 128) :
    istd v (ix1 q) = Ideal.rsqrt (v (ix1 q) + Ideal.ofBits .f32 0x3727C5AC#32) := by
  unfold istd
  show FloatOps.hostUnary .rsqrt (addf v _ (ix1 q)) = _
  rw [Ideal.hostUnary_rsqrt_def, addf_apply, broadcastInDim_scalar_apply, kst_apply]

/-- Batch normalisation of 600000 rows at an entry. -/
theorem bnE_apply (x : Cf S600000x128) (μ v s o : Cf S128) (i : Fin 600000) (q : Fin 128) :
    bnE x μ v s o (ix2 i q)
      = Spec.bn (Ideal.ofBits .f32 0x3727C5AC#32) (R μ) (R v) (R s) (R o) (x (ix2 i q)) q := by
  unfold bnE Spec.bn
  rw [addf_apply, mulf_apply, mulf_apply, subf_apply, rowE_apply, rowE_apply, rowE_apply, rowE_apply,
    istd_apply]

/-- The positive part at an entry. -/
theorem reluE_apply (x : Cf S600000x128) (j : S600000x128.Idx) : reluE x j = max (x j) 0 := by
  unfold reluE
  rw [maximumf_apply, broadcastInDim_scalar_apply, kst_zero]

/-- Batch normalisation of 50000 rows at an entry. -/
theorem bnN_apply (x : Cf S50000x128) (μ v s o : Cf S128) (i : Fin 50000) (q : Fin 128) :
    bnN x μ v s o (ix2 i q)
      = Spec.bn (Ideal.ofBits .f32 0x3727C5AC#32) (R μ) (R v) (R s) (R o) (x (ix2 i q)) q := by
  unfold bnN Spec.bn
  rw [addf_apply, mulf_apply, mulf_apply, subf_apply, rowN_apply, rowN_apply, rowN_apply, rowN_apply,
    istd_apply]

/-- The positive part at an entry. -/
theorem reluN_apply (x : Cf S50000x128) (j : S50000x128.Idx) : reluN x j = max (x j) 0 := by
  unfold reluN
  rw [maximumf_apply, broadcastInDim_scalar_apply, kst_zero]

/-- The updated edge features at an entry: the residual plus the rectified normalised logits, the statistics being
    the column mean and the two-pass column variance over the 600000 edges. -/
theorem eNew_apply (e x : Cf S600000x128) (s o : Cf S128) (i : Fin 600000) (q : Fin 128) :
    eNew e x s o (ix2 i q)
      = e (ix2 i q) + Spec.bnRelu (Ideal.ofBits .f32 0x3727C5AC#32) (Spec.mean ((600000 : ℝ) : EReal) (M x))
          (Spec.var2 ((600000 : ℝ) : EReal) (M x)) (R s) (R o) (x (ix2 i q)) q := by
  unfold eNew Spec.bnRelu
  rw [addf_apply, reluE_apply, bnE_apply]
  have hμ : R (meanE x) = Spec.mean ((600000 : ℝ) : EReal) (M x) := funext fun q => meanE_apply x q
  have hv : R (varE x) = Spec.var2 ((600000 : ℝ) : EReal) (M x) := funext fun q => varE_apply x q
  rw [hμ, hv]

/-- The updated node features at an entry, the statistics taken over the 50000 nodes. -/
theorem hNew_apply (h x : Cf S50000x128) (s o : Cf S128) (i : Fin 50000) (q : Fin 128) :
    hNew h x s o (ix2 i q)
      = h (ix2 i q) + Spec.bnRelu (Ideal.ofBits .f32 0x3727C5AC#32) (Spec.mean ((50000 : ℝ) : EReal) (M x))
          (Spec.var2 ((50000 : ℝ) : EReal) (M x)) (R s) (R o) (x (ix2 i q)) q := by
  unfold hNew Spec.bnRelu
  rw [addf_apply, reluN_apply, bnN_apply]
  have hμ : R (meanN x) = Spec.mean ((50000 : ℝ) : EReal) (M x) := funext fun q => meanN_apply x q
  have hv : R (varN x) = Spec.var2 ((50000 : ℝ) : EReal) (M x) := funext fun q => varN_apply x q
  rw [hμ, hv]

/-! ## The gate, the gated messages and the node pre-activation -/

/-- The gate at an entry is the logistic function of the entry. -/
theorem sig_apply (x : Cf S600000x128) (j : S600000x128.Idx) : Terms.sig x j = Ideal.logistic (x j) := by
  unfold Terms.sig Ideal.logistic
  rw [hostDivf_apply, addf_apply, broadcastInDim_scalar_apply, kst_one]
  rfl

/-- The gated message at an entry. -/
theorem unatt_apply (hj : Cf S600000x128) (Vw : Cf S128x128) (Vb : Cf S128) (σ : Cf S600000x128)
    (i : Fin 600000) (q : Fin 128) :
    unatt hj Vw Vb σ (ix2 i q) = Spec.lin (M hj) (M Vw) (R Vb) i q * σ (ix2 i q) := by
  unfold unatt
  rw [mulf_apply, linE_apply]

/-- The node pre-activation at an entry. -/
theorem nodePre_apply (h : Cf S50000x128) (Uw : Cf S128x128) (Ub : Cf S128) (agg ws : Cf S50000x128)
    (i : Fin 50000) (q : Fin 128) :
    nodePre h Uw Ub agg ws (ix2 i q)
      = Spec.lin (M h) (M Uw) (R Ub) i q + Ideal.div (agg (ix2 i q)) (ws (ix2 i q)) := by
  unfold nodePre
  rw [addf_apply, linN_apply, hostDivf_apply]

/-- The summed gates plus the small constant, at an entry. -/
theorem wsum_apply (s : Ci S600000) (σ : Cf S600000x128) (j : S50000x128.Idx) :
    wsum s σ j = seg s σ j + Ideal.ofBits .f32 0x358637BD#32 := by
  unfold wsum
  rw [addf_apply, broadcastInDim_scalar_apply, kst_apply]

/-! ## The gathered rows and the segment sums -/

/-- A gathered entry is an entry of the operand. -/
theorem gath_apply (h : Cf S50000x128) (s : Ci S600000) (j : S600000x128.Idx) :
    ∃ k : S50000x128.Idx, gath h s j = h k := ⟨_, rfl⟩

/-- Gathering rows of a finite array gives a finite array. -/
theorem gath_isReal (h : Cf S50000x128) (s : Ci S600000) (hh : ∀ j, IsReal (h j)) : ∀ j, IsReal (gath h s j) := by
  intro j
  obtain ⟨k, hk⟩ := gath_apply h s j
  rw [hk]
  exact hh k

/-- The segment sum is the accumulating scatter into the zero array. -/
theorem seg_eq_scatter (s : Ci S600000) (u : Cf S600000x128) :
    seg s u = Host.scatterAdd (F := Ideal) scatter_S50000x128_S600000x1_S600000x128_1_0_0_1
      (broadcastInDim S50000x128 ![] bcast_S_S50000x128 (kst 0x00000000#32))
      (broadcastInDim S600000x1 ![0] bcast_S600000_S600000x1_0 s) u := by
  unfold seg
  rfl

/-- At the ideal values the accumulating scatter is the exact sum of the colliding updates. -/
theorem scatter_eq_ideal (x : Cf S50000x128) (idx : Ci S600000x1) (u : Cf S600000x128) :
    Host.scatterAdd (F := Ideal) scatter_S50000x128_S600000x1_S600000x128_1_0_0_1 x idx u
      = Ideal.hostScatterAdd scatter_S50000x128_S600000x1_S600000x128_1_0_0_1 x idx u := by
  unfold Host.scatterAdd
  rw [Ideal.hostScatterAdd_def]

/-- A segment sum at an entry is the sum of the update's entries over a finite set of positions (those whose
    destination is the entry): the operand it accumulates into is zero. -/
theorem seg_apply (s : Ci S600000) (u : Cf S600000x128) (j : S50000x128.Idx) :
    ∃ A : Finset S600000x128.Idx, seg s u j = ∑ k ∈ A, u k := by
  refine ⟨?A, ?h⟩
  case h =>
    rw [seg_eq_scatter, scatter_eq_ideal]
    unfold Ideal.hostScatterAdd
    rw [broadcastInDim_scalar_apply, kst_zero, zero_add]

/-- Zero is finite. -/
private theorem isReal_zero' : IsReal 0 := ⟨0, rfl⟩
/-- A sum of two finite values is finite. -/
private theorem isReal_add' {x y : EReal} (hx : IsReal x) (hy : IsReal y) : IsReal (x + y) := by
  obtain ⟨a, rfl⟩ := hx; obtain ⟨b, rfl⟩ := hy
  exact ⟨a + b, (EReal.coe_add a b).symm⟩
/-- A finite sum of finite values is finite. -/
private theorem isReal_sum' {ι : Type*} (s : Finset ι) (f : ι → EReal) (h : ∀ i ∈ s, IsReal (f i)) :
    IsReal (∑ i ∈ s, f i) :=
  Finset.sum_induction f IsReal (fun _ _ ha hb => isReal_add' ha hb) isReal_zero' h

/-- A segment sum of a finite array is finite. -/
theorem seg_isReal (s : Ci S600000) (u : Cf S600000x128) (hu : ∀ j, IsReal (u j)) : ∀ j, IsReal (seg s u j) := by
  intro j
  obtain ⟨A, hA⟩ := seg_apply s u j
  rw [hA]
  exact isReal_sum' A u fun k _ => hu k

/-- A segment sum of an array with no negative entry has no negative entry. -/
theorem seg_nonneg (s : Ci S600000) (u : Cf S600000x128) (hu : ∀ j, 0 ≤ u j) : ∀ j, 0 ≤ seg s u j := by
  intro j
  obtain ⟨A, hA⟩ := seg_apply s u j
  rw [hA]
  exact Finset.sum_nonneg fun k _ => hu k

end Cert.ReferenceIdeal.TermsAt

end
-- ==== Proof.Algebra.lean ====
/-
  Pure mathematics on the extended reals for one gated graph-convolution layer: finiteness is preserved by every
  operation the layer uses, and on finite data the one-pass variance (mean of squares less squared mean, cut at zero)
  equals the two-pass variance (mean of squared deviations).  Also the regrouping of a tiled sum.
-/
import proofs.«145784_j42537356100034_2_alg».proof.Proof.Spec
import Idealize.ShloMosaic.PureOps.Ideal

noncomputable section

open scoped BigOperators

namespace Cert.Spec

open Idealize.ShloMosaic

/-! ### Finiteness is preserved -/

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

theorem isReal_div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb]
  exact ⟨a * (1 / b), (EReal.coe_mul a (1 / b)).symm⟩

theorem isReal_rsqrt {x : EReal} (hx : IsReal x) (hpos : 0 < x) : IsReal (Ideal.rsqrt x) := by
  obtain ⟨a, rfl⟩ := hx
  have ha : 0 < a := EReal.coe_pos.mp hpos
  rw [Ideal.rsqrt_coe, if_neg (not_lt.mpr ha.le), if_neg ha.ne']
  exact ⟨_, rfl⟩

theorem isReal_logistic {x : EReal} (hx : IsReal x) : IsReal (Ideal.logistic x) := by
  obtain ⟨a, rfl⟩ := hx
  rw [Ideal.logistic_coe]
  exact ⟨_, rfl⟩

theorem logistic_pos {x : EReal} (hx : IsReal x) : 0 < Ideal.logistic x := by
  obtain ⟨a, rfl⟩ := hx
  rw [Ideal.logistic_coe]
  have h : (0 : ℝ) < (1 + Real.exp (-a))⁻¹ := by positivity
  exact EReal.coe_pos.mpr h

theorem isReal_lin {n : ℕ} (x : Fin n → Fin 128 → EReal) (W : Fin 128 → Fin 128 → EReal) (b : Fin 128 → EReal)
    (i : Fin n) (q : Fin 128) (hx : ∀ k, IsReal (x i k)) (hW : ∀ k, IsReal (W k q)) (hb : IsReal (b q)) :
    IsReal (lin x W b i q) :=
  (isReal_sum _ _ (fun k _ => (hx k).mul (hW k))).add hb

theorem isReal_mean {n : ℕ} {N : ℝ} (hN : N ≠ 0) (x : Fin n → Fin 128 → EReal) (q : Fin 128)
    (hx : ∀ i, IsReal (x i q)) : IsReal (mean (N : EReal) x q) :=
  isReal_div (isReal_sum _ _ (fun i _ => hx i)) (isReal_coe N) (fun h => hN (EReal.coe_eq_zero.mp h))

/-! ### The two variances, computed over the reals -/

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of a column of reals is the real mean. -/
theorem mean_coe {n : ℕ} {N : ℝ} (hN : N ≠ 0) (x : Fin n → Fin 128 → EReal) (q : Fin 128) (r : Fin n → ℝ)
    (hr : ∀ i, x i q = (r i : EReal)) :
    mean (N : EReal) x q = (((∑ i, r i) * (1 / N) : ℝ) : EReal) := by
  unfold mean colSum
  rw [Ideal.div_coe hN, EReal.coe_mul, coe_sum]
  simp only [hr]

/-- The two-pass variance of a column of reals is the real mean of the squared deviations. -/
theorem var2_coe {n : ℕ} {N : ℝ} (hN : N ≠ 0) (x : Fin n → Fin 128 → EReal) (q : Fin 128) (r : Fin n → ℝ)
    (hr : ∀ i, x i q = (r i : EReal)) :
    var2 (N : EReal) x q
      = (((∑ i, (r i - (∑ j, r j) * (1 / N)) * (r i - (∑ j, r j) * (1 / N))) * (1 / N) : ℝ) : EReal) := by
  unfold var2
  rw [mean_coe hN x q r hr, Ideal.div_coe hN]
  simp only [hr, coe_sum, EReal.coe_mul, EReal.coe_sub]

/-- The one-pass variance of a column of reals is the real mean of squares less the squared mean, cut at zero. -/
theorem var1_coe {n : ℕ} {N : ℝ} (hN : N ≠ 0) (x : Fin n → Fin 128 → EReal) (q : Fin 128) (r : Fin n → ℝ)
    (hr : ∀ i, x i q = (r i : EReal)) :
    var1 (N : EReal) x q
      = max (((∑ i, r i * r i) * (1 / N) - (∑ j, r j) * (1 / N) * ((∑ j, r j) * (1 / N)) : ℝ) : EReal) 0 := by
  unfold var1
  rw [mean_coe hN x q r hr, Ideal.div_coe hN]
  simp only [hr, coe_sum, EReal.coe_mul, EReal.coe_sub]

/-- Over the reals, with `μ` the mean of `n` numbers: the mean of the squared deviations from `μ` is the mean of
    the squares less `μ²`. -/
theorem real_var_eq {n : ℕ} {N : ℝ} (hN : N = (n : ℝ)) (hn : 0 < n) (r : Fin n → ℝ) :
    (∑ i, (r i - (∑ j, r j) * (1 / N)) * (r i - (∑ j, r j) * (1 / N))) * (1 / N)
      = (∑ i, r i * r i) * (1 / N) - (∑ j, r j) * (1 / N) * ((∑ j, r j) * (1 / N)) := by
  have hN0 : N ≠ 0 := by rw [hN]; exact_mod_cast hn.ne'
  set S : ℝ := ∑ j, r j with hS
  set μ : ℝ := S * (1 / N) with hμ
  have e : ∀ i, (r i - μ) * (r i - μ) = r i * r i - 2 * μ * r i + μ * μ := fun i => by ring
  have key : ∑ i, (r i - μ) * (r i - μ) = (∑ i, r i * r i) - 2 * μ * S + N * (μ * μ) := by
    simp only [e, Finset.sum_add_distrib, Finset.sum_sub_distrib, ← Finset.mul_sum, Finset.sum_const,
      Finset.card_univ, Fintype.card_fin, nsmul_eq_mul, ← hN, ← hS]
    ring
  rw [key, hμ]
  field_simp
  ring

/-- Over the reals the mean of squared deviations is nonnegative. -/
theorem real_var_nonneg {n : ℕ} {N : ℝ} (hN : N = (n : ℝ)) (hn : 0 < n) (r : Fin n → ℝ) :
    0 ≤ (∑ i, (r i - (∑ j, r j) * (1 / N)) * (r i - (∑ j, r j) * (1 / N))) * (1 / N) := by
  have hN0 : (0 : ℝ) < N := by rw [hN]; exact_mod_cast hn
  exact mul_nonneg (Finset.sum_nonneg (fun i _ => mul_self_nonneg _)) (by positivity)

theorem var1_eq_var2 {n : ℕ} {N : ℝ} (hN : N = (n : ℝ)) (hn : 0 < n) (x : Fin n → Fin 128 → EReal) (q : Fin 128)
    (hx : ∀ i, IsReal (x i q)) : var1 (N : EReal) x q = var2 (N : EReal) x q := by
  have hN0 : N ≠ 0 := by rw [hN]; exact_mod_cast hn.ne'
  choose r hr using hx
  rw [var1_coe hN0 x q r hr, var2_coe hN0 x q r hr, ← real_var_eq hN hn r]
  exact max_eq_left (EReal.coe_nonneg.mpr (real_var_nonneg hN hn r))

theorem isReal_var2 {n : ℕ} {N : ℝ} (hN : N = (n : ℝ)) (hn : 0 < n) (x : Fin n → Fin 128 → EReal) (q : Fin 128)
    (hx : ∀ i, IsReal (x i q)) : IsReal (var2 (N : EReal) x q) := by
  have hN0 : N ≠ 0 := by rw [hN]; exact_mod_cast hn.ne'
  choose r hr using hx
  rw [var2_coe hN0 x q r hr]
  exact ⟨_, rfl⟩

theorem var2_nonneg {n : ℕ} {N : ℝ} (hN : N = (n : ℝ)) (hn : 0 < n) (x : Fin n → Fin 128 → EReal) (q : Fin 128)
    (hx : ∀ i, IsReal (x i q)) : 0 ≤ var2 (N : EReal) x q := by
  have hN0 : N ≠ 0 := by rw [hN]; exact_mod_cast hn.ne'
  choose r hr using hx
  rw [var2_coe hN0 x q r hr]
  exact EReal.coe_nonneg.mpr (real_var_nonneg hN hn r)

/-! ### The normalised, rectified entry is finite -/

theorem isReal_bnRelu {ε : ℝ} (hε : 0 < ε) (μ v s o : Fin 128 → EReal) (t : EReal) (q : Fin 128)
    (hμ : IsReal (μ q)) (hv : IsReal (v q)) (hv0 : 0 ≤ v q) (hs : IsReal (s q)) (ho : IsReal (o q))
    (ht : IsReal t) : IsReal (bnRelu (ε : EReal) μ v s o t q) := by
  unfold bnRelu bn
  have hpos : 0 < v q + (ε : EReal) := by
    obtain ⟨a, ha⟩ := hv
    rw [ha] at hv0 ⊢
    have h0 : 0 ≤ a := EReal.coe_nonneg.mp hv0
    rw [← EReal.coe_add]
    exact EReal.coe_pos.mpr (by linarith)
  exact ((((ht.sub hμ).mul (isReal_rsqrt (hv.add (isReal_coe ε)) hpos)).mul hs).add ho).max isReal_zero

/-! ### A tiled sum -/

/-- A sum over `T` tiles of `B` rows each, stored as one row per tile — row `8 t` of an array with eight rows per
    tile, the other seven rows zero — is the sum over all `T · B` rows. -/
theorem sum_tiles (T B : ℕ) (f g : ℕ → EReal)
    (h0 : ∀ t < T, g (8 * t) = ∑ i ∈ Finset.range B, f (B * t + i))
    (hz : ∀ r < T * 8, r % 8 ≠ 0 → g r = 0) :
    ∑ r ∈ Finset.range (T * 8), g r = ∑ j ∈ Finset.range (T * B), f j := by
  induction T with
  | zero => simp
  | succ T ih =>
    have ih' := ih (fun t ht => h0 t (Nat.lt_succ_of_lt ht)) (fun r hr => hz r (by omega))
    rw [Nat.succ_mul, Nat.succ_mul, Finset.sum_range_add, Finset.sum_range_add, ih']
    congr 1
    have e : ∀ k ∈ Finset.range 8, g (T * 8 + k) = if k = 0 then g (8 * T) else 0 := by
      intro k hk
      rw [Finset.mem_range] at hk
      by_cases h : k = 0
      · subst h; simp [Nat.mul_comm]
      · rw [if_neg h]; exact hz _ (by omega) (by omega)
    rw [Finset.sum_congr rfl e, Finset.sum_ite_eq' (Finset.range 8) 0 (fun _ => g (8 * T)),
      if_pos (by simp), h0 T (Nat.lt_succ_self T)]
    exact Finset.sum_congr rfl (fun i _ => by rw [Nat.mul_comm])

end Cert.Spec

end
-- ==== Proof.BridgeFin.lean ====
/-
  Every stage of the reference's computation is an ordinary real number on finite arguments: the gathered features,
  the edge logits, the normalised and rectified edge update, the gate (which is moreover positive), the gated messages,
  the gate sums (which are moreover nonzero: nonnegative sums plus a positive constant), the aggregated messages and
  the node pre-activation.
-/
import proofs.«145784_j42537356100034_2_alg».proof.Proof.Terms
import proofs.«145784_j42537356100034_2_alg».proof.Proof.TermsAt
import proofs.«145784_j42537356100034_2_alg».proof.Proof.Algebra
import proofs.«145784_j42537356100034_2_alg».proof.Proof.Consts
import proofs.«145784_j42537356100034_2_alg».proof.Proof.KFun
import proofs.«145784_j42537356100034_2_alg».proof.Proof.Gen.ReferenceIdeal
import proofs.«145784_j42537356100034_2_alg».proof.Proof.Gen.KernelIdeal

noncomputable section

open scoped BigOperators

namespace Cert.Bridge

open Idealize.ShloMosaic Idealize.ShloMosaic.ValueIdx Cert.Spec
open Cert.ReferenceIdeal Cert.ReferenceIdeal.Terms Cert.ReferenceIdeal.TermsAt
open Cert.KernelIdeal (KFun.Args)

/-- Every entry of every float argument is a real number. -/
structure Finite (A : KFun.Args) : Prop where
  h : ∀ j, IsReal (A.h j)
  e : ∀ j, IsReal (A.e j)
  Aw : ∀ j, IsReal (A.Aw j)
  Ab : ∀ j, IsReal (A.Ab j)
  Bw : ∀ j, IsReal (A.Bw j)
  Bb : ∀ j, IsReal (A.Bb j)
  Cw : ∀ j, IsReal (A.Cw j)
  Cb : ∀ j, IsReal (A.Cb j)
  Uw : ∀ j, IsReal (A.Uw j)
  Ub : ∀ j, IsReal (A.Ub j)
  Vw : ∀ j, IsReal (A.Vw j)
  Vb : ∀ j, IsReal (A.Vb j)
  se : ∀ j, IsReal (A.se j)
  oe : ∀ j, IsReal (A.oe j)
  sn : ∀ j, IsReal (A.sn j)
  on : ∀ j, IsReal (A.on j)

/-- The reference's edge logits. -/
abbrev etaT (A : KFun.Args) : Cf S600000x128 :=
  Terms.eta (Terms.gath A.h A.snd) (Terms.gath A.h A.rcv) A.e A.Aw A.Ab A.Bw A.Bb A.Cw A.Cb
/-- The reference's updated edge features. -/
abbrev enT (A : KFun.Args) : Cf S600000x128 :=
  Terms.eOut A.h A.e A.snd A.rcv A.Aw A.Ab A.Bw A.Bb A.Cw A.Cb A.se A.oe
/-- The reference's gate. -/
abbrev sigT (A : KFun.Args) : Cf S600000x128 := Terms.sig (enT A)
/-- The reference's gated messages. -/
abbrev unT (A : KFun.Args) : Cf S600000x128 := Terms.unatt (Terms.gath A.h A.rcv) A.Vw A.Vb (sigT A)
/-- The reference's gate sums. -/
abbrev wsT (A : KFun.Args) : Cf S50000x128 := Terms.wsum A.snd (sigT A)
/-- The reference's aggregated messages. -/
abbrev aggT (A : KFun.Args) : Cf S50000x128 := Terms.seg A.snd (unT A)
/-- The reference's node pre-activation. -/
abbrev preT (A : KFun.Args) : Cf S50000x128 := Terms.nodePre A.h A.Uw A.Ub (aggT A) (wsT A)

/-- The edge logits are real. -/
theorem etaT_isReal (A : KFun.Args) (hA : Finite A) : ∀ j, IsReal (etaT A j) := by
  intro j
  obtain ⟨r, q, rfl⟩ : ∃ (r : Fin 600000) (q : Fin 128), j = ix2 r q := ⟨j 0, j 1, eq_ix2 j⟩
  unfold etaT
  rw [eta_apply]
  exact ((isReal_lin _ _ _ r q (fun k => gath_isReal A.h A.snd hA.h _) (fun k => hA.Aw _) (hA.Ab _)).add
    (isReal_lin _ _ _ r q (fun k => gath_isReal A.h A.rcv hA.h _) (fun k => hA.Bw _) (hA.Bb _))).add
    (isReal_lin _ _ _ r q (fun k => hA.e _) (fun k => hA.Cw _) (hA.Cb _))

/-- The updated edge features are real. -/
theorem enT_isReal (A : KFun.Args) (hA : Finite A) : ∀ j, IsReal (enT A j) := by
  intro j
  obtain ⟨r, q, rfl⟩ : ∃ (r : Fin 600000) (q : Fin 128), j = ix2 r q := ⟨j 0, j 1, eq_ix2 j⟩
  obtain ⟨ε, hε, hεq⟩ := Cert.Consts.ofBits_eps
  show IsReal (Terms.eNew A.e (etaT A) A.se A.oe (ix2 r q))
  rw [eNew_apply, hεq]
  have hN : (600000 : ℝ) = ((600000 : ℕ) : ℝ) := by norm_num
  have hx : ∀ i : Fin 600000, IsReal (M (etaT A) i q) := fun i => etaT_isReal A hA (ix2 i q)
  exact (hA.e _).add (isReal_bnRelu hε _ _ _ _ _ q (isReal_mean (by norm_num) _ q hx)
    (isReal_var2 hN (by norm_num) _ q hx) (var2_nonneg hN (by norm_num) _ q hx) (hA.se _) (hA.oe _)
    (etaT_isReal A hA (ix2 r q)))

/-- The gate is real … -/
theorem sigT_isReal (A : KFun.Args) (hA : Finite A) : ∀ j, IsReal (sigT A j) := by
  intro j
  unfold sigT
  rw [sig_apply]
  exact isReal_logistic (enT_isReal A hA j)

/-- … and positive. -/
theorem sigT_pos (A : KFun.Args) (hA : Finite A) : ∀ j, 0 < sigT A j := by
  intro j
  unfold sigT
  rw [sig_apply]
  exact logistic_pos (enT_isReal A hA j)

/-- The gated messages are real. -/
theorem unT_isReal (A : KFun.Args) (hA : Finite A) : ∀ j, IsReal (unT A j) := by
  intro j
  obtain ⟨r, q, rfl⟩ : ∃ (r : Fin 600000) (q : Fin 128), j = ix2 r q := ⟨j 0, j 1, eq_ix2 j⟩
  unfold unT
  rw [unatt_apply]
  exact (isReal_lin _ _ _ r q (fun k => gath_isReal A.h A.rcv hA.h _) (fun k => hA.Vw _) (hA.Vb _)).mul
    (sigT_isReal A hA _)

/-- The gate sums are real … -/
theorem wsT_isReal (A : KFun.Args) (hA : Finite A) : ∀ j, IsReal (wsT A j) := by
  intro j
  obtain ⟨δ, hδ, hδq⟩ := Cert.Consts.ofBits_tiny
  unfold wsT
  rw [wsum_apply, hδq]
  exact (seg_isReal A.snd (sigT A) (sigT_isReal A hA) j).add (isReal_coe δ)

/-- … and nonzero: a sum of positive gates plus a positive constant. -/
theorem wsT_ne_zero (A : KFun.Args) (hA : Finite A) : ∀ j, wsT A j ≠ 0 := by
  intro j
  obtain ⟨δ, hδ, hδq⟩ := Cert.Consts.ofBits_tiny
  unfold wsT
  rw [wsum_apply, hδq]
  have h0 : 0 ≤ Terms.seg A.snd (sigT A) j := seg_nonneg A.snd (sigT A) (fun k => (sigT_pos A hA k).le) j
  have hpos : (0 : EReal) < (δ : EReal) := EReal.coe_pos.mpr hδ
  exact (lt_of_lt_of_le hpos (le_add_of_nonneg_left h0)).ne'

/-- The aggregated messages are real. -/
theorem aggT_isReal (A : KFun.Args) (hA : Finite A) : ∀ j, IsReal (aggT A j) := by
  exact seg_isReal A.snd (unT A) (unT_isReal A hA)

/-- The node pre-activation is real. -/
theorem preT_isReal (A : KFun.Args) (hA : Finite A) : ∀ j, IsReal (preT A j) := by
  intro j
  obtain ⟨r, q, rfl⟩ : ∃ (r : Fin 50000) (q : Fin 128), j = ix2 r q := ⟨j 0, j 1, eq_ix2 j⟩
  unfold preT
  rw [nodePre_apply]
  exact (isReal_lin _ _ _ r q (fun k => hA.h _) (fun k => hA.Uw _) (hA.Ub _)).add
    (isReal_div (aggT_isReal A hA _) (wsT_isReal A hA _) (wsT_ne_zero A hA _))

end Cert.Bridge

end
-- ==== Proof.Stats.lean ====
/-
  The batch statistics the kernel program's host stretches compute from the statistics tiles.  A statistics array holds,
  for each block of rows, one 8 × 128 tile whose first row is the block's column sums and whose other seven rows are
  zero; summing the array's rows therefore sums every block's column sums, which is the column sum over all the rows.
  Hence the mean row is the column mean and the variance row is the one-pass column variance.
-/
import proofs.«145784_j42537356100034_2_alg».proof.Proof.HostK
import proofs.«145784_j42537356100034_2_alg».proof.Proof.SpecK
import proofs.«145784_j42537356100034_2_alg».proof.Proof.Algebra
import proofs.«145784_j42537356100034_2_alg».proof.Proof.Consts
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.KernelIdeal.Stats

open Idealize.ShloMosaic Idealize.ShloMosaic.ValueIdx
open Cert.KernelIdeal Cert.KernelIdeal.Facts₀ Cert.KernelIdeal.HostK Cert.Spec

/-- A feature vector as a one-row matrix reads the vector at the column. -/
theorem row_apply (b : Cf S128) (q : Fin 128) : row b (ix2 (0 : Fin 1) q) = b (ix1 q) := by
  unfold row
  exact shapeCast_a_1a_apply b _ (0 : Fin 1) q

/-- The sum over `T` tiles of eight rows each, row `8t` holding block `t`'s sum over its `B` rows and the others zero, is
    the sum over all `T · B` rows. -/
theorem tiles_sum (T B R n : ℕ) (hR : R = T * 8) (hn : n = T * B) (f : Fin n → Fin 128 → EReal) (q : Fin 128) :
    (∑ r : Fin R, (if r.val % 8 = 0 then ∑ p ∈ Finset.range B, rowN f (B * (r.val / 8) + p) q else 0)) = ∑ i : Fin n, f i q := by
  subst hR hn
  rw [Fin.sum_univ_eq_sum_range (fun r => if r % 8 = 0 then ∑ p ∈ Finset.range B, rowN f (B * (r / 8) + p) q else 0) (T * 8)]
  rw [sum_tiles T B (fun j => rowN f j q) (fun r => if r % 8 = 0 then ∑ p ∈ Finset.range B, rowN f (B * (r / 8) + p) q else 0)
    (fun t _ => by
      show (if 8 * t % 8 = 0 then _ else _) = _
      rw [if_pos (Nat.mul_mod_right 8 t), Nat.mul_div_cancel_left t (by norm_num : 0 < 8)])
    (fun r _ hr => if_neg hr)]
  rw [← Fin.sum_univ_eq_sum_range (fun j => rowN f j q) (T * B)]
  exact Finset.sum_congr rfl fun i _ => rowN_of_lt f i.val i.isLt q

theorem reduces800 : S800x128.Reduces [0] S128 := by decide
theorem reduces80 : S80x128.Reduces [0] S128 := by decide

/-- The host's sum over the rows of an 800 × 128 array at a column. -/
theorem colsum800 (S : Cf S800x128) (q : Fin 128) :
    Host.reduceAdd S (constant S_ .f32 0x00000000#32) reducesTo_S800x128_S128_d0 h_S_ (ix1 q) = ∑ r : Fin 800, S (ix2 r q) := by
  rw [hostReduceAdd_apply, Ideal.hostReduceAdd_single reducesTo_S800x128_S128_d0 reduces800]
  rw [show (constant (F := Ideal) S_ .f32 0x00000000#32) (Shape.Idx.first h_S_) = 0 from Consts.ofBits_zero, zero_add]
  refine Finset.sum_congr rfl fun k _ => ?_
  exact congrArg S (funext fun a => Fin.ext (by match a with | ⟨0, _⟩ => rfl | ⟨1, _⟩ => rfl))

/-- The host's sum over the rows of an 80 × 128 array at a column. -/
theorem colsum80 (S : Cf S80x128) (q : Fin 128) :
    Host.reduceAdd S (constant S_ .f32 0x00000000#32) reducesTo_S80x128_S128_d0 h_S_ (ix1 q) = ∑ r : Fin 80, S (ix2 r q) := by
  rw [hostReduceAdd_apply, Ideal.hostReduceAdd_single reducesTo_S80x128_S128_d0 reduces80]
  rw [show (constant (F := Ideal) S_ .f32 0x00000000#32) (Shape.Idx.first h_S_) = 0 from Consts.ofBits_zero, zero_add]
  refine Finset.sum_congr rfl fun k _ => ?_
  exact congrArg S (funext fun a => Fin.ext (by match a with | ⟨0, _⟩ => rfl | ⟨1, _⟩ => rfl))

/-- The edge mean row from the tiles of the logits' column sums is the logits' column mean. -/
theorem meanE_tiles (f : Fin 600000 → Fin 128 → EReal) (S : Cf S800x128)
    (hS : ∀ (r : Fin 800) (q : Fin 128), S (ix2 r q) = if r.val % 8 = 0 then ∑ p ∈ Finset.range 6000, rowN f (6000 * (r.val / 8) + p) q else 0)
    (q : Fin 128) : meanE S (ix1 q) = mean ((600000 : ℝ) : EReal) f q := by
  unfold meanE mean colSum
  rw [hostDivf_apply, colsum800, broadcastInDim_scalar_apply]
  rw [show (constant (F := Ideal) S_ .f32 0x49127C00#32) ix0 = ((600000 : ℝ) : EReal) from Consts.ofBits_600000]
  rw [Finset.sum_congr rfl (fun r _ => hS r q), tiles_sum 100 6000 800 600000 rfl rfl f q]

/-- The edge variance row from the two statistics arrays is the logits' one-pass column variance. -/
theorem varE_tiles (f : Fin 600000 → Fin 128 → EReal) (S Q : Cf S800x128)
    (hS : ∀ (r : Fin 800) (q : Fin 128), S (ix2 r q) = if r.val % 8 = 0 then ∑ p ∈ Finset.range 6000, rowN f (6000 * (r.val / 8) + p) q else 0)
    (hQ : ∀ (r : Fin 800) (q : Fin 128), Q (ix2 r q) = if r.val % 8 = 0 then ∑ p ∈ Finset.range 6000, rowN (fun n q => f n q * f n q) (6000 * (r.val / 8) + p) q else 0)
    (q : Fin 128) : varE S Q (ix1 q) = var1 ((600000 : ℝ) : EReal) f q := by
  unfold varE var1
  rw [maximumf_apply, subf_apply, mulf_apply, meanE_tiles f S hS q, broadcastInDim_scalar_apply]
  rw [show (constant (F := Ideal) S_ .f32 0x00000000#32) ix0 = 0 from Consts.ofBits_zero]
  rw [meanE_tiles (fun n q => f n q * f n q) Q hQ q]
  rfl

/-- The node mean row from the tiles of the pre-activation's column sums is its column mean. -/
theorem meanN_tiles (f : Fin 50000 → Fin 128 → EReal) (S : Cf S80x128)
    (hS : ∀ (r : Fin 80) (q : Fin 128), S (ix2 r q) = if r.val % 8 = 0 then ∑ p ∈ Finset.range 5000, rowN f (5000 * (r.val / 8) + p) q else 0)
    (q : Fin 128) : meanN S (ix1 q) = mean ((50000 : ℝ) : EReal) f q := by
  unfold meanN mean colSum
  rw [hostDivf_apply, colsum80, broadcastInDim_scalar_apply]
  rw [show (constant (F := Ideal) S_ .f32 0x47435000#32) ix0 = ((50000 : ℝ) : EReal) from Consts.ofBits_50000]
  rw [Finset.sum_congr rfl (fun r _ => hS r q), tiles_sum 10 5000 80 50000 rfl rfl f q]

/-- The node variance row from the two statistics arrays is the pre-activation's one-pass column variance. -/
theorem varN_tiles (f : Fin 50000 → Fin 128 → EReal) (S Q : Cf S80x128)
    (hS : ∀ (r : Fin 80) (q : Fin 128), S (ix2 r q) = if r.val % 8 = 0 then ∑ p ∈ Finset.range 5000, rowN f (5000 * (r.val / 8) + p) q else 0)
    (hQ : ∀ (r : Fin 80) (q : Fin 128), Q (ix2 r q) = if r.val % 8 = 0 then ∑ p ∈ Finset.range 5000, rowN (fun n q => f n q * f n q) (5000 * (r.val / 8) + p) q else 0)
    (q : Fin 128) : varN S Q (ix1 q) = var1 ((50000 : ℝ) : EReal) f q := by
  unfold varN var1
  rw [maximumf_apply, subf_apply, mulf_apply, meanN_tiles f S hS q, broadcastInDim_scalar_apply]
  rw [show (constant (F := Ideal) S_ .f32 0x00000000#32) ix0 = 0 from Consts.ofBits_zero]
  rw [meanN_tiles (fun n q => f n q * f n q) Q hQ q]
  rfl

end Cert.KernelIdeal.Stats

end
-- ==== Proof.Bridge.lean ====
/-
  The edge half of the bridge between the two programs: on finite arguments the kernel program's updated edge
  features, as a function of the eighteen argument arrays, are the reference's.  Both add to the edge feature the
  rectified batch normalisation of the same logits; the kernel program normalises with the column mean and the
  one-pass column variance it reads off its tiles of partial sums, the reference with the column mean and the two-pass
  variance, and on finite logits the two variances are equal.
-/
import proofs.«145784_j42537356100034_2_alg».proof.Proof.BridgeFin
import proofs.«145784_j42537356100034_2_alg».proof.Proof.KFun
import proofs.«145784_j42537356100034_2_alg».proof.Proof.Stats
import proofs.«145784_j42537356100034_2_alg».proof.Proof.TermsAt
import proofs.«145784_j42537356100034_2_alg».proof.Proof.Algebra
import proofs.«145784_j42537356100034_2_alg».proof.Proof.SpecK
import proofs.«145784_j42537356100034_2_alg».proof.Proof.Gen.ReferenceIdeal
import proofs.«145784_j42537356100034_2_alg».proof.Proof.Gen.KernelIdeal

noncomputable section

open scoped BigOperators

namespace Cert.Bridge

open Idealize.ShloMosaic Idealize.ShloMosaic.ValueIdx
open Cert.Spec Cert.KernelIdeal Cert.ReferenceIdeal
open Cert.ReferenceIdeal.TermsAt (M R)

namespace Edge

/-- The kernel program's gather is the reference's: the same operation on the same arrays. -/
theorem gath_eq (h : HostK.Cf KernelIdeal.S50000x128) (s : HostK.Ci KernelIdeal.S600000) :
    HostK.gath h s = Terms.gath h s := rfl

/-- The edge logits entry by entry, as the kernel program computes them from its argument arrays. -/
def L (A : KFun.Args) : Fin 600000 → Fin 128 → EReal :=
  K0.E0 (KFun.HI A) (KFun.HJ A) A.e A.Aw A.Bw A.Cw (HostK.row A.Ab) (HostK.row A.Bb) (HostK.row A.Cb)

/-- A vector reshaped to a row, read along the row, is the vector. -/
theorem row_fun (b : HostK.Cf KernelIdeal.S128) : (fun q : Fin 128 => HostK.row b (ix2 (0 : Fin 1) q)) = R b :=
  funext fun q => Stats.row_apply b q

/-- The two programs' logits agree entry by entry: the kernel program adds the three products and the three biases
    from left to right, the reference adds three affine maps, and addition is commutative and associative. -/
theorem logits_apply (A : KFun.Args) (r : Fin 600000) (q : Fin 128) : L A r q = etaT A (ix2 r q) := by
  refine Eq.trans ?_ (TermsAt.eta_apply _ _ _ _ _ _ _ _ _ r q).symm
  unfold L K0.E0
  rw [etaK_eq, row_fun, row_fun, row_fun]
  rfl

/-- The two programs' logits are one function of the row and the column. -/
theorem logits_eq (A : KFun.Args) : L A = M (etaT A) := funext fun r => funext fun q => logits_apply A r q

/-- The mean row the second region is entered with is the logits' column mean. -/
theorem meanRow (A : KFun.Args) :
    (fun q : Fin 128 => HostK.row (HostK.meanE (KFun.S0 A)) (ix2 (0 : Fin 1) q))
      = Spec.mean ((600000 : ℝ) : EReal) (M (etaT A)) := by
  rw [row_fun]
  funext q
  rw [← logits_eq]
  exact Stats.meanE_tiles (L A) (KFun.S0 A) (fun r q => rfl) q

/-- The variance row the second region is entered with is the logits' one-pass column variance, which on finite
    logits is the two-pass one. -/
theorem varRow (A : KFun.Args) (hη : ∀ j, IsReal (etaT A j)) :
    (fun q : Fin 128 => HostK.row (HostK.varE (KFun.S0 A) (KFun.Q0 A)) (ix2 (0 : Fin 1) q))
      = Spec.var2 ((600000 : ℝ) : EReal) (M (etaT A)) := by
  rw [row_fun]
  funext q
  rw [← var1_eq_var2 (by norm_num) (by norm_num) (M (etaT A)) q (fun i => hη (ix2 i q)), ← logits_eq]
  exact Stats.varE_tiles (L A) (KFun.S0 A) (KFun.Q0 A) (fun r q => rfl) (fun r q => rfl) q

/-- The second region's first result at an entry: the edge feature plus the rectified normalised logit, the four rows
    read along the row. -/
theorem EN_apply (A : KFun.Args) (r : Fin 600000) (q : Fin 128) :
    KFun.EN A (ix2 r q)
      = A.e (ix2 r q) + bnRelu (Ideal.ofBits .f32 0x3727C5AC#32)
          (fun q : Fin 128 => HostK.row (HostK.meanE (KFun.S0 A)) (ix2 (0 : Fin 1) q))
          (fun q : Fin 128 => HostK.row (HostK.varE (KFun.S0 A) (KFun.Q0 A)) (ix2 (0 : Fin 1) q))
          (fun q : Fin 128 => HostK.row A.se (ix2 (0 : Fin 1) q))
          (fun q : Fin 128 => HostK.row A.oe (ix2 (0 : Fin 1) q)) (L A r q) q := by
  unfold KFun.EN K1.G15 L K0.E0
  rfl

/-- The kernel program's updated edge features are the reference's, when the logits are finite. -/
theorem edge_eq_of (A : KFun.Args) (hη : ∀ j, IsReal (etaT A j)) :
    KFun.EN A = Terms.eOut A.h A.e A.snd A.rcv A.Aw A.Ab A.Bw A.Bb A.Cw A.Cb A.se A.oe := by
  funext j
  obtain ⟨r, q, rfl⟩ : ∃ (r : Fin 600000) (q : Fin 128), j = ix2 r q := ⟨j 0, j 1, eq_ix2 j⟩
  unfold Terms.eOut
  rw [TermsAt.eNew_apply, EN_apply, meanRow, varRow A hη, row_fun, row_fun, logits_apply]

end Edge

/-- On finite arguments the kernel program's updated edge features are the reference's. -/
theorem edge_eq (A : KFun.Args) (hA : Finite A) :
    KFun.EN A = Terms.eOut A.h A.e A.snd A.rcv A.Aw A.Ab A.Bw A.Bb A.Cw A.Cb A.se A.oe :=
  Edge.edge_eq_of A (etaT_isReal A hA)

end Cert.Bridge

end
-- ==== Proof.BridgeN.lean ====
/-
  The node half of the comparison.  On finite arguments, and given that the two programs' updated edge features agree,
  the kernel program's updated node features, as a function of the argument arrays, are the reference's: the gated
  messages agree entry by entry, hence so do the two segment sums and the node pre-activation; the mean row read off the
  statistics tiles is the column mean of the pre-activation, and the one-pass variance row is its two-pass column
  variance because the pre-activation is finite.
-/
import proofs.«145784_j42537356100034_2_alg».proof.Proof.KFun
import proofs.«145784_j42537356100034_2_alg».proof.Proof.Stats
import proofs.«145784_j42537356100034_2_alg».proof.Proof.TermsAt
import proofs.«145784_j42537356100034_2_alg».proof.Proof.Algebra
import proofs.«145784_j42537356100034_2_alg».proof.Proof.BridgeFin
import proofs.«145784_j42537356100034_2_alg».proof.Proof.Gen.ReferenceIdeal
import proofs.«145784_j42537356100034_2_alg».proof.Proof.Gen.KernelIdeal

noncomputable section

open scoped BigOperators

namespace Cert.BridgeN

open Idealize.ShloMosaic Idealize.ShloMosaic.ValueIdx Cert.Spec
open Cert.KernelIdeal Cert.KernelIdeal.HostK

/-! ### The two programs' host operations are the same operations -/

theorem gath_eq (h : Cf S50000x128) (s : Ci S600000) : HostK.gath h s = ReferenceIdeal.Terms.gath h s := rfl

theorem gate_eq (x : Cf S600000x128) : HostK.gate x = ReferenceIdeal.Terms.sig x := rfl

theorem seg_eq (s : Ci S600000) (u : Cf S600000x128) : HostK.seg s u = ReferenceIdeal.Terms.seg s u := rfl

theorem wsum_eq (s : Ci S600000) (σ : Cf S600000x128) : HostK.wsum s σ = ReferenceIdeal.Terms.wsum s σ := by
  unfold HostK.wsum ReferenceIdeal.Terms.wsum
  rw [seg_eq]

/-! ### The regions' functions at an entry -/

theorem G16_apply (HI HJ E : FVec Ideal S600000x128 .f32) (Aw Bw Cw Vw : FVec Ideal S128x128 .f32)
    (Ab Bb Cb Vb μ v s o : FVec Ideal S1x128 .f32) (i : Fin 600000) (q : Fin 128) :
    K1.G16 HI HJ E Aw Bw Cw Vw Ab Bb Cb Vb μ v s o (ix2 i q)
      = lin (fun (i : Fin 600000) (k : Fin 128) => HJ (ix2 i k)) (fun (i : Fin 128) (k : Fin 128) => Vw (ix2 i k)) (fun q : Fin 128 => Vb (ix2 (0 : Fin 1) q)) i q
        * Ideal.logistic (K1.G15 HI HJ E Aw Bw Cw Ab Bb Cb μ v s o (ix2 i q)) := rfl

theorem G5_apply (H AGG WS : FVec Ideal S50000x128 .f32) (Uw : FVec Ideal S128x128 .f32) (Ub : FVec Ideal S1x128 .f32)
    (n : Fin 50000) (q : Fin 128) :
    K2.G5 H AGG WS Uw Ub (ix2 n q)
      = lin (fun (i : Fin 50000) (k : Fin 128) => H (ix2 i k)) (fun (i : Fin 128) (k : Fin 128) => Uw (ix2 i k)) (fun q : Fin 128 => Ub (ix2 (0 : Fin 1) q)) n q + Ideal.div (AGG (ix2 n q)) (WS (ix2 n q)) := rfl

theorem G3_apply (X H : FVec Ideal S50000x128 .f32) (μ v s o : FVec Ideal S1x128 .f32) (n : Fin 50000) (q : Fin 128) :
    K3.G X H μ v s o (ix2 n q)
      = H (ix2 n q) + bnRelu (Ideal.ofBits .f32 0x3727C5AC#32) (fun q : Fin 128 => μ (ix2 (0 : Fin 1) q)) (fun q : Fin 128 => v (ix2 (0 : Fin 1) q)) (fun q : Fin 128 => s (ix2 (0 : Fin 1) q)) (fun q : Fin 128 => o (ix2 (0 : Fin 1) q)) (X (ix2 n q)) q := rfl

/-- A vector as a one-row matrix, read along its row, is the vector. -/
theorem R1_row (b : Cf S128) : (fun q : Fin 128 => row b (ix2 (0 : Fin 1) q)) = fun q : Fin 128 => b (ix1 q) :=
  funext fun q => Stats.row_apply b q

/-- The rectified normalised entry looks at one column of its four rows. -/
theorem bnRelu_congr (ε : EReal) (μ v s o μ' v' s' o' : Fin 128 → EReal) (t : EReal) (q : Fin 128)
    (h1 : μ q = μ' q) (h2 : v q = v' q) (h3 : s q = s' q) (h4 : o q = o' q) :
    bnRelu ε μ v s o t q = bnRelu ε μ' v' s' o' t q := by
  unfold bnRelu bn
  rw [h1, h2, h3, h4]

/-! ### Stage by stage -/

/-- The gated messages agree. -/
theorem un_eq (A : KFun.Args) (en : Cf S600000x128) (hE : KFun.EN A = en) :
    KFun.UN A = ReferenceIdeal.Terms.unatt (ReferenceIdeal.Terms.gath A.h A.rcv) A.Vw A.Vb (ReferenceIdeal.Terms.sig en) := by
  funext j
  obtain ⟨i, q, rfl⟩ : ∃ (i : Fin 600000) (q : Fin 128), j = ix2 i q := ⟨j 0, j 1, eq_ix2 j⟩
  rw [ReferenceIdeal.TermsAt.unatt_apply, ReferenceIdeal.TermsAt.sig_apply, ← hE]
  unfold KFun.UN
  rw [G16_apply, R1_row]
  rfl

/-- Hence the aggregated messages agree … -/
theorem agg_eq (A : KFun.Args) (en : Cf S600000x128) (hE : KFun.EN A = en) :
    KFun.AGG A = ReferenceIdeal.Terms.seg A.snd (ReferenceIdeal.Terms.unatt (ReferenceIdeal.Terms.gath A.h A.rcv) A.Vw A.Vb (ReferenceIdeal.Terms.sig en)) := by
  unfold KFun.AGG
  rw [seg_eq, un_eq A en hE]

/-- … and the gate sums. -/
theorem ws_eq (A : KFun.Args) (en : Cf S600000x128) (hE : KFun.EN A = en) :
    KFun.WS A = ReferenceIdeal.Terms.wsum A.snd (ReferenceIdeal.Terms.sig en) := by
  unfold KFun.WS
  rw [wsum_eq, gate_eq, hE]

/-- The node pre-activation agrees. -/
theorem x_eq (A : KFun.Args) (en : Cf S600000x128) (hE : KFun.EN A = en) :
    KFun.X A = (ReferenceIdeal.Terms.nodePre A.h A.Uw A.Ub (ReferenceIdeal.Terms.seg A.snd (ReferenceIdeal.Terms.unatt (ReferenceIdeal.Terms.gath A.h A.rcv) A.Vw A.Vb (ReferenceIdeal.Terms.sig en))) (ReferenceIdeal.Terms.wsum A.snd (ReferenceIdeal.Terms.sig en))) := by
  funext j
  obtain ⟨n, q, rfl⟩ : ∃ (n : Fin 50000) (q : Fin 128), j = ix2 n q := ⟨j 0, j 1, eq_ix2 j⟩
  rw [ReferenceIdeal.TermsAt.nodePre_apply, ← agg_eq A en hE, ← ws_eq A en hE]
  unfold KFun.X
  rw [G5_apply, R1_row]

/-- The updated node features agree, the pre-activation being finite. -/
theorem node_eq_core (A : KFun.Args) (en : Cf S600000x128) (hE : KFun.EN A = en)
    (hpre : ∀ j, IsReal ((ReferenceIdeal.Terms.nodePre A.h A.Uw A.Ub (ReferenceIdeal.Terms.seg A.snd (ReferenceIdeal.Terms.unatt (ReferenceIdeal.Terms.gath A.h A.rcv) A.Vw A.Vb (ReferenceIdeal.Terms.sig en))) (ReferenceIdeal.Terms.wsum A.snd (ReferenceIdeal.Terms.sig en))) j)) :
    KFun.HN A = ReferenceIdeal.Terms.hOut A.h A.snd A.rcv A.Uw A.Ub A.Vw A.Vb A.sn A.on en := by
  have hX := x_eq A en hE
  funext j
  obtain ⟨n, q, rfl⟩ : ∃ (n : Fin 50000) (q : Fin 128), j = ix2 n q := ⟨j 0, j 1, eq_ix2 j⟩
  unfold ReferenceIdeal.Terms.hOut
  rw [ReferenceIdeal.TermsAt.hNew_apply, ← hX]
  unfold KFun.HN
  rw [G3_apply]
  refine congrArg (A.h (ix2 n q) + ·) ?_
  refine bnRelu_congr _ _ _ _ _ _ _ _ _ _ q ?_ ?_ ?_ ?_
  · show row (meanN (KFun.S2 A)) (ix2 (0 : Fin 1) q) = _
    rw [Stats.row_apply]
    exact Stats.meanN_tiles (K2.P2 A.h (KFun.AGG A) (KFun.WS A) A.Uw (row A.Ub)) (KFun.S2 A) (fun r q => rfl) q
  · show row (varN (KFun.S2 A) (KFun.Q2 A)) (ix2 (0 : Fin 1) q) = _
    rw [Stats.row_apply]
    rw [Stats.varN_tiles (K2.P2 A.h (KFun.AGG A) (KFun.WS A) A.Uw (row A.Ub)) (KFun.S2 A) (KFun.Q2 A)
      (fun r q => rfl) (fun r q => rfl) q]
    exact var1_eq_var2 (N := 50000) (n := 50000) (by norm_num) (by norm_num)
      (ReferenceIdeal.TermsAt.M (KFun.X A)) q (fun i => by rw [hX]; exact hpre (ix2 i q))
  · exact Stats.row_apply A.sn q
  · exact Stats.row_apply A.on q

/-- On finite arguments, and given that the updated edge features agree, the updated node features agree. -/
theorem node_eq_of (A : KFun.Args) (hA : Cert.Bridge.Finite A)
    (hE : KFun.EN A = ReferenceIdeal.Terms.eOut A.h A.e A.snd A.rcv A.Aw A.Ab A.Bw A.Bb A.Cw A.Cb A.se A.oe) :
    KFun.HN A = ReferenceIdeal.Terms.hOut A.h A.snd A.rcv A.Uw A.Ub A.Vw A.Vb A.sn A.on
      (ReferenceIdeal.Terms.eOut A.h A.e A.snd A.rcv A.Aw A.Ab A.Bw A.Bb A.Cw A.Cb A.se A.oe) :=
  node_eq_core A _ hE (Cert.Bridge.preT_isReal A hA)

end Cert.BridgeN
end
-- ==== Proof.lean ====
/-
  The certificate of one gated graph-convolution layer: a kernel program of four pipelined regions (edge statistics;
  edge normalisation, residual and gate; node pre-activation and statistics; node normalisation and residual) with
  gathers, segment sums and the batch statistics' last steps on the host between them, against a plain reference.

  At the ideal instance both compute, entry by entry on the extended reals, the same layer.  The edge logits are three
  affine maps of the gathered endpoint features and the edge features, added in a different grouping (addition is
  commutative and associative).  The kernel sums each block's logits into a statistics tile and the host adds the tiles,
  where the reference sums all rows at once: one sum, regrouped.  The kernel takes the batch variance in one pass — the
  mean of the squares less the square of the mean, cut off at zero — and the reference in two — the mean of the squared
  deviations; over real numbers these are equal, and every logit (and later every node pre-activation) is a real number
  because the inputs are finite: that is the one place the precondition is used, and it is needed there.  The gate's
  two spellings, `tpu.logistic` and `1 / (1 + e⁻ˣ)`, are one function; the gathers, the segment sums and the final
  normalisations are the same operations on equal operands.

  The three frames: the two kernel programs' by the generated frame certificates, the reference's by its run.  Nothing
  was rewritten by the idealisation, so there is nothing to preserve.  The algebraic claim: both programs run, the
  kernel's two result buffers end at the composed region functions of the arguments, the reference's at its own terms,
  and the two are equal on finite arguments.
-/
import proofs.«145784_j42537356100034_2_alg».proof.Defs
import proofs.«145784_j42537356100034_2_alg».proof.Proof.Gen.Kernel
import proofs.«145784_j42537356100034_2_alg».proof.Proof.Gen.Kernel.Frame
import proofs.«145784_j42537356100034_2_alg».proof.Proof.Gen.KernelIdeal
import proofs.«145784_j42537356100034_2_alg».proof.Proof.Gen.KernelIdeal.Frame
import proofs.«145784_j42537356100034_2_alg».proof.Proof.Gen.ReferenceIdeal
import proofs.«145784_j42537356100034_2_alg».proof.Proof.Gen.Pre_finite_inputs
import proofs.«145784_j42537356100034_2_alg».proof.Proof.KRun
import proofs.«145784_j42537356100034_2_alg».proof.Proof.KChain
import proofs.«145784_j42537356100034_2_alg».proof.Proof.RefRun
import proofs.«145784_j42537356100034_2_alg».proof.Proof.FinitePre
import proofs.«145784_j42537356100034_2_alg».proof.Proof.BridgeFin
import proofs.«145784_j42537356100034_2_alg».proof.Proof.Bridge
import proofs.«145784_j42537356100034_2_alg».proof.Proof.BridgeN
import Idealize.ShloMosaic.Adequacy
import Idealize.ShloMosaic.Init

noncomputable section

namespace Cert.Proof

open Idealize.ShloMosaic Idealize.SL.Sem

/-- The precondition makes every float argument array real, entry by entry. -/
theorem finite_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.Bridge.Finite (Cert.KernelIdeal.KChain.args m c) := by
  obtain ⟨f0, f1, f4, f5, f6, f7, f8, f9, f10, f11, f12, f13, f14, f15, f16, f17⟩ :=
    Cert.Pre_finite_inputs.FinitePre.finite_of_fn _ _ _ _ _ _ _ _ _ _ _ _ _ _ _ _ _ _ (hpre c)
  exact ⟨f0, f1, f4, f5, f6, f7, f8, f9, f10, f11, f12, f13, f14, f15, f16, f17⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame m ρ

/-- The idealisation rewrote nothing. -/
theorem preserves : Cert.preserves_Kernel_KernelIdeal := trivial

/-- Both programs run; the kernel's results are the composed region functions of the arguments, the reference's its own
    terms of arguments that agree, and on finite arguments the two are equal. -/
theorem algebraic : Cert.algebraic_KernelIdeal_ReferenceIdeal := by
  intro m ρ m' ρ' hpre hagree
  refine ⟨fun c => Cert.KernelIdeal.KFun.HN (Cert.KernelIdeal.KChain.args m c),
    fun c => Cert.KernelIdeal.KFun.EN (Cert.KernelIdeal.KChain.args m c), ?_, ?_⟩
  · exact (θ_run Cert.KernelIdeal.defs _ _).mono
      (fun r h c => ⟨(h c).1.trans (Cert.KernelIdeal.KChain.w8_v64 m ρ c),
        (h c).2.1.trans (Cert.KernelIdeal.KChain.w8_v36_0 m ρ c), (h c).2.2⟩)
      (Cert.KernelIdeal.KRun.run (F := Ideal) m ρ)
  · refine (θ_run Cert.ReferenceIdeal.defs _ _).mono (fun r h c => ?_) (Cert.ReferenceIdeal.RefRun.run m' ρ')
    have hA := finite_args m hpre c
    have hE := Cert.Bridge.edge_eq _ hA
    have hN := Cert.BridgeN.node_eq_of _ hA hE
    obtain ⟨g0, g1, g2, g3, g4, g5, g6, g7, g8, g9, g10, g11, g12, g13, g14, g15, g16, g17⟩ := hagree c
    refine ⟨(h c).1.trans ?_, (h c).2.1.trans ?_, (h c).2.2⟩
    · rw [g0, g1, g2, g3, g4, g5, g6, g7, g8, g9, g10, g11, g12, g13, g14, g15, g16, g17]
      exact hN.symm
    · rw [g0, g1, g2, g3, g4, g5, g6, g7, g8, g9, g14, g15]
      exact hE.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
